-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x2048 : Shape := ⟨2, ![2048, 2048]⟩
abbrev S1x1x2048x64 : Shape := ⟨4, ![1, 1, 2048, 64]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x1x2048x64 : S_.BroadcastsInDim S1x1x2048x64 (![] : Fin 0 → Fin S1x1x2048x64.rank)
  reducesTo_S1x1x2048x64_S_d0_1_2_3 : S1x1x2048x64.ReducesTo [0, 1, 2, 3] S_

variable [Facts]

def fn_part2 {F : FTy → Type} [FloatOps F] (main_arg7 : FVec F S1x1x2048x64 .f32) (main_arg8 : FVec F S1x1x2048x64 .f32) (main_arg9 : FVec F S1x1x2048x64 .f32) (main_v33 : IVec S_ 1) : IVec S_ 1 :=
  let main_v34 : FVec F S1x1x2048x64 .f32 := Host.absf main_arg7
  let main_cst_12 : FVec F S_ .f32 := constant S_ .f32 0x7F800000#32
  let main_v35 : FVec F S1x1x2048x64 .f32 := broadcastInDim S1x1x2048x64 ![] bcast_S_S1x1x2048x64 main_cst_12
  let main_v36 : IVec S1x1x2048x64 1 := cmpf .olt main_v34 main_v35
  let main_c_13 : IVec S_ 1 := constantI S_ 1 1#1
  let main_v37 : IVec S_ 1 := (fun x v => Host.reduce IntOp.andi x v reducesTo_S1x1x2048x64_S_d0_1_2_3 h_S_) main_v36 main_c_13
  let main_v38 : IVec S_ 1 := andi main_v33 main_v37
  let main_v39 : FVec F S1x1x2048x64 .f32 := Host.absf main_arg8
  let main_cst_14 : FVec F S_ .f32 := constant S_ .f32 0x7F800000#32
  let main_v40 : FVec F S1x1x2048x64 .f32 := broadcastInDim S1x1x2048x64 ![] bcast_S_S1x1x2048x64 main_cst_14
  let main_v41 : IVec S1x1x2048x64 1 := cmpf .olt main_v39 main_v40
  let main_c_15 : IVec S_ 1 := constantI S_ 1 1#1
  let main_v42 : IVec S_ 1 := (fun x v => Host.reduce IntOp.andi x v reducesTo_S1x1x2048x64_S_d0_1_2_3 h_S_) main_v41 main_c_15
  let main_v43 : IVec S_ 1 := andi main_v38 main_v42
  let main_v44 : FVec F S1x1x2048x64 .f32 := Host.absf main_arg9
  let main_cst_16 : FVec F S_ .f32 := constant S_ .f32 0x7F800000#32
  let main_v45 : FVec F S1x1x2048x64 .f32 := broadcastInDim S1x1x2048x64 ![] bcast_S_S1x1x2048x64 main_cst_16
  let main_v46 : IVec S1x1x2048x64 1 := cmpf .olt main_v44 main_v45
  let main_c_17 : IVec S_ 1 := constantI S_ 1 1#1
  let main_v47 : IVec S_ 1 := (fun x v => Host.reduce IntOp.andi x v reducesTo_S1x1x2048x64_S_d0_1_2_3 h_S_) main_v46 main_c_17
  let main_v48 : IVec S_ 1 := andi main_v43 main_v47
  main_v48

def fn_part1 {F : FTy → Type} [FloatOps F] (main_arg4 : FVec F S2048x2048 .f32) (main_arg5 : FVec F S2048x2048 .f32) (main_arg6 : FVec F S1x1x2048x64 .f32) (main_arg7 : FVec F S1x1x2048x64 .f32) (main_arg8 : FVec F S1x1x2048x64 .f32) (main_arg9 : FVec F S1x1x2048x64 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S1x1x2048x64 .f32 := Host.absf main_arg6
  let main_cst_10 : FVec F S_ .f32 := constant S_ .f32 0x7F800000#32
  let main_v30 : FVec F S1x1x2048x64 .f32 := broadcastInDim S1x1x2048x64 ![] bcast_S_S1x1x2048x64 main_cst_10
  let main_v31 : IVec S1x1x2048x64 1 := cmpf .olt main_v29 main_v30
  let main_c_11 : IVec S_ 1 := constantI S_ 1 1#1
  let main_v32 : IVec S_ 1 := (fun x v => Host.reduce IntOp.andi x v reducesTo_S1x1x2048x64_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S2x2048x2048 .f32) (main_arg1 : FVec F S2x2048x2048 .f32) (main_arg2 : FVec F S2048x2048 .f32) (main_arg3 : FVec F S2048x2048 .f32) (main_arg4 : FVec F S2048x2048 .f32) (main_arg5 : FVec F S2048x2048 .f32) (main_arg6 : FVec F S1x1x2048x64 .f32) (main_arg7 : FVec F S1x1x2048x64 .f32) (main_arg8 : FVec F S1x1x2048x64 .f32) (main_arg9 : FVec F S1x1x2048x64 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2x2048x2048 .f32 := Host.absf main_arg1
  let main_cst_0 : FVec F S_ .f32 := constant S_ .f32 0x7F800000#32
  let main_v5 : FVec F S2x2048x2048 .f32 := broadcastInDim S2x2048x2048 ![] bcast_S_S2x2048x2048 main_cst_0
  let main_v6 : IVec S2x2048x2048 1 := cmpf .olt main_v4 main_v5
  let main_c_1 : IVec S_ 1 := constantI S_ 1 1#1
  let main_v7 : IVec S_ 1 := (fun x v => Host.reduce IntOp.andi x v reducesTo_S2x2048x2048_S_d0_1_2 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_v13 main_v16
-- ==== Kernel.lean ====
abbrev S2x2048x2048 : Shape := ⟨3, ![2, 2048, 2048]⟩
abbrev S2048x2048 : Shape := ⟨2, ![2048, 2048]⟩
abbrev S1x1x2048x64 : Shape := ⟨4, ![1, 1, 2048, 64]⟩
abbrev S4096x2048 : Shape := ⟨2, ![4096, 2048]⟩
abbrev S512x2048 : Shape := ⟨2, ![512, 2048]⟩
abbrev S512x512 : Shape := ⟨2, ![512, 512]⟩
abbrev S1x2048x1x64 : Shape := ⟨4, ![1, 2048, 1, 64]⟩
abbrev S2x2048x16x128 : Shape := ⟨4, ![2, 2048, 16, 128]⟩
abbrev S2x2048x16x64x2 : Shape := ⟨5, ![2, 2048, 16, 64, 2]⟩
abbrev S2x2048x16x64x1 : Shape := ⟨5, ![2, 2048, 16, 64, 1]⟩
abbrev S2x2048x16x64 : Shape := ⟨4, ![2, 2048, 16, 64]⟩
abbrev S512x128 : Shape := ⟨2, ![512, 128]⟩
abbrev S2048x128 : Shape := ⟨2, ![2048, 128]⟩
abbrev S512 : Shape := ⟨1, ![512]⟩
abbrev S512x1 : Shape := ⟨2, ![512, 1]⟩

abbrev nBuf : Space → Nat
  | .hbm => 80
  | .vmem => 32
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x1x2048x64, .f32⟩
  | .hbm, ⟨7, _⟩ => ⟨S1x1x2048x64, .f32⟩
  | .hbm, ⟨8, _⟩ => ⟨S1x1x2048x64, .f32⟩
  | .hbm, ⟨9, _⟩ => ⟨S1x1x2048x64, .f32⟩
  | .hbm, ⟨10, _⟩ => ⟨S4096x2048, .f32⟩
  | .hbm, ⟨11, _⟩ => ⟨S4096x2048, .bf16⟩
  | .hbm, ⟨12, _⟩ => ⟨S4096x2048, .f32⟩
  | .hbm, ⟨13, _⟩ => ⟨S4096x2048, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S4096x2048, .bf16⟩
  | .hbm, ⟨19, _⟩ => ⟨S4096x2048, .bf16⟩
  | .hbm, ⟨20, _⟩ => ⟨S4096x2048, .bf16⟩
  | .hbm, ⟨21, _⟩ => ⟨S1x2048x1x64, .f32⟩
  | .hbm, ⟨22, _⟩ => ⟨S1x2048x1x64, .f32⟩
  | .hbm, ⟨23, _⟩ => ⟨S1x2048x1x64, .f32⟩
  | .hbm, ⟨24, _⟩ => ⟨S1x2048x1x64, .f32⟩
  | .hbm, ⟨25, _⟩ => ⟨S2x2048x16x128, .bf16⟩
  | .hbm, ⟨26, _⟩ => ⟨S2x2048x16x128, .bf16⟩
  | .hbm, ⟨27, _⟩ => ⟨S2x2048x16x64x2, .bf16⟩
  | .hbm, ⟨28, _⟩ => ⟨S2x2048x16x64x1, .bf16⟩
  | .hbm, ⟨29, _⟩ => ⟨S2x2048x16x64, .bf16⟩
  | .hbm, ⟨30, _⟩ => ⟨S2x2048x16x64x1, .bf16⟩
  | .hbm, ⟨31, _⟩ => ⟨S2x2048x16x64, .bf16⟩
  | .hbm, ⟨32, _⟩ => ⟨S2x2048x16x64, .f32⟩
  | .hbm, ⟨33, _⟩ => ⟨S2x2048x16x64, .f32⟩
  | .hbm, ⟨34, _⟩ => ⟨S2x2048x16x64, .f32⟩
  | .hbm, ⟨35, _⟩ => ⟨S2x2048x16x64, .f32⟩
  | .hbm, ⟨36, _⟩ => ⟨S2x2048x16x64, .f32⟩
  | .hbm, ⟨37, _⟩ => ⟨S2x2048x16x64, .f32⟩
  | .hbm, ⟨38, _⟩ => ⟨S2x2048x16x64, .f32⟩
  | .hbm, ⟨39, _⟩ => ⟨S2x2048x16x64, .f32⟩
  | .hbm, ⟨40, _⟩ => ⟨S2x2048x16x64, .f32⟩
  | .hbm, ⟨41, _⟩ => ⟨S2x2048x16x64, .f32⟩
  | .hbm, ⟨42, _⟩ => ⟨S2x2048x16x64, .f32⟩
  | .hbm, ⟨43, _⟩ => ⟨S2x2048x16x64, .f32⟩
  | .hbm, ⟨44, _⟩ => ⟨S2x2048x16x64, .f32⟩
  | .hbm, ⟨45, _⟩ => ⟨S2x2048x16x64, .f32⟩
  | .hbm, ⟨46, _⟩ => ⟨S2x2048x16x64x1, .f32⟩
  | .hbm, ⟨47, _⟩ => ⟨S2x2048x16x64x1, .f32⟩
  | .hbm, ⟨48, _⟩ => ⟨S2x2048x16x64x2, .f32⟩
  | .hbm, ⟨49, _⟩ => ⟨S2x2048x16x128, .f32⟩
  | .hbm, ⟨50, _⟩ => ⟨S2x2048x16x64x2, .bf16⟩
  | .hbm, ⟨51, _⟩ => ⟨S2x2048x16x64x1, .bf16⟩
  | .hbm, ⟨52, _⟩ => ⟨S2x2048x16x64, .bf16⟩
  | .hbm, ⟨53, _⟩ => ⟨S2x2048x16x64x1, .bf16⟩
  | .hbm, ⟨54, _⟩ => ⟨S2x2048x16x64, .bf16⟩
  | .hbm, ⟨55, _⟩ => ⟨S2x2048x16x64, .f32⟩
  | .hbm, ⟨56, _⟩ => ⟨S2x2048x16x64, .f32⟩
  | .hbm, ⟨57, _⟩ => ⟨S2x2048x16x64, .f32⟩
  | .hbm, ⟨58, _⟩ => ⟨S2x2048x16x64, .f32⟩
  | .hbm, ⟨59, _⟩ => ⟨S2x2048x16x64, .f32⟩
  | .hbm, ⟨60, _⟩ => ⟨S2x2048x16x64, .f32⟩
  | .hbm, ⟨61, _⟩ => ⟨S2x2048x16x64, .f32⟩
  | .hbm, ⟨62, _⟩ => ⟨S2x2048x16x64, .f32⟩
  | .hbm, ⟨63, _⟩ => ⟨S2x2048x16x64, .f32⟩
  | .hbm, ⟨64, _⟩ => ⟨S2x2048x16x64, .f32⟩
  | .hbm, ⟨65, _⟩ => ⟨S2x2048x16x64, .f32⟩
  | .hbm, ⟨66, _⟩ => ⟨S2x2048x16x64, .f32⟩
  | .hbm, ⟨67, _⟩ => ⟨S2x2048x16x64, .f32⟩
  | .hbm, ⟨68, _⟩ => ⟨S2x2048x16x64, .f32⟩
  | .hbm, ⟨69, _⟩ => ⟨S2x2048x16x64x1, .f32⟩
  | .hbm, ⟨70, _⟩ => ⟨S2x2048x16x64x1, .f32⟩
  | .hbm, ⟨71, _⟩ => ⟨S2x2048x16x64x2, .f32⟩
  | .hbm, ⟨72, _⟩ => ⟨S2x2048x16x128, .f32⟩
  | .hbm, ⟨73, _⟩ => ⟨S4096x2048, .f32⟩
  | .hbm, ⟨74, _⟩ => ⟨S4096x2048, .bf16⟩
  | .hbm, ⟨75, _⟩ => ⟨S4096x2048, .f32⟩
  | .hbm, ⟨76, _⟩ => ⟨S4096x2048, .bf16⟩
  | .hbm, ⟨77, _⟩ => ⟨S4096x2048, .bf16⟩
  | .hbm, ⟨78, _⟩ => ⟨S4096x2048, .f32⟩
  | .hbm, ⟨79, _⟩ => ⟨S2x2048x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x512, .bf16⟩
  | .local _ .vmem, ⟨11, _⟩ => ⟨S512x512, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x512, .bf16⟩
  | .local _ .vmem, ⟨17, _⟩ => ⟨S512x512, .bf16⟩
  | .local _ .vmem, ⟨18, _⟩ => ⟨S512x128, .bf16⟩
  | .local _ .vmem, ⟨19, _⟩ => ⟨S512x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S512x128, .bf16⟩
  | .local _ .vmem, ⟨25, _⟩ => ⟨S512x128, .bf16⟩
  | .local _ .vmem, ⟨26, _⟩ => ⟨S512x2048, .bf16⟩
  | .local _ .vmem, ⟨27, _⟩ => ⟨S512x2048, .bf16⟩
  | .local _ .vmem, ⟨28, _⟩ => ⟨S512x2048, .bf16⟩
  | .local _ .vmem, ⟨29, _⟩ => ⟨S512x2048, .bf16⟩
  | .local _ .vmem, ⟨30, _⟩ => ⟨S512x512, .f32⟩
  | .local _ .vmem, ⟨31, _⟩ => ⟨S512x512, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![2, 16, 4], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage3_0 : Fin 2 → Memref sig .tc .vmem S512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  shapeCasts_S2x2048x2048_S4096x2048 : S2x2048x2048.ShapeCasts S4096x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  transposes_S1x1x2048x64_S1x2048x1x64_0_2_1_3 : S1x1x2048x64.Transposes [0, 2, 1, 3] S1x2048x1x64
  shapeCasts_S4096x2048_S2x2048x16x128 : S4096x2048.ShapeCasts S2x2048x16x128
  shapeCasts_S2x2048x16x128_S2x2048x16x64x2 : S2x2048x16x128.ShapeCasts S2x2048x16x64x2
  slices_S2x2048x16x64x2_S2x2048x16x64x1_0_0_0_0_0 : S2x2048x16x64x2.Slices ![0, 0, 0, 0, 0] S2x2048x16x64x1
  shapeCasts_S2x2048x16x64x1_S2x2048x16x64 : S2x2048x16x64x1.ShapeCasts S2x2048x16x64
  slices_S2x2048x16x64x2_S2x2048x16x64x1_0_0_0_0_1 : S2x2048x16x64x2.Slices ![0, 0, 0, 0, 1] S2x2048x16x64x1
  bcast_S1x2048x1x64_S2x2048x16x64_0_1_2_3 : S1x2048x1x64.BroadcastsInDim S2x2048x16x64 (![0, 1, 2, 3] : Fin 4 → Fin S2x2048x16x64.rank)
  bcast_S2x2048x16x64_S2x2048x16x64x1_0_1_2_3 : S2x2048x16x64.BroadcastsInDim S2x2048x16x64x1 (![0, 1, 2, 3] : Fin 4 → Fin S2x2048x16x64x1.rank)
  concatenates_S2x2048x16x64x1_S2x2048x16x64x1_S2x2048x16x64x2_d4 : Shape.Concatenates [S2x2048x16x64x1, S2x2048x16x64x1] S2x2048x16x64x2 4
  shapeCasts_S2x2048x16x64x2_S2x2048x16x128 : S2x2048x16x64x2.ShapeCasts S2x2048x16x128
  shapeCasts_S2x2048x16x128_S4096x2048 : S2x2048x16x128.ShapeCasts S4096x2048
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S512x2048_S512 : S512x2048.Reduces [1] S512
  shapeCasts_S512_S512x1 : S512.ShapeCasts S512x1
  broadcasts_S512x1_S512x2048 : S512x1.Broadcasts S512x2048
  broadcasts_S512x1_S512x128 : S512x1.Broadcasts S512x128
  packedbf16_S512x128_S512x128_0_0 : (Rect.unit (s := S512x128) ![0, 0] S512x128.size inb_S512x128_S512x128_0_0).PackedRows (EltTy.packing .bf16)
  shapeCasts_S4096x2048_S2x2048x2048 : S4096x2048.ShapeCasts S2x2048x2048
  dot_S512x2048_S512x2048_S512x512_1_1_0_0_n_n_wf : DotDims.WF S512x2048 S512x2048 S512x512 [1] [1] [0] [0] [] []
  dot_S512x128_S2048x128_S512x2048_1_1_0_0_n_n_wf : DotDims.WF S512x128 S2048x128 S512x2048 [1] [1] [0] [0] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x2048.size a
  hwx0_2 : ∀ i : grid0.Coords, EltTy.bits .bf16 = 32 ∨ (Rect.block (s := S4096x2048) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .bf16 = 32 ∨ (Rect.block (s := S2048x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x2048.size a
  hwx1_2 : ∀ i : grid1.Coords, EltTy.bits .bf16 = 32 ∨ (Rect.block (s := S4096x2048) S512x512.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .bf16 = 32 ∨ (Rect.block (s := S2048x2048) S512x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x2048.size a
  hwx2_2 : ∀ i : grid2.Coords, EltTy.bits .bf16 = 32 ∨ (Rect.block (s := S4096x2048) S512x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S4096x2048.size a
  hwx3_0 : ∀ i : grid3.Coords, EltTy.bits .bf16 = 32 ∨ (Rect.block (s := S4096x2048) S512x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S4096x2048.size a
  hwx3_1 : ∀ i : grid3.Coords, EltTy.bits .bf16 = 32 ∨ (Rect.block (s := S4096x2048) S2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S4096x2048.size a
  hwx3_2 : ∀ i : grid3.Coords, EltTy.bits .bf16 = 32 ∨ (Rect.block (s := S4096x2048) S2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S4096x2048.size a
  hwx3_3 : ∀ i : grid3.Coords, EltTy.bits .bf16 = 32 ∨ (Rect.block (s := S4096x2048) S512x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S4096x2048.size a
  hwx4_0 : ∀ i : grid4.Coords, EltTy.bits .bf16 = 32 ∨ (Rect.block (s := S4096x2048) S512x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2048.size a ≤ S2048x2048.size a
  hwx4_1 : ∀ i : grid4.Coords, EltTy.bits .bf16 = 32 ∨ (Rect.block (s := S2048x2048) S512x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S4096x2048.size a
  hwx4_2 : ∀ i : grid4.Coords, EltTy.bits .f32 = 32 ∨ (Rect.block (s := S4096x2048) S512x512.size (cc4_transform_2 i) (hinb4_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S512x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S512x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x2048x2048 : Shape := ⟨3, ![2, 2048, 2048]⟩
abbrev S2048x2048 : Shape := ⟨2, ![2048, 2048]⟩
abbrev S1x1x2048x64 : Shape := ⟨4, ![1, 1, 2048, 64]⟩
abbrev S2x2048x16x128 : Shape := ⟨4, ![2, 2048, 16, 128]⟩
abbrev S2x16x2048x128 : Shape := ⟨4, ![2, 16, 2048, 128]⟩
abbrev S2x16x2048x64x2 : Shape := ⟨5, ![2, 16, 2048, 64, 2]⟩
abbrev S2x16x2048x64x1 : Shape := ⟨5, ![2, 16, 2048, 64, 1]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x1x2048x64, .f32⟩
  | .hbm, ⟨7, _⟩ => ⟨S1x1x2048x64, .f32⟩
  | .hbm, ⟨8, _⟩ => ⟨S1x1x2048x64, .f32⟩
  | .hbm, ⟨9, _⟩ => ⟨S1x1x2048x64, .f32⟩
  | .hbm, ⟨10, _⟩ => ⟨S2x2048x2048, .f32⟩
  | .hbm, ⟨11, _⟩ => ⟨S2x2048x16x128, .f32⟩
  | .hbm, ⟨12, _⟩ => ⟨S2x16x2048x128, .f32⟩
  | .hbm, ⟨13, _⟩ => ⟨S2x2048x2048, .f32⟩
  | .hbm, ⟨14, _⟩ => ⟨S2x2048x16x128, .f32⟩
  | .hbm, ⟨15, _⟩ => ⟨S2x16x2048x128, .f32⟩
  | .hbm, ⟨16, _⟩ => ⟨S2x2048x2048, .f32⟩
  | .hbm, ⟨17, _⟩ => ⟨S2x2048x16x128, .f32⟩
  | .hbm, ⟨18, _⟩ => ⟨S2x16x2048x128, .f32⟩
  | .hbm, ⟨19, _⟩ => ⟨S2x16x2048x64x2, .f32⟩
  | .hbm, ⟨20, _⟩ => ⟨S2x16x2048x64x1, .f32⟩
  | .hbm, ⟨21, _⟩ => ⟨S2x16x2048x64, .f32⟩
  | .hbm, ⟨22, _⟩ => ⟨S2x16x2048x64x1, .f32⟩
  | .hbm, ⟨23, _⟩ => ⟨S2x16x2048x64, .f32⟩
  | .hbm, ⟨24, _⟩ => ⟨S2x16x2048x64, .f32⟩
  | .hbm, ⟨25, _⟩ => ⟨S2x16x2048x64, .f32⟩
  | .hbm, ⟨26, _⟩ => ⟨S2x16x2048x64, .f32⟩
  | .hbm, ⟨27, _⟩ => ⟨S2x16x2048x64, .f32⟩
  | .hbm, ⟨28, _⟩ => ⟨S2x16x2048x64, .f32⟩
  | .hbm, ⟨29, _⟩ => ⟨S2x16x2048x64, .f32⟩
  | .hbm, ⟨30, _⟩ => ⟨S2x16x2048x64, .f32⟩
  | .hbm, ⟨31, _⟩ => ⟨S2x16x2048x64, .f32⟩
  | .hbm, ⟨32, _⟩ => ⟨S2x16x2048x64, .f32⟩
  | .hbm, ⟨33, _⟩ => ⟨S2x16x2048x64, .f32⟩
  | .hbm, ⟨34, _⟩ => ⟨S2x16x2048x64x1, .f32⟩
  | .hbm, ⟨35, _⟩ => ⟨S2x16x2048x64x1, .f32⟩
  | .hbm, ⟨36, _⟩ => ⟨S2x16x2048x64x2, .f32⟩
  | .hbm, ⟨37, _⟩ => ⟨S2x16x2048x128, .f32⟩
  | .hbm, ⟨38, _⟩ => ⟨S2x16x2048x64x2, .f32⟩
  | .hbm, ⟨39, _⟩ => ⟨S2x16x2048x64x1, .f32⟩
  | .hbm, ⟨40, _⟩ => ⟨S2x16x2048x64, .f32⟩
  | .hbm, ⟨41, _⟩ => ⟨S2x16x2048x64x1, .f32⟩
  | .hbm, ⟨42, _⟩ => ⟨S2x16x2048x64, .f32⟩
  | .hbm, ⟨43, _⟩ => ⟨S2x16x2048x64, .f32⟩
  | .hbm, ⟨44, _⟩ => ⟨S2x16x2048x64, .f32⟩
  | .hbm, ⟨45, _⟩ => ⟨S2x16x2048x64, .f32⟩
  | .hbm, ⟨46, _⟩ => ⟨S2x16x2048x64, .f32⟩
  | .hbm, ⟨47, _⟩ => ⟨S2x16x2048x64, .f32⟩
  | .hbm, ⟨48, _⟩ => ⟨S2x16x2048x64, .f32⟩
  | .hbm, ⟨49, _⟩ => ⟨S2x16x2048x64, .f32⟩
  | .hbm, ⟨50, _⟩ => ⟨S2x16x2048x64, .f32⟩
  | .hbm, ⟨51, _⟩ => ⟨S2x16x2048x64, .f32⟩
  | .hbm, ⟨52, _⟩ => ⟨S2x16x2048x64, .f32⟩
  | .hbm, ⟨53, _⟩ => ⟨S2x16x2048x64x1, .f32⟩
  | .hbm, ⟨54, _⟩ => ⟨S2x16x2048x64x1, .f32⟩
  | .hbm, ⟨55, _⟩ => ⟨S2x16x2048x64x2, .f32⟩
  | .hbm, ⟨56, _⟩ => ⟨S2x16x2048x128, .f32⟩
  | .hbm, ⟨57, _⟩ => ⟨S2x16x2048x2048, .f32⟩
  | .hbm, ⟨58, _⟩ => ⟨S_, .f32⟩
  | .hbm, ⟨59, _⟩ => ⟨S2x16x2048x2048, .f32⟩
  | .hbm, ⟨60, _⟩ => ⟨S2x16x2048x2048, .f32⟩
  | .hbm, ⟨61, _⟩ => ⟨S_, .f32⟩
  | .hbm, ⟨62, _⟩ => ⟨S2x16x2048, .f32⟩
  | .hbm, ⟨63, _⟩ => ⟨S_, .f32⟩
  | .hbm, ⟨64, _⟩ => ⟨S2x16x2048, .f32⟩
  | .hbm, ⟨65, _⟩ => ⟨S2x16x2048, .f32⟩
  | .hbm, ⟨66, _⟩ => ⟨S2x16x2048x1, .f32⟩
  | .hbm, ⟨67, _⟩ => ⟨S2x16x2048x2048, .f32⟩
  | .hbm, ⟨68, _⟩ => ⟨S2x16x2048x2048, .f32⟩
  | .hbm, ⟨69, _⟩ => ⟨S2x16x2048x2048, .f32⟩
  | .hbm, ⟨70, _⟩ => ⟨S_, .f32⟩
  | .hbm, ⟨71, _⟩ => ⟨S2x16x2048, .f32⟩
  | .hbm, ⟨72, _⟩ => ⟨S2x16x2048x1, .f32⟩
  | .hbm, ⟨73, _⟩ => ⟨S2x16x2048x2048, .f32⟩
  | .hbm, ⟨74, _⟩ => ⟨S2x16x2048x2048, .f32⟩
  | .hbm, ⟨75, _⟩ => ⟨S2x16x2048x128, .f32⟩
  | .hbm, ⟨76, _⟩ => ⟨S2x2048x16x128, .f32⟩
  | .hbm, ⟨77, _⟩ => ⟨S2x2048x2048, .f32⟩
  | .hbm, ⟨78, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst : Ref sig .tc := ⟨.hbm, 58, rfl⟩
abbrev main_v48 : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_cst_1 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_2 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]

class Facts₀ : Prop where
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  shapeCasts_S2x16x2048x128_S2x16x2048x64x2 : S2x16x2048x128.ShapeCasts S2x16x2048x64x2
  slices_S2x16x2048x64x2_S2x16x2048x64x1_0_0_0_0_0 : S2x16x2048x64x2.Slices ![0, 0, 0, 0, 0] S2x16x2048x64x1
  shapeCasts_S2x16x2048x64x1_S2x16x2048x64 : S2x16x2048x64x1.ShapeCasts S2x16x2048x64
  slices_S2x16x2048x64x2_S2x16x2048x64x1_0_0_0_0_1 : S2x16x2048x64x2.Slices ![0, 0, 0, 0, 1] S2x16x2048x64x1
  bcast_S1x1x2048x64_S2x16x2048x64_0_1_2_3 : S1x1x2048x64.BroadcastsInDim S2x16x2048x64 (![0, 1, 2, 3] : Fin 4 → Fin S2x16x2048x64.rank)
  bcast_S2x16x2048x64_S2x16x2048x64x1_0_1_2_3 : S2x16x2048x64.BroadcastsInDim S2x16x2048x64x1 (![0, 1, 2, 3] : Fin 4 → Fin S2x16x2048x64x1.rank)
  concatenates_S2x16x2048x64x1_S2x16x2048x64x1_S2x16x2048x64x2_d4 : Shape.Concatenates [S2x16x2048x64x1, S2x16x2048x64x1] S2x16x2048x64x2 4
  shapeCasts_S2x16x2048x64x2_S2x16x2048x128 : S2x16x2048x64x2.ShapeCasts S2x16x2048x128
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S2048x2048_S2x2048x2048_2_1_01_0_n_n_wf : DotDims.WF S2x2048x2048 S2048x2048 S2x2048x2048 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.KernelRun.lean ====
/-
  The idealized kernel program's run with its RESULT named.  Every weakly fair execution of @main terminates, nothing
  faulting; the argument arrays end as launched, and the result array ends at the last boundary's contents `W8` — the
  fold of the program's host stretches and of its five regions' write-backs over the launch memory — read at the
  result's buffer.  The statement is the frame claim with one more conjunct: the last thread state holds EVERY
  unscoped buffer at `W8`, so the result's buffer is read off it exactly as each argument's is.
-/
import proofs.«142431_j50843822850167_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run : θ_run defs (onTc (τ := τ) (main (F := F))) ⟨m, fun _ => 0, ρ⟩ (fun r => ∀ c : Dev nD,
      r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v69 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KernelRun

end
-- ==== Proof.Spec.lean ====
/-
  The attention layer both programs compute, written once over COORDINATES (no program is imported here).

  Arrays are functions of their coordinates: a batch of rows `X b t d`, a weight table `W e d`, a rotary table
  `c t i`.  A projection is `proj X W b t e = ∑ d, X b t d * W e d` (the rows times the TRANSPOSED table).  Column
  `e` of a projected row belongs to head `e / 128`, lane `e % 128`; `col h d` is column `h * 128 + d`.  The rotary
  embedding pairs lanes `2i, 2i+1` of one head: lane `2i` becomes `x(2i)·c(t,i) − x(2i+1)·s(t,i)`, lane `2i+1`
  becomes `x(2i+1)·c(t,i) + x(2i)·s(t,i)`.  A score is the inner product of a rotated query row and a rotated
  key row over the 128 lanes of one head, times the scale word; a row of 2048 scores is exponentiated relative to
  its maximum (`top`, a fold of `max` from the −∞ word), and the context is the exponentials' weighted sum of the
  value rows divided by their sum.  The two programs differ in ONE place: one divides the weighted sum by the
  denominator (`ctxK`), the other divides each weight first (`ctxR`).  They agree when every score and value is
  a real number, which is where the finiteness of the inputs is used (Proof/SoftmaxLaw.lean).
-/
import Idealize.ShloMosaic.PureOps.Ideal
import Idealize.ShloMosaic.Lib.ValueIdx

noncomputable section

open scoped BigOperators

namespace Cert.Attn

open Idealize.ShloMosaic Idealize.ShloMosaic.ValueIdx

/-- A batch of rows: batch, position, feature. -/
abbrev Rows := Fin 2 → Fin 2048 → Fin 2048 → EReal
/-- A weight table: output feature, input feature. -/
abbrev Table := Fin 2048 → Fin 2048 → EReal
/-- A rotary table: position, lane pair. -/
abbrev Rot := Fin 2048 → Fin 64 → EReal
/-- Rows split by head: batch, position, head, lane. -/
abbrev Heads := Fin 2 → Fin 2048 → Fin 16 → Fin 128 → EReal

/-- The rows times the transposed table. -/
def proj (X : Rows) (W : Table) : Rows := fun b t e => ∑ d : Fin 2048, X b t d * W e d

/-- Column `h * 128 + d`: lane `d` of head `h`. -/
def col (h : Fin 16) (d : Fin 128) : Fin 2048 := ⟨h.val * 128 + d.val, by have := h.isLt; have := d.isLt; omega⟩

/-- Row `b * 2048 + t` of the batch flattened to 4096 rows. -/
def row (b : Fin 2) (t : Fin 2048) : Fin 4096 := ⟨b.val * 2048 + t.val, by have := b.isLt; have := t.isLt; omega⟩

/-- The even lane of the pair lane `d` belongs to. -/
def lane0 (d : Fin 128) : Fin 128 := ⟨d.val / 2 * 2, by have := d.isLt; omega⟩
/-- The odd lane of the pair lane `d` belongs to. -/
def lane1 (d : Fin 128) : Fin 128 := ⟨d.val / 2 * 2 + 1, by have := d.isLt; omega⟩
/-- The pair lane `d` belongs to. -/
def pair (d : Fin 128) : Fin 64 := ⟨d.val / 2, by have := d.isLt; omega⟩

/-- The rotary embedding of one head's 128 lanes `x` at a position whose table rows are `c`, `s`. -/
def rot (x : Fin 128 → EReal) (c s : Fin 64 → EReal) (d : Fin 128) : EReal :=
  if d.val % 2 = 0 then x (lane0 d) * c (pair d) - x (lane1 d) * s (pair d)
  else x (lane1 d) * c (pair d) + x (lane0 d) * s (pair d)

/-- Projected rows, rotated head by head. -/
def rope (Q : Rows) (c s : Rot) : Heads := fun b t h d => rot (fun d' => Q b t (col h d')) (c t) (s t) d

/-- The scale the scores are multiplied by: the f32 word both programs print. -/
def scale : EReal := Ideal.ofBits .f32 0x3DB504F3#32
/-- The value a row maximum starts from: the f32 word of −∞ both programs print. -/
def ninf : EReal := Ideal.ofBits .f32 0xFF800000#32

/-- The score of query row `q` against key row `k` (one head's 128 lanes each). -/
def score (q k : Fin 128 → EReal) : EReal := (∑ d : Fin 128, q d * k d) * scale

/-- A row's maximum. -/
def top (sc : Fin 2048 → EReal) : EReal := (Finset.univ : Finset (Fin 2048)).fold max ninf sc
/-- A row's exponentials relative to its maximum. -/
def wexp (sc : Fin 2048 → EReal) (s : Fin 2048) : EReal := Ideal.exp (sc s - top sc)
/-- Their sum. -/
def den (sc : Fin 2048 → EReal) : EReal := ∑ s : Fin 2048, wexp sc s
/-- The context with the weighted sum divided by the denominator. -/
def ctxK (sc v : Fin 2048 → EReal) : EReal := Ideal.div (∑ s : Fin 2048, wexp sc s * v s) (den sc)
/-- The context with each weight divided by the denominator first. -/
def ctxR (sc v : Fin 2048 → EReal) : EReal := ∑ s : Fin 2048, Ideal.div (wexp sc s) (den sc) * v s

/-- The head of column `e`. -/
def headOf (e : Fin 2048) : Fin 16 := ⟨e.val / 128, by have := e.isLt; omega⟩
/-- The lane of column `e`. -/
def laneOf (e : Fin 2048) : Fin 128 := ⟨e.val % 128, by have := e.isLt; omega⟩

theorem col_headOf_laneOf (e : Fin 2048) : col (headOf e) (laneOf e) = e := by
  apply Fin.ext; show e.val / 128 * 128 + e.val % 128 = e.val; omega

/-- The scores of query position `t` of head `h` in batch `b` against every key position. -/
def scores (Qr Kr : Heads) (b : Fin 2) (h : Fin 16) (t : Fin 2048) : Fin 2048 → EReal :=
  fun s => score (Qr b t h) (Kr b s h)

/-- The merged-head context rows, in one of the two arrangements `ctx`. -/
def ctxRows (ctx : (Fin 2048 → EReal) → (Fin 2048 → EReal) → EReal) (Qr Kr : Heads) (Vv : Rows) : Rows :=
  fun b t e => ctx (scores Qr Kr b (headOf e) t) (fun s => Vv b s e)

/-- The whole layer in arrangement `ctx`: hidden rows `X`, encoder rows `E`, the four tables, the four rotary tables. -/
def layer (ctx : (Fin 2048 → EReal) → (Fin 2048 → EReal) → EReal)
    (X E : Rows) (Wq Wk Wv Wo : Table) (cq sq ck sk : Rot) : Rows :=
  proj (ctxRows ctx (rope (proj X Wq) cq sq) (rope (proj E Wk) ck sk) (proj E Wv)) Wo

/-! ## Arrays as functions of coordinates -/

/-- A [2, 2048, 2048] array as rows. -/
def rows3 (x : (⟨3, ![2, 2048, 2048]⟩ : Shape).Idx → EReal) : Rows := fun b t d => x (ix3 b t d)
/-- A [4096, 2048] array as rows (row `b * 2048 + t`). -/
def rows2 (x : (⟨2, ![4096, 2048]⟩ : Shape).Idx → EReal) : Rows := fun b t d => x (ix2 (row b t) d)
/-- A [2048, 2048] array as a table. -/
def table (w : (⟨2, ![2048, 2048]⟩ : Shape).Idx → EReal) : Table := fun e d => w (ix2 e d)
/-- A [1, 1, 2048, 64] array as a rotary table. -/
def rotT (c : (⟨4, ![1, 1, 2048, 64]⟩ : Shape).Idx → EReal) : Rot := fun t i => c (ix4 0 0 t i)

end Cert.Attn

end
-- ==== Proof.HostEnds.lean ====
/-
  The kernel program's first and last stretches of host operations, read at an index.

  The first stretch flattens each of the two [2, 2048, 2048] row arguments to [4096, 2048] (row `b * 2048 + t` of the
  flat array is row `t` of batch `b`) and changes the format of the rows and of the four weight tables; a format
  change is the identity on extended reals.  The last stretch views the [4096, 2048] result as [2, 2048, 2048] again.
-/
import proofs.«142431_j50843822850167_2_alg».proof.Proof.Gen.KernelIdeal.Launch
import proofs.«142431_j50843822850167_2_alg».proof.Proof.Spec
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen Cert.Attn
open Idealize.ShloMosaic Idealize.ShloMosaic.ValueIdx Idealize.ShloMosaic.StableHlo

/-- Entry `(b * 2048 + t, d)` of the flattened rows is entry `(b, t, d)` of the batch: both sit at row-major
    position `(b * 2048 + t) * 2048 + d`. -/
theorem flatten_rows (x : S2x2048x2048.Idx → EReal) (b : Fin 2) (t d : Fin 2048) :
    shapeCast S4096x2048 x shapeCasts_S2x2048x2048_S4096x2048 (ix2 (row b t) d) = x (ix3 b t d) :=
  shapeCast_apply x shapeCasts_S2x2048x2048_S4096x2048 (ix2 (row b t) d) (ix3 b t d)
    (by rw [Shape.rowMajor_val_three, Shape.rowMajor_val_two]; rfl)

/-- Entry `(b, t, e)` of the rows viewed by batch is entry `(b * 2048 + t, e)` of the flat rows. -/
theorem batch_rows (x : S4096x2048.Idx → EReal) (b : Fin 2) (t e : Fin 2048) :
    shapeCast S2x2048x2048 x shapeCasts_S4096x2048_S2x2048x2048 (ix3 b t e) = x (ix2 (row b t) e) :=
  shapeCast_apply x shapeCasts_S4096x2048_S2x2048x2048 (ix3 b t e) (ix2 (row b t) e)
    (by rw [Shape.rowMajor_val_three, Shape.rowMajor_val_two]; rfl)

variable (Vin : Valuation τ sig (Elt Ideal))

/-- The hidden rows the first projection reads: the first argument, flattened. -/
theorem host0_v1 (b : Fin 2) (t d : Fin 2048) :
    (StableHlo.after (hostOps0 (F := Ideal)) Vin (Proc.devRef .tc main_v1) : S4096x2048.Idx → EReal) (ix2 (row b t) d)
      = (Vin (Proc.devRef .tc main_arg0) : S2x2048x2048.Idx → EReal) (ix3 b t d) := by
  have e : (StableHlo.after (hostOps0 (F := Ideal)) Vin (Proc.devRef .tc main_v1) : S4096x2048.Idx → EReal)
      = shapeCast S4096x2048 (Vin (Proc.devRef .tc main_arg0) : S2x2048x2048.Idx → EReal) shapeCasts_S2x2048x2048_S4096x2048 := by
    after_results; rfl
  rw [e]; exact flatten_rows _ b t d

/-- The encoder rows the second and third projections read: the second argument, flattened. -/
theorem host0_v3 (b : Fin 2) (t d : Fin 2048) :
    (StableHlo.after (hostOps0 (F := Ideal)) Vin (Proc.devRef .tc main_v3) : S4096x2048.Idx → EReal) (ix2 (row b t) d)
      = (Vin (Proc.devRef .tc main_arg1) : S2x2048x2048.Idx → EReal) (ix3 b t d) := by
  have e : (StableHlo.after (hostOps0 (F := Ideal)) Vin (Proc.devRef .tc main_v3) : S4096x2048.Idx → EReal)
      = shapeCast S4096x2048 (Vin (Proc.devRef .tc main_arg1) : S2x2048x2048.Idx → EReal) shapeCasts_S2x2048x2048_S4096x2048 := by
    after_results; rfl
  rw [e]; exact flatten_rows _ b t d

/-- The query table as the first projection reads it: the third argument. -/
theorem host0_v4 (e d : Fin 2048) :
    (StableHlo.after (hostOps0 (F := Ideal)) Vin (Proc.devRef .tc main_v4) : S2048x2048.Idx → EReal) (ix2 e d)
      = (Vin (Proc.devRef .tc main_arg2) : S2048x2048.Idx → EReal) (ix2 e d) := by
  have h : (StableHlo.after (hostOps0 (F := Ideal)) Vin (Proc.devRef .tc main_v4) : S2048x2048.Idx → EReal)
      = (Vin (Proc.devRef .tc main_arg2) : S2048x2048.Idx → EReal) := by
    after_results; rfl
  rw [h]

/-- The key table: the fourth argument. -/
theorem host0_v5 (e d : Fin 2048) :
    (StableHlo.after (hostOps0 (F := Ideal)) Vin (Proc.devRef .tc main_v5) : S2048x2048.Idx → EReal) (ix2 e d)
      = (Vin (Proc.devRef .tc main_arg3) : S2048x2048.Idx → EReal) (ix2 e d) := by
  have h : (StableHlo.after (hostOps0 (F := Ideal)) Vin (Proc.devRef .tc main_v5) : S2048x2048.Idx → EReal)
      = (Vin (Proc.devRef .tc main_arg3) : S2048x2048.Idx → EReal) := by
    after_results; rfl
  rw [h]

/-- The value table: the fifth argument. -/
theorem host0_v6 (e d : Fin 2048) :
    (StableHlo.after (hostOps0 (F := Ideal)) Vin (Proc.devRef .tc main_v6) : S2048x2048.Idx → EReal) (ix2 e d)
      = (Vin (Proc.devRef .tc main_arg4) : S2048x2048.Idx → EReal) (ix2 e d) := by
  have h : (StableHlo.after (hostOps0 (F := Ideal)) Vin (Proc.devRef .tc main_v6) : S2048x2048.Idx → EReal)
      = (Vin (Proc.devRef .tc main_arg4) : S2048x2048.Idx → EReal) := by
    after_results; rfl
  rw [h]

/-- The output table: the sixth argument. -/
theorem host0_v7 (e d : Fin 2048) :
    (StableHlo.after (hostOps0 (F := Ideal)) Vin (Proc.devRef .tc main_v7) : S2048x2048.Idx → EReal) (ix2 e d)
      = (Vin (Proc.devRef .tc main_arg5) : S2048x2048.Idx → EReal) (ix2 e d) := by
  have h : (StableHlo.after (hostOps0 (F := Ideal)) Vin (Proc.devRef .tc main_v7) : S2048x2048.Idx → EReal)
      = (Vin (Proc.devRef .tc main_arg5) : S2048x2048.Idx → EReal) := by
    after_results; rfl
  rw [h]

/-- The result: the last projection's rows, viewed by batch. -/
theorem host5_v69 (b : Fin 2) (t e : Fin 2048) :
    (StableHlo.after (hostOps5 (F := Ideal)) Vin (Proc.devRef .tc main_v69) : S2x2048x2048.Idx → EReal) (ix3 b t e)
      = (Vin (Proc.devRef .tc main_v68) : S4096x2048.Idx → EReal) (ix2 (row b t) e) := by
  have h : (StableHlo.after (hostOps5 (F := Ideal)) Vin (Proc.devRef .tc main_v69) : S2x2048x2048.Idx → EReal)
      = shapeCast S2x2048x2048 (Vin (Proc.devRef .tc main_v68) : S4096x2048.Idx → EReal) shapeCasts_S4096x2048_S2x2048x2048 := by
    after_results; rfl
  rw [h]; exact batch_rows _ b t e

end Cert.KernelIdeal.HostValue

end
-- ==== Proof.HostRope.lean ====
/-
  The kernel program's middle stretch of host operations — the rotary embedding of the projected queries and keys —
  read at an index.

  A projected row array [4096, 2048] is viewed as [2, 2048, 16, 128] (batch, position, head, lane) and then as
  [2, 2048, 16, 64, 2]: pair `p` of a head holds lanes `2p` and `2p + 1`.  The even and the odd lanes are sliced out
  as two [2, 2048, 16, 64] arrays.  A rotary table [1, 1, 2048, 64] is transposed to [1, 2048, 1, 64] and laid over
  batches and heads, so that it reads `(t, p)` at every `(b, t, h, p)`.  The rotated even lanes are
  `even · cos − odd · sin`, the rotated odd lanes `odd · cos + even · sin`; the two are joined on a new last axis
  and flattened back, so that lane `d` of the result is the rotated even lane of pair `d / 2` when `d` is even and
  the rotated odd lane of that pair when `d` is odd: `Cert.Attn.rot` of the head's 128 lanes.  The chain is written
  once, as a function of the row array and the two tables; the queries and the keys are that function at two sets of
  buffers.  The format changes along the way are the identity on extended reals.
-/
import proofs.«142431_j50843822850167_2_alg».proof.Proof.Gen.KernelIdeal.Launch
import proofs.«142431_j50843822850167_2_alg».proof.Proof.Spec
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen Cert.Attn
open Idealize.ShloMosaic Idealize.ShloMosaic.ValueIdx Idealize.ShloMosaic.StableHlo

/-! ## The rows by lane pairs -/

/-- The rows viewed as [batch, position, head, pair, half]. -/
def pairsOf (x : FVec Ideal S4096x2048 .bf16) : FVec Ideal S2x2048x16x64x2 .bf16 :=
  shapeCast S2x2048x16x64x2 (shapeCast S2x2048x16x128 x shapeCasts_S4096x2048_S2x2048x16x128)
    shapeCasts_S2x2048x16x128_S2x2048x16x64x2

/-- Half `k` of pair `p` of head `h` is lane `2p + k` of that head: all three views keep the row-major position. -/
theorem pairsOf_apply (x : FVec Ideal S4096x2048 .bf16) (b : Fin 2) (t : Fin 2048) (h : Fin 16) (p : Fin 64) (k : Fin 2) :
    pairsOf x (ix5 b t h p k)
      = x (ix2 (row b t) (col h ⟨p.val * 2 + k.val, by have := p.isLt; have := k.isLt; omega⟩)) := by
  unfold pairsOf
  refine (shapeCast_apply _ shapeCasts_S2x2048x16x128_S2x2048x16x64x2 (ix5 b t h p k)
    (ix4 b t h (⟨p.val * 2 + k.val, by have := p.isLt; have := k.isLt; omega⟩ : Fin 128)) ?_).trans
    (shapeCast_apply x shapeCasts_S4096x2048_S2x2048x16x128 _ _ ?_)
  · rw [Shape.rowMajor_val_four, Shape.rowMajor_val_five]
    show ((b.val * 2048 + t.val) * 16 + h.val) * 128 + (p.val * 2 + k.val)
      = (((b.val * 2048 + t.val) * 16 + h.val) * 64 + p.val) * 2 + k.val
    omega
  · rw [Shape.rowMajor_val_two, Shape.rowMajor_val_four]
    show (b.val * 2048 + t.val) * 2048 + (h.val * 128 + (p.val * 2 + k.val))
      = ((b.val * 2048 + t.val) * 16 + h.val) * 128 + (p.val * 2 + k.val)
    omega

/-- The even lanes: half 0 of every pair. -/
def evenLanes (x : FVec Ideal S4096x2048 .bf16) : FVec Ideal S2x2048x16x64 .bf16 :=
  shapeCast S2x2048x16x64
    (extractStridedSlice S2x2048x16x64x1 ![0, 0, 0, 0, 0] (pairsOf x) slices_S2x2048x16x64x2_S2x2048x16x64x1_0_0_0_0_0)
    shapeCasts_S2x2048x16x64x1_S2x2048x16x64

/-- The odd lanes: half 1 of every pair. -/
def oddLanes (x : FVec Ideal S4096x2048 .bf16) : FVec Ideal S2x2048x16x64 .bf16 :=
  shapeCast S2x2048x16x64
    (extractStridedSlice S2x2048x16x64x1 ![0, 0, 0, 0, 1] (pairsOf x) slices_S2x2048x16x64x2_S2x2048x16x64x1_0_0_0_0_1)
    shapeCasts_S2x2048x16x64x1_S2x2048x16x64

/-- Dropping the unit last axis keeps the four leading coordinates. -/
theorem dropUnit_apply (y : FVec Ideal S2x2048x16x64x1 .bf16) (b : Fin 2) (t : Fin 2048) (h : Fin 16) (p : Fin 64) :
    shapeCast S2x2048x16x64 y shapeCasts_S2x2048x16x64x1_S2x2048x16x64 (ix4 b t h p) = y (ix5 b t h p (0 : Fin 1)) :=
  shapeCast_apply y shapeCasts_S2x2048x16x64x1_S2x2048x16x64 (ix4 b t h p) (ix5 b t h p (0 : Fin 1))
    (by rw [Shape.rowMajor_val_five, Shape.rowMajor_val_four]
        show ((((b.val * 2048 + t.val) * 16 + h.val) * 64 + p.val) * 1 + 0)
          = ((b.val * 2048 + t.val) * 16 + h.val) * 64 + p.val
        omega)

/-- Pair `p`'s even lane is lane `2p`. -/
theorem evenLanes_apply (x : FVec Ideal S4096x2048 .bf16) (b : Fin 2) (t : Fin 2048) (h : Fin 16) (p : Fin 64) :
    evenLanes x (ix4 b t h p) = x (ix2 (row b t) (col h ⟨p.val * 2, by have := p.isLt; omega⟩)) := by
  unfold evenLanes
  refine (dropUnit_apply _ b t h p).trans ((extractStridedSlice_apply ![0, 0, 0, 0, 0] (pairsOf x)
    slices_S2x2048x16x64x2_S2x2048x16x64x1_0_0_0_0_0 (ix5 b t h p (0 : Fin 1)) (ix5 b t h p (0 : Fin 2))
    (fun a => match a with
      | ⟨0, _⟩ => by show b.val = 0 + b.val; omega
      | ⟨1, _⟩ => by show t.val = 0 + t.val; omega
      | ⟨2, _⟩ => by show h.val = 0 + h.val; omega
      | ⟨3, _⟩ => by show p.val = 0 + p.val; omega
      | ⟨4, _⟩ => by show 0 = 0 + 0; omega)).trans (pairsOf_apply x b t h p 0))

/-- Pair `p`'s odd lane is lane `2p + 1`. -/
theorem oddLanes_apply (x : FVec Ideal S4096x2048 .bf16) (b : Fin 2) (t : Fin 2048) (h : Fin 16) (p : Fin 64) :
    oddLanes x (ix4 b t h p) = x (ix2 (row b t) (col h ⟨p.val * 2 + 1, by have := p.isLt; omega⟩)) := by
  unfold oddLanes
  refine (dropUnit_apply _ b t h p).trans ((extractStridedSlice_apply ![0, 0, 0, 0, 1] (pairsOf x)
    slices_S2x2048x16x64x2_S2x2048x16x64x1_0_0_0_0_1 (ix5 b t h p (0 : Fin 1)) (ix5 b t h p (1 : Fin 2))
    (fun a => match a with
      | ⟨0, _⟩ => by show b.val = 0 + b.val; omega
      | ⟨1, _⟩ => by show t.val = 0 + t.val; omega
      | ⟨2, _⟩ => by show h.val = 0 + h.val; omega
      | ⟨3, _⟩ => by show p.val = 0 + p.val; omega
      | ⟨4, _⟩ => by show 1 = 1 + 0; omega)).trans (pairsOf_apply x b t h p 1))

/-! ## A rotary table over batches and heads -/

/-- The table [1, 1, 2048, 64] transposed to [1, 2048, 1, 64] and repeated over batches and heads. -/
def tableOver (c : FVec Ideal S1x1x2048x64 .f32) : FVec Ideal S2x2048x16x64 .f32 :=
  broadcastInDim S2x2048x16x64 ![0, 1, 2, 3] bcast_S1x2048x1x64_S2x2048x16x64_0_1_2_3
    (transpose S1x2048x1x64 [0, 2, 1, 3] c transposes_S1x1x2048x64_S1x2048x1x64_0_2_1_3)

/-- It reads position `t`, pair `p` whatever the batch and the head. -/
theorem tableOver_apply (c : FVec Ideal S1x1x2048x64 .f32) (b : Fin 2) (t : Fin 2048) (h : Fin 16) (p : Fin 64) :
    tableOver c (ix4 b t h p) = c (ix4 (0 : Fin 1) (0 : Fin 1) t p) := by
  unfold tableOver
  refine (broadcastInDim_apply _ bcast_S1x2048x1x64_S2x2048x16x64_0_1_2_3 _ (ix4 b t h p)
    (ix4 (0 : Fin 1) t (0 : Fin 1) p) (fun a => match a with
      | ⟨0, _⟩ => by show 0 = if (1 : Nat) = 1 then 0 else b.val; rw [if_pos rfl]
      | ⟨1, _⟩ => by show t.val = if (2048 : Nat) = 1 then 0 else t.val; rw [if_neg (by decide)]
      | ⟨2, _⟩ => by show 0 = if (1 : Nat) = 1 then 0 else h.val; rw [if_pos rfl]
      | ⟨3, _⟩ => by show p.val = if (64 : Nat) = 1 then 0 else p.val; rw [if_neg (by decide)])).trans
    (transpose_apply [0, 2, 1, 3] c transposes_S1x1x2048x64_S1x2048x1x64_0_2_1_3 (ix4 (0 : Fin 1) t (0 : Fin 1) p)
      (ix4 (0 : Fin 1) (0 : Fin 1) t p) (fun a => match a with
        | ⟨0, _⟩ => rfl
        | ⟨1, _⟩ => rfl
        | ⟨2, _⟩ => rfl
        | ⟨3, _⟩ => rfl))

/-! ## Two lane arrays joined pair by pair -/

/-- Two [2, 2048, 16, 64] arrays joined on a new last axis and flattened back to rows: `u` fills the even lanes and
    `v` the odd ones. -/
def joinLanes (u v : FVec Ideal S2x2048x16x64 .f32) : FVec Ideal S4096x2048 .f32 :=
  shapeCast S4096x2048
    (shapeCast S2x2048x16x128
      (concatenate S2x2048x16x64x2 4
        [⟨S2x2048x16x64x1, broadcastInDim S2x2048x16x64x1 ![0, 1, 2, 3] bcast_S2x2048x16x64_S2x2048x16x64x1_0_1_2_3 u⟩,
         ⟨S2x2048x16x64x1, broadcastInDim S2x2048x16x64x1 ![0, 1, 2, 3] bcast_S2x2048x16x64_S2x2048x16x64x1_0_1_2_3 v⟩]
        concatenates_S2x2048x16x64x1_S2x2048x16x64x1_S2x2048x16x64x2_d4)
      shapeCasts_S2x2048x16x64x2_S2x2048x16x128)
    shapeCasts_S2x2048x16x128_S4096x2048

/-- Adding the unit last axis keeps the four leading coordinates. -/
theorem addUnit_apply (u : FVec Ideal S2x2048x16x64 .f32) (b : Fin 2) (t : Fin 2048) (h : Fin 16) (p : Fin 64) :
    broadcastInDim S2x2048x16x64x1 ![0, 1, 2, 3] bcast_S2x2048x16x64_S2x2048x16x64x1_0_1_2_3 u (ix5 b t h p (0 : Fin 1))
      = u (ix4 b t h p) :=
  broadcastInDim_apply _ bcast_S2x2048x16x64_S2x2048x16x64x1_0_1_2_3 u (ix5 b t h p (0 : Fin 1)) (ix4 b t h p)
    (fun a => match a with
      | ⟨0, _⟩ => by show b.val = if (2 : Nat) = 1 then 0 else b.val; rw [if_neg (by decide)]
      | ⟨1, _⟩ => by show t.val = if (2048 : Nat) = 1 then 0 else t.val; rw [if_neg (by decide)]
      | ⟨2, _⟩ => by show h.val = if (16 : Nat) = 1 then 0 else h.val; rw [if_neg (by decide)]
      | ⟨3, _⟩ => by show p.val = if (64 : Nat) = 1 then 0 else p.val; rw [if_neg (by decide)])

/-- Lane `d` of the joined rows comes from pair `d / 2`: from `u` when `d` is even, from `v` when it is odd. -/
theorem joinLanes_apply (u v : FVec Ideal S2x2048x16x64 .f32) (b : Fin 2) (t : Fin 2048) (h : Fin 16) (d : Fin 128) :
    joinLanes u v (ix2 (row b t) (col h d))
      = if d.val % 2 = 0 then u (ix4 b t h (pair d)) else v (ix4 b t h (pair d)) := by
  unfold joinLanes
  refine (shapeCast_apply _ shapeCasts_S2x2048x16x128_S4096x2048 (ix2 (row b t) (col h d)) (ix4 b t h d) ?_).trans ?_
  · rw [Shape.rowMajor_val_four, Shape.rowMajor_val_two]
    show ((b.val * 2048 + t.val) * 16 + h.val) * 128 + d.val = (b.val * 2048 + t.val) * 2048 + (h.val * 128 + d.val)
    omega
  refine (shapeCast_apply _ shapeCasts_S2x2048x16x64x2_S2x2048x16x128 (ix4 b t h d)
    (ix5 b t h (pair d) (⟨d.val % 2, Nat.mod_lt _ (by decide)⟩ : Fin 2)) ?_).trans ?_
  · rw [Shape.rowMajor_val_five, Shape.rowMajor_val_four]
    show (((b.val * 2048 + t.val) * 16 + h.val) * 64 + d.val / 2) * 2 + d.val % 2
      = ((b.val * 2048 + t.val) * 16 + h.val) * 128 + d.val
    omega
  by_cases hd : d.val % 2 = 0
  · rw [if_pos hd]
    refine (concatenate_pair_apply_left 4 _ _ concatenates_S2x2048x16x64x1_S2x2048x16x64x1_S2x2048x16x64x2_d4
      (ix5 b t h (pair d) (⟨d.val % 2, Nat.mod_lt _ (by decide)⟩ : Fin 2)) rfl (ix5 b t h (pair d) (0 : Fin 1))
      (fun a => match a with
        | ⟨0, _⟩ => rfl
        | ⟨1, _⟩ => rfl
        | ⟨2, _⟩ => rfl
        | ⟨3, _⟩ => rfl
        | ⟨4, _⟩ => by show 0 = d.val % 2; omega)).trans (addUnit_apply u b t h (pair d))
  · rw [if_neg hd]
    refine (concatenate_pair_apply_right 4 _ _ concatenates_S2x2048x16x64x1_S2x2048x16x64x1_S2x2048x16x64x2_d4
      (ix5 b t h (pair d) (⟨d.val % 2, Nat.mod_lt _ (by decide)⟩ : Fin 2)) rfl rfl (ix5 b t h (pair d) (0 : Fin 1))
      (fun a => match a with
        | ⟨0, _⟩ => fun _ => rfl
        | ⟨1, _⟩ => fun _ => rfl
        | ⟨2, _⟩ => fun _ => rfl
        | ⟨3, _⟩ => fun _ => rfl
        | ⟨4, _⟩ => fun hne => absurd rfl hne)
      (by show 0 + 1 = d.val % 2; omega)).trans (addUnit_apply v b t h (pair d))

/-! ## The rotary embedding of a row array -/

/-- The rotated even lanes: `even · cos − odd · sin`. -/
def rotEven (x : FVec Ideal S4096x2048 .bf16) (c s : FVec Ideal S1x1x2048x64 .f32) : FVec Ideal S2x2048x16x64 .f32 :=
  subf (mulf (extf .f32 (evenLanes x) bitsLt_bf16_f32) (tableOver c))
    (mulf (extf .f32 (oddLanes x) bitsLt_bf16_f32) (tableOver s))

/-- The rotated odd lanes: `odd · cos + even · sin`. -/
def rotOdd (x : FVec Ideal S4096x2048 .bf16) (c s : FVec Ideal S1x1x2048x64 .f32) : FVec Ideal S2x2048x16x64 .f32 :=
  addf (mulf (extf .f32 (oddLanes x) bitsLt_bf16_f32) (tableOver c))
    (mulf (extf .f32 (evenLanes x) bitsLt_bf16_f32) (tableOver s))

/-- The whole chain: the rotated lanes joined pair by pair, as rows again. -/
def ropeTerm (x : FVec Ideal S4096x2048 .bf16) (c s : FVec Ideal S1x1x2048x64 .f32) : FVec Ideal S4096x2048 .bf16 :=
  truncf .bf16 (joinLanes (rotEven x c s) (rotOdd x c s)) bitsLt_bf16_f32

/-- Entry `(b * 2048 + t, h * 128 + d)` of the chain is the rotary embedding of head `h`'s 128 lanes of that row,
    with the tables' rows at position `t`, at lane `d`. -/
theorem ropeTerm_apply (x : FVec Ideal S4096x2048 .bf16) (c s : FVec Ideal S1x1x2048x64 .f32)
    (b : Fin 2) (t : Fin 2048) (h : Fin 16) (d : Fin 128) :
    (ropeTerm x c s : S4096x2048.Idx → EReal) (ix2 (row b t) (col h d))
      = rot (fun d' => (x : S4096x2048.Idx → EReal) (ix2 (row b t) (col h d')))
            (fun i => (c : S1x1x2048x64.Idx → EReal) (ix4 0 0 t i))
            (fun i => (s : S1x1x2048x64.Idx → EReal) (ix4 0 0 t i)) d := by
  unfold ropeTerm
  rw [truncf_apply, joinLanes_apply]
  unfold rot
  by_cases hd : d.val % 2 = 0
  · rw [if_pos hd, if_pos hd]
    unfold rotEven
    rw [subf_apply, mulf_apply, mulf_apply, extf_apply, extf_apply, evenLanes_apply, oddLanes_apply,
      tableOver_apply, tableOver_apply]
    rfl
  · rw [if_neg hd, if_neg hd]
    unfold rotOdd
    rw [addf_apply, mulf_apply, mulf_apply, extf_apply, extf_apply, evenLanes_apply, oddLanes_apply,
      tableOver_apply, tableOver_apply]
    rfl

/-! ## The stretch at its two results, and the buffers it keeps -/

variable (Vin : Valuation τ sig (Elt Ideal))

/-- The rotated queries: the chain at the projected queries and the queries' two tables. -/
theorem rope_q_term :
    (StableHlo.after (hostOps3 (F := Ideal)) Vin (Proc.devRef .tc main_v64) : S4096x2048.Idx → EReal)
      = ropeTerm (Vin (Proc.devRef .tc main_v8)) (Vin (Proc.devRef .tc main_arg6)) (Vin (Proc.devRef .tc main_arg7)) := by
  after_results_simp
  rfl

/-- The rotated keys: the chain at the projected keys and the keys' two tables. -/
theorem rope_k_term :
    (StableHlo.after (hostOps3 (F := Ideal)) Vin (Proc.devRef .tc main_v66) : S4096x2048.Idx → EReal)
      = ropeTerm (Vin (Proc.devRef .tc main_v9)) (Vin (Proc.devRef .tc main_arg8)) (Vin (Proc.devRef .tc main_arg9)) := by
  after_results_simp
  rfl

/-- Entry `(b * 2048 + t, h * 128 + d)` of the rotated queries. -/
theorem rope_q (b : Fin 2) (t : Fin 2048) (h : Fin 16) (d : Fin 128) :
    (StableHlo.after (hostOps3 (F := Ideal)) Vin (Proc.devRef .tc main_v64) : S4096x2048.Idx → EReal) (ix2 (row b t) (col h d))
      = rot (fun d' => (Vin (Proc.devRef .tc main_v8) : S4096x2048.Idx → EReal) (ix2 (row b t) (col h d')))
            (fun i => (Vin (Proc.devRef .tc main_arg6) : S1x1x2048x64.Idx → EReal) (ix4 0 0 t i))
            (fun i => (Vin (Proc.devRef .tc main_arg7) : S1x1x2048x64.Idx → EReal) (ix4 0 0 t i)) d := by
  rw [rope_q_term]
  exact ropeTerm_apply _ _ _ b t h d

/-- Entry `(b * 2048 + t, h * 128 + d)` of the rotated keys. -/
theorem rope_k (b : Fin 2) (t : Fin 2048) (h : Fin 16) (d : Fin 128) :
    (StableHlo.after (hostOps3 (F := Ideal)) Vin (Proc.devRef .tc main_v66) : S4096x2048.Idx → EReal) (ix2 (row b t) (col h d))
      = rot (fun d' => (Vin (Proc.devRef .tc main_v9) : S4096x2048.Idx → EReal) (ix2 (row b t) (col h d')))
            (fun i => (Vin (Proc.devRef .tc main_arg8) : S1x1x2048x64.Idx → EReal) (ix4 0 0 t i))
            (fun i => (Vin (Proc.devRef .tc main_arg9) : S1x1x2048x64.Idx → EReal) (ix4 0 0 t i)) d := by
  rw [rope_k_term]
  exact ropeTerm_apply _ _ _ b t h d

end Cert.KernelIdeal.HostValue

end
-- ==== Proof.RegionMat0.lean ====
/-
  Region 0 of the kernel multiplies the 4096 rows of one array by the 2048 rows of another: entry (r, e) of its
  result is the inner product, over the 2048 columns, of row r of the first operand and row e of the second.
  The region walks an 8 x 4 grid; point t works on row block t / 4 of the first operand (512 rows), row block
  t % 4 of the second (512 rows), and writes block (t / 4, t % 4) of the result (512 x 512).  This module reads
  the body's one store at an index, identifies what each point writes back with its block of the whole product,
  shows that the 32 blocks cover the result, and concludes with the whole array's value.
-/
import proofs.«142431_j50843822850167_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.RegionMat

open Cert.KernelIdeal Cert.KernelIdeal.Gen Idealize.ShloMosaic Idealize.ShloMosaic.TcCoe Idealize.SL.Sem
open Idealize.ShloMosaic.ValueIdx
open Idealize.ShloMosaic.Pipeline (Dat)

/-! ## The body's store at an index -/

/-- The dimension numbers of the body's product: both operands contracted on their second axis. -/
abbrev dims0 : DotDims S512x2048 S512x2048 S512x512 := dot_S512x2048_S512x2048_S512x512_1_1_0_0_n_n

/-- The left operand is read at the output's row ... -/
theorem lhs0_row (j : S512x512.Idx) (k : dims0.contr.Idx) : (dims0.lhsIdx j k 0).val = (j 0).val := by
  unfold DotDims.lhsIdx
  rw [dif_neg (show ¬(0 : Fin S512x2048.rank) ∈ dims0.lhsBatch by decide), dif_pos (show (0 : Fin S512x2048.rank) ∈ dims0.lhsNonContracting by decide)]
  rfl
/-- ... and at the contraction position; -/
theorem lhs0_col (j : S512x512.Idx) (k : dims0.contr.Idx) : (dims0.lhsIdx j k 1).val = (k ⟨0, by decide⟩).val :=
  dims0.lhsIdx_val_of_single rfl j k
/-- the right operand at the output's column, as a row, ... -/
theorem rhs0_row (j : S512x512.Idx) (k : dims0.contr.Idx) : (dims0.rhsIdx j k 0).val = (j 1).val := by
  unfold DotDims.rhsIdx
  rw [dif_neg (show ¬(0 : Fin S512x2048.rank) ∈ dims0.rhsBatch by decide), dif_pos (show (0 : Fin S512x2048.rank) ∈ dims0.rhsNonContracting by decide)]
  rfl
/-- ... and at the contraction position. -/
theorem rhs0_col (j : S512x512.Idx) (k : dims0.contr.Idx) : (dims0.rhsIdx j k 1).val = (k ⟨0, by decide⟩).val :=
  dims0.rhsIdx_val_of_single rfl j k

/-- Entry (p, q) of the stored block is the inner product of row p of the first loaded block and row q of the
    second: the accumulator is the zero constant and the change of format is the identity on extended reals. -/
theorem pay0_apply (x0 x1 : Vec Ideal S512x2048 .bf16) (p q : Fin 512) :
    k0_pay1 (F := Ideal) x0 x1 (ix2 p q) = ∑ k : Fin 2048, x0 (ix2 p k) * x1 (ix2 q k) := by
  unfold k0_pay1
  simp only [shapeCast_self]
  refine (Ideal.matmul_constant_zero_apply (φ₁ := .bf16) (φ₂ := .bf16) dims0 none x0 x1 (ix2 p q)).trans ?_
  rw [← Equiv.sum_comp (contrEquiv1 dims0 2048 rfl rfl).symm]
  refine Finset.sum_congr rfl fun k _ => ?_
  have hk := contrEquiv1_symm_val dims0 2048 rfl rfl k
  have el : dims0.lhsIdx (ix2 p q) ((contrEquiv1 dims0 2048 rfl rfl).symm k) = ix2 p k := funext fun a => Fin.ext (by
    match a with
    | ⟨0, _⟩ => exact lhs0_row _ _
    | ⟨1, _⟩ => exact (lhs0_col _ _).trans hk)
  have er : dims0.rhsIdx (ix2 p q) ((contrEquiv1 dims0 2048 rfl rfl).symm k) = ix2 q k := funext fun a => Fin.ext (by
    match a with
    | ⟨0, _⟩ => exact rhs0_row _ _
    | ⟨1, _⟩ => exact (rhs0_col _ _).trans hk)
  rw [el, er]

/-! ## The whole product, and each point's block of it -/

/-- Entry (r, e) of the product of the rows of `A` with the rows of `B`: their inner product over the 2048 columns. -/
def prod0 (A : S4096x2048.Idx → EReal) (B : S2048x2048.Idx → EReal) : S4096x2048.Idx → EReal :=
  fun i => ∑ d : Fin 2048, A (ix2 (⟨(i 0).val, idx2_lt0 i⟩ : Fin 4096) d) * B (ix2 (⟨(i 1).val, idx2_lt1 i⟩ : Fin 2048) d)

theorem prod0_apply (A : S4096x2048.Idx → EReal) (B : S2048x2048.Idx → EReal) (r : Fin 4096) (e : Fin 2048) :
    prod0 A B (ix2 r e) = ∑ d : Fin 2048, A (ix2 r d) * B (ix2 e d) := rfl

/-- The offsets of the body's whole-block accesses are zero on both axes. -/
theorem zeros0 : (![0, 0] : Fin 2 → Nat) = fun _ => 0 := funext fun a => by fin_cases a <;> rfl

/-- The printed index maps over the 32 grid points: point `t` reads row block `t / 4` of the first operand and row
    block `t % 4` of the second, both at column block 0, and writes block `(t / 4, t % 4)` of the result. -/
theorem blocks0 : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = t.val % 4 :=
  (by decide +kernel : ∀ t : Fin grid0.N, _)

variable (V : (c : Dev nD) → (b : Ref sig .tc) → Buf (Elt Ideal) ((c : Thread nD τ).loc b))

/-- What point `t` writes back is block `t` of the whole product: each loaded row block is read where the
    written block's rows and columns say. -/
theorem flushed0_eq (c : Dev nD) (t : Fin cfg0.N) :
    (dat0 (F := Ideal) V c).flushed 2 t
      = ((cfg0.win 2).blk t).view.read (Elt Ideal) (prod0 (V c main_v1) (V c main_v4)) := by
  show (cfg0.win 2).cut (grid0.coords t) ((dat0 V c).after 2 t) = _
  rw [after0_2]
  unfold out0_2
  rw [View.canon_unit_zero zeros0]
  simp only [View.ld_unit_zero (S := S512x2048) zeros0]
  funext j
  obtain ⟨e00, e01, e10, e11, e20, e21⟩ := blocks0 t
  obtain ⟨p, q, rfl⟩ : ∃ (p q : Fin 512), j = ix2 p q := ⟨j 0, j 1, eq_ix2 j⟩
  show k0_pay1 (F := Ideal) (iblk0 V c 0 t) (iblk0 V c 1 t) (ix2 p q)
    = prod0 (V c main_v1) (V c main_v4) (((cfg0.win 2).blk t).view.emb (ix2 p q))
  refine (pay0_apply (iblk0 V c 0 t) (iblk0 V c 1 t) p q).trans ?_
  unfold prod0
  refine Finset.sum_congr rfl fun k _ => ?_
  have h0 : iblk0 V c 0 t (ix2 p k)
      = V c main_v1 (ix2 (⟨((((cfg0.win 2).blk t).view.emb (ix2 p q)) 0).val, idx2_lt0 _⟩ : Fin 4096) k) := by
    show V c main_v1 (((cfg0.win 0).blk t).view.emb (ix2 p k)) = _
    refine congrArg (V c main_v1) (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 2048 + 1 * k.val = k.val; omega
  have h1 : iblk0 V c 1 t (ix2 q k)
      = V c main_v4 (ix2 (⟨((((cfg0.win 2).blk t).view.emb (ix2 p q)) 1).val, idx2_lt1 _⟩ : Fin 2048) k) := by
    show V c main_v4 (((cfg0.win 1).blk t).view.emb (ix2 q k)) = _
    refine congrArg (V c main_v4) (funext fun a => Fin.ext ?_)
    match a with
    | ⟨0, _⟩ => show win0_1.index t (0 : Fin 2) * 512 + 1 * q.val = win0_2.index t (1 : Fin 2) * 512 + 1 * q.val; omega
    | ⟨1, _⟩ => show win0_1.index t (1 : Fin 2) * 2048 + 1 * k.val = k.val; omega
  rw [h0, h1]

/-! ## The 32 blocks cover the result -/

/-- An index of the result lies in point `t`'s block iff each coordinate lies in the block's 512-long range. -/
theorem mem_blk0 (t : Fin cfg0.N) (i : S4096x2048.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v8).slice (win0_2.rect t)).set ↔ _
  rw [View.set_slice_whole, Rect.mem_set_unit]
  exact Iff.rfl

/-- Entry (r, e) is written by point `(r / 512) * 4 + e / 512`. -/
theorem cover0 (i : S4096x2048.Idx) :
    ∃ t : Fin cfg0.N, (cfg0.win 2).flush t = true ∧ i ∈ ((cfg0.win 2).blk t).view.set := by
  have hi0 : (i 0).val < 4096 := idx2_lt0 i
  have hi1 : (i 1).val < 2048 := idx2_lt1 i
  have hN : cfg0.N = 32 := N_0
  let t : Fin cfg0.N := ⟨(i 0).val / 512 * 4 + (i 1).val / 512, by rw [hN]; omega⟩
  have ht : t.val = (i 0).val / 512 * 4 + (i 1).val / 512 := rfl
  obtain ⟨-, -, -, -, e20, e21⟩ := blocks0 t
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-! ## The region's result -/

/-- After the region the result array is the whole product of its two operands as the region found them. -/
theorem final0 (c : Dev nD) :
    (dat0 (F := Ideal) V c).arrAt 2 cfg0.N = prod0 (V c main_v1) (V c main_v4) :=
  (dat0 (F := Ideal) V c).arrAt_eq_of_cover 2 (prod0 (V c main_v1) (V c main_v4)) (fun t _ => flushed0_eq V c t) cover0

/-- Entry (r, e) of region 0's result: the inner product of row `r` of the first operand and row `e` of the second. -/
theorem region0_value (c : Dev nD) (r : Fin 4096) (e : Fin 2048) :
    ((dat0 (F := Ideal) V c).arrAt 2 cfg0.N : S4096x2048.Idx → EReal) (ix2 r e)
      = ∑ d : Fin 2048, HMul.hMul (α := EReal) (β := EReal) (γ := EReal)
          ((V c main_v1 : S4096x2048.Idx → EReal) (ix2 r d)) ((V c main_v4 : S2048x2048.Idx → EReal) (ix2 e d)) := by
  rw [final0 V c]
  rfl

end Cert.KernelIdeal.RegionMat

end
-- ==== Proof.RegionMat1.lean ====
/-
  Region 1 of the kernel multiplies the 4096 rows of one array by the 2048 rows of another: entry (r, e) of its
  result is the inner product, over the 2048 columns, of row r of the first operand and row e of the second.
  The region walks an 8 x 4 grid; point t works on row block t / 4 of the first operand (512 rows), row block
  t % 4 of the second (512 rows), and writes block (t / 4, t % 4) of the result (512 x 512).  This module reads
  the body's one store at an index, identifies what each point writes back with its block of the whole product,
  shows that the 32 blocks cover the result, and concludes with the whole array's value.
-/
import proofs.«142431_j50843822850167_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.RegionMat

open Cert.KernelIdeal Cert.KernelIdeal.Gen Idealize.ShloMosaic Idealize.ShloMosaic.TcCoe Idealize.SL.Sem
open Idealize.ShloMosaic.ValueIdx
open Idealize.ShloMosaic.Pipeline (Dat)

/-! ## The body's store at an index -/

/-- The dimension numbers of the body's product: both operands contracted on their second axis. -/
abbrev dims1 : DotDims S512x2048 S512x2048 S512x512 := dot_S512x2048_S512x2048_S512x512_1_1_0_0_n_n

/-- The left operand is read at the output's row ... -/
theorem lhs1_row (j : S512x512.Idx) (k : dims1.contr.Idx) : (dims1.lhsIdx j k 0).val = (j 0).val := by
  unfold DotDims.lhsIdx
  rw [dif_neg (show ¬(0 : Fin S512x2048.rank) ∈ dims1.lhsBatch by decide), dif_pos (show (0 : Fin S512x2048.rank) ∈ dims1.lhsNonContracting by decide)]
  rfl
/-- ... and at the contraction position; -/
theorem lhs1_col (j : S512x512.Idx) (k : dims1.contr.Idx) : (dims1.lhsIdx j k 1).val = (k ⟨0, by decide⟩).val :=
  dims1.lhsIdx_val_of_single rfl j k
/-- the right operand at the output's column, as a row, ... -/
theorem rhs1_row (j : S512x512.Idx) (k : dims1.contr.Idx) : (dims1.rhsIdx j k 0).val = (j 1).val := by
  unfold DotDims.rhsIdx
  rw [dif_neg (show ¬(0 : Fin S512x2048.rank) ∈ dims1.rhsBatch by decide), dif_pos (show (0 : Fin S512x2048.rank) ∈ dims1.rhsNonContracting by decide)]
  rfl
/-- ... and at the contraction position. -/
theorem rhs1_col (j : S512x512.Idx) (k : dims1.contr.Idx) : (dims1.rhsIdx j k 1).val = (k ⟨0, by decide⟩).val :=
  dims1.rhsIdx_val_of_single rfl j k

/-- Entry (p, q) of the stored block is the inner product of row p of the first loaded block and row q of the
    second: the accumulator is the zero constant and the change of format is the identity on extended reals. -/
theorem pay1_apply (x0 x1 : Vec Ideal S512x2048 .bf16) (p q : Fin 512) :
    k1_pay1 (F := Ideal) x0 x1 (ix2 p q) = ∑ k : Fin 2048, x0 (ix2 p k) * x1 (ix2 q k) := by
  unfold k1_pay1
  simp only [shapeCast_self]
  refine (Ideal.matmul_constant_zero_apply (φ₁ := .bf16) (φ₂ := .bf16) dims1 none x0 x1 (ix2 p q)).trans ?_
  rw [← Equiv.sum_comp (contrEquiv1 dims1 2048 rfl rfl).symm]
  refine Finset.sum_congr rfl fun k _ => ?_
  have hk := contrEquiv1_symm_val dims1 2048 rfl rfl k
  have el : dims1.lhsIdx (ix2 p q) ((contrEquiv1 dims1 2048 rfl rfl).symm k) = ix2 p k := funext fun a => Fin.ext (by
    match a with
    | ⟨0, _⟩ => exact lhs1_row _ _
    | ⟨1, _⟩ => exact (lhs1_col _ _).trans hk)
  have er : dims1.rhsIdx (ix2 p q) ((contrEquiv1 dims1 2048 rfl rfl).symm k) = ix2 q k := funext fun a => Fin.ext (by
    match a with
    | ⟨0, _⟩ => exact rhs1_row _ _
    | ⟨1, _⟩ => exact (rhs1_col _ _).trans hk)
  rw [el, er]

/-! ## The whole product, and each point's block of it -/

/-- Entry (r, e) of the product of the rows of `A` with the rows of `B`: their inner product over the 2048 columns. -/
def prod1 (A : S4096x2048.Idx → EReal) (B : S2048x2048.Idx → EReal) : S4096x2048.Idx → EReal :=
  fun i => ∑ d : Fin 2048, A (ix2 (⟨(i 0).val, idx2_lt0 i⟩ : Fin 4096) d) * B (ix2 (⟨(i 1).val, idx2_lt1 i⟩ : Fin 2048) d)

theorem prod1_apply (A : S4096x2048.Idx → EReal) (B : S2048x2048.Idx → EReal) (r : Fin 4096) (e : Fin 2048) :
    prod1 A B (ix2 r e) = ∑ d : Fin 2048, A (ix2 r d) * B (ix2 e d) := rfl

/-- The offsets of the body's whole-block accesses are zero on both axes. -/
theorem zeros1 : (![0, 0] : Fin 2 → Nat) = fun _ => 0 := funext fun a => by fin_cases a <;> rfl

/-- The printed index maps over the 32 grid points: point `t` reads row block `t / 4` of the first operand and row
    block `t % 4` of the second, both at column block 0, and writes block `(t / 4, t % 4)` of the result. -/
theorem blocks1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = t.val % 4 :=
  (by decide +kernel : ∀ t : Fin grid1.N, _)

variable (V : (c : Dev nD) → (b : Ref sig .tc) → Buf (Elt Ideal) ((c : Thread nD τ).loc b))

/-- What point `t` writes back is block `t` of the whole product: each loaded row block is read where the
    written block's rows and columns say. -/
theorem flushed1_eq (c : Dev nD) (t : Fin cfg1.N) :
    (dat1 (F := Ideal) V c).flushed 2 t
      = ((cfg1.win 2).blk t).view.read (Elt Ideal) (prod1 (V c main_v3) (V c main_v5)) := by
  show (cfg1.win 2).cut (grid1.coords t) ((dat1 V c).after 2 t) = _
  rw [after1_2]
  unfold out1_2
  rw [View.canon_unit_zero zeros1]
  simp only [View.ld_unit_zero (S := S512x2048) zeros1]
  funext j
  obtain ⟨e00, e01, e10, e11, e20, e21⟩ := blocks1 t
  obtain ⟨p, q, rfl⟩ : ∃ (p q : Fin 512), j = ix2 p q := ⟨j 0, j 1, eq_ix2 j⟩
  show k1_pay1 (F := Ideal) (iblk1 V c 0 t) (iblk1 V c 1 t) (ix2 p q)
    = prod1 (V c main_v3) (V c main_v5) (((cfg1.win 2).blk t).view.emb (ix2 p q))
  refine (pay1_apply (iblk1 V c 0 t) (iblk1 V c 1 t) p q).trans ?_
  unfold prod1
  refine Finset.sum_congr rfl fun k _ => ?_
  have h0 : iblk1 V c 0 t (ix2 p k)
      = V c main_v3 (ix2 (⟨((((cfg1.win 2).blk t).view.emb (ix2 p q)) 0).val, idx2_lt0 _⟩ : Fin 4096) k) := by
    show V c main_v3 (((cfg1.win 0).blk t).view.emb (ix2 p k)) = _
    refine congrArg (V c main_v3) (funext fun a => Fin.ext ?_)
    match a with
    | ⟨0, _⟩ => show win1_0.index t (0 : Fin 2) * 512 + 1 * p.val = win1_2.index t (0 : Fin 2) * 512 + 1 * p.val; omega
    | ⟨1, _⟩ => show win1_0.index t (1 : Fin 2) * 2048 + 1 * k.val = k.val; omega
  have h1 : iblk1 V c 1 t (ix2 q k)
      = V c main_v5 (ix2 (⟨((((cfg1.win 2).blk t).view.emb (ix2 p q)) 1).val, idx2_lt1 _⟩ : Fin 2048) k) := by
    show V c main_v5 (((cfg1.win 1).blk t).view.emb (ix2 q k)) = _
    refine congrArg (V c main_v5) (funext fun a => Fin.ext ?_)
    match a with
    | ⟨0, _⟩ => show win1_1.index t (0 : Fin 2) * 512 + 1 * q.val = win1_2.index t (1 : Fin 2) * 512 + 1 * q.val; omega
    | ⟨1, _⟩ => show win1_1.index t (1 : Fin 2) * 2048 + 1 * k.val = k.val; omega
  rw [h0, h1]

/-! ## The 32 blocks cover the result -/

/-- An index of the result lies in point `t`'s block iff each coordinate lies in the block's 512-long range. -/
theorem mem_blk1 (t : Fin cfg1.N) (i : S4096x2048.Idx) :
    i ∈ ((cfg1.win 2).blk t).view.set ↔ ∀ a : Fin 2, win1_2.index t a * S512x512.size a ≤ (i a).val
      ∧ (i a).val < win1_2.index t a * S512x512.size a + S512x512.size a := by
  show i ∈ ((View.whole main_v9).slice (win1_2.rect t)).set ↔ _
  rw [View.set_slice_whole, Rect.mem_set_unit]
  exact Iff.rfl

/-- Entry (r, e) is written by point `(r / 512) * 4 + e / 512`. -/
theorem cover1 (i : S4096x2048.Idx) :
    ∃ t : Fin cfg1.N, (cfg1.win 2).flush t = true ∧ i ∈ ((cfg1.win 2).blk t).view.set := by
  have hi0 : (i 0).val < 4096 := idx2_lt0 i
  have hi1 : (i 1).val < 2048 := idx2_lt1 i
  have hN : cfg1.N = 32 := N_1
  let t : Fin cfg1.N := ⟨(i 0).val / 512 * 4 + (i 1).val / 512, by rw [hN]; omega⟩
  have ht : t.val = (i 0).val / 512 * 4 + (i 1).val / 512 := rfl
  obtain ⟨-, -, -, -, e20, e21⟩ := blocks1 t
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 512 ≤ (i 1).val ∧ (i 1).val < win1_2.index t (1 : Fin 2) * 512 + 512; omega

/-! ## The region's result -/

/-- After the region the result array is the whole product of its two operands as the region found them. -/
theorem final1 (c : Dev nD) :
    (dat1 (F := Ideal) V c).arrAt 2 cfg1.N = prod1 (V c main_v3) (V c main_v5) :=
  (dat1 (F := Ideal) V c).arrAt_eq_of_cover 2 (prod1 (V c main_v3) (V c main_v5)) (fun t _ => flushed1_eq V c t) cover1

/-- Entry (r, e) of region 1's result: the inner product of row `r` of the first operand and row `e` of the second. -/
theorem region1_value (c : Dev nD) (r : Fin 4096) (e : Fin 2048) :
    ((dat1 (F := Ideal) V c).arrAt 2 cfg1.N : S4096x2048.Idx → EReal) (ix2 r e)
      = ∑ d : Fin 2048, HMul.hMul (α := EReal) (β := EReal) (γ := EReal)
          ((V c main_v3 : S4096x2048.Idx → EReal) (ix2 r d)) ((V c main_v5 : S2048x2048.Idx → EReal) (ix2 e d)) := by
  rw [final1 V c]
  rfl

end Cert.KernelIdeal.RegionMat

end
-- ==== Proof.RegionMat2.lean ====
/-
  Region 2 of the kernel multiplies the 4096 rows of one array by the 2048 rows of another: entry (r, e) of its
  result is the inner product, over the 2048 columns, of row r of the first operand and row e of the second.
  The region walks an 8 x 4 grid; point t works on row block t / 4 of the first operand (512 rows), row block
  t % 4 of the second (512 rows), and writes block (t / 4, t % 4) of the result (512 x 512).  This module reads
  the body's one store at an index, identifies what each point writes back with its block of the whole product,
  shows that the 32 blocks cover the result, and concludes with the whole array's value.
-/
import proofs.«142431_j50843822850167_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.RegionMat

open Cert.KernelIdeal Cert.KernelIdeal.Gen Idealize.ShloMosaic Idealize.ShloMosaic.TcCoe Idealize.SL.Sem
open Idealize.ShloMosaic.ValueIdx
open Idealize.ShloMosaic.Pipeline (Dat)

/-! ## The body's store at an index -/

/-- The dimension numbers of the body's product: both operands contracted on their second axis. -/
abbrev dims2 : DotDims S512x2048 S512x2048 S512x512 := dot_S512x2048_S512x2048_S512x512_1_1_0_0_n_n

/-- The left operand is read at the output's row ... -/
theorem lhs2_row (j : S512x512.Idx) (k : dims2.contr.Idx) : (dims2.lhsIdx j k 0).val = (j 0).val := by
  unfold DotDims.lhsIdx
  rw [dif_neg (show ¬(0 : Fin S512x2048.rank) ∈ dims2.lhsBatch by decide), dif_pos (show (0 : Fin S512x2048.rank) ∈ dims2.lhsNonContracting by decide)]
  rfl
/-- ... and at the contraction position; -/
theorem lhs2_col (j : S512x512.Idx) (k : dims2.contr.Idx) : (dims2.lhsIdx j k 1).val = (k ⟨0, by decide⟩).val :=
  dims2.lhsIdx_val_of_single rfl j k
/-- the right operand at the output's column, as a row, ... -/
theorem rhs2_row (j : S512x512.Idx) (k : dims2.contr.Idx) : (dims2.rhsIdx j k 0).val = (j 1).val := by
  unfold DotDims.rhsIdx
  rw [dif_neg (show ¬(0 : Fin S512x2048.rank) ∈ dims2.rhsBatch by decide), dif_pos (show (0 : Fin S512x2048.rank) ∈ dims2.rhsNonContracting by decide)]
  rfl
/-- ... and at the contraction position. -/
theorem rhs2_col (j : S512x512.Idx) (k : dims2.contr.Idx) : (dims2.rhsIdx j k 1).val = (k ⟨0, by decide⟩).val :=
  dims2.rhsIdx_val_of_single rfl j k

/-- Entry (p, q) of the stored block is the inner product of row p of the first loaded block and row q of the
    second: the accumulator is the zero constant and the change of format is the identity on extended reals. -/
theorem pay2_apply (x0 x1 : Vec Ideal S512x2048 .bf16) (p q : Fin 512) :
    k2_pay1 (F := Ideal) x0 x1 (ix2 p q) = ∑ k : Fin 2048, x0 (ix2 p k) * x1 (ix2 q k) := by
  unfold k2_pay1
  simp only [shapeCast_self]
  refine (Ideal.matmul_constant_zero_apply (φ₁ := .bf16) (φ₂ := .bf16) dims2 none x0 x1 (ix2 p q)).trans ?_
  rw [← Equiv.sum_comp (contrEquiv1 dims2 2048 rfl rfl).symm]
  refine Finset.sum_congr rfl fun k _ => ?_
  have hk := contrEquiv1_symm_val dims2 2048 rfl rfl k
  have el : dims2.lhsIdx (ix2 p q) ((contrEquiv1 dims2 2048 rfl rfl).symm k) = ix2 p k := funext fun a => Fin.ext (by
    match a with
    | ⟨0, _⟩ => exact lhs2_row _ _
    | ⟨1, _⟩ => exact (lhs2_col _ _).trans hk)
  have er : dims2.rhsIdx (ix2 p q) ((contrEquiv1 dims2 2048 rfl rfl).symm k) = ix2 q k := funext fun a => Fin.ext (by
    match a with
    | ⟨0, _⟩ => exact rhs2_row _ _
    | ⟨1, _⟩ => exact (rhs2_col _ _).trans hk)
  rw [el, er]

/-! ## The whole product, and each point's block of it -/

/-- Entry (r, e) of the product of the rows of `A` with the rows of `B`: their inner product over the 2048 columns. -/
def prod2 (A : S4096x2048.Idx → EReal) (B : S2048x2048.Idx → EReal) : S4096x2048.Idx → EReal :=
  fun i => ∑ d : Fin 2048, A (ix2 (⟨(i 0).val, idx2_lt0 i⟩ : Fin 4096) d) * B (ix2 (⟨(i 1).val, idx2_lt1 i⟩ : Fin 2048) d)

theorem prod2_apply (A : S4096x2048.Idx → EReal) (B : S2048x2048.Idx → EReal) (r : Fin 4096) (e : Fin 2048) :
    prod2 A B (ix2 r e) = ∑ d : Fin 2048, A (ix2 r d) * B (ix2 e d) := rfl

/-- The offsets of the body's whole-block accesses are zero on both axes. -/
theorem zeros2 : (![0, 0] : Fin 2 → Nat) = fun _ => 0 := funext fun a => by fin_cases a <;> rfl

/-- The printed index maps over the 32 grid points: point `t` reads row block `t / 4` of the first operand and row
    block `t % 4` of the second, both at column block 0, and writes block `(t / 4, t % 4)` of the result. -/
theorem blocks2 : ∀ t : Fin cfg2.N,
    win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = t.val % 4 :=
  (by decide +kernel : ∀ t : Fin grid2.N, _)

variable (V : (c : Dev nD) → (b : Ref sig .tc) → Buf (Elt Ideal) ((c : Thread nD τ).loc b))

/-- What point `t` writes back is block `t` of the whole product: each loaded row block is read where the
    written block's rows and columns say. -/
theorem flushed2_eq (c : Dev nD) (t : Fin cfg2.N) :
    (dat2 (F := Ideal) V c).flushed 2 t
      = ((cfg2.win 2).blk t).view.read (Elt Ideal) (prod2 (V c main_v3) (V c main_v6)) := by
  show (cfg2.win 2).cut (grid2.coords t) ((dat2 V c).after 2 t) = _
  rw [after2_2]
  unfold out2_2
  rw [View.canon_unit_zero zeros2]
  simp only [View.ld_unit_zero (S := S512x2048) zeros2]
  funext j
  obtain ⟨e00, e01, e10, e11, e20, e21⟩ := blocks2 t
  obtain ⟨p, q, rfl⟩ : ∃ (p q : Fin 512), j = ix2 p q := ⟨j 0, j 1, eq_ix2 j⟩
  show k2_pay1 (F := Ideal) (iblk2 V c 0 t) (iblk2 V c 1 t) (ix2 p q)
    = prod2 (V c main_v3) (V c main_v6) (((cfg2.win 2).blk t).view.emb (ix2 p q))
  refine (pay2_apply (iblk2 V c 0 t) (iblk2 V c 1 t) p q).trans ?_
  unfold prod2
  refine Finset.sum_congr rfl fun k _ => ?_
  have h0 : iblk2 V c 0 t (ix2 p k)
      = V c main_v3 (ix2 (⟨((((cfg2.win 2).blk t).view.emb (ix2 p q)) 0).val, idx2_lt0 _⟩ : Fin 4096) k) := by
    show V c main_v3 (((cfg2.win 0).blk t).view.emb (ix2 p k)) = _
    refine congrArg (V c main_v3) (funext fun a => Fin.ext ?_)
    match a with
    | ⟨0, _⟩ => show win2_0.index t (0 : Fin 2) * 512 + 1 * p.val = win2_2.index t (0 : Fin 2) * 512 + 1 * p.val; omega
    | ⟨1, _⟩ => show win2_0.index t (1 : Fin 2) * 2048 + 1 * k.val = k.val; omega
  have h1 : iblk2 V c 1 t (ix2 q k)
      = V c main_v6 (ix2 (⟨((((cfg2.win 2).blk t).view.emb (ix2 p q)) 1).val, idx2_lt1 _⟩ : Fin 2048) k) := by
    show V c main_v6 (((cfg2.win 1).blk t).view.emb (ix2 q k)) = _
    refine congrArg (V c main_v6) (funext fun a => Fin.ext ?_)
    match a with
    | ⟨0, _⟩ => show win2_1.index t (0 : Fin 2) * 512 + 1 * q.val = win2_2.index t (1 : Fin 2) * 512 + 1 * q.val; omega
    | ⟨1, _⟩ => show win2_1.index t (1 : Fin 2) * 2048 + 1 * k.val = k.val; omega
  rw [h0, h1]

/-! ## The 32 blocks cover the result -/

/-- An index of the result lies in point `t`'s block iff each coordinate lies in the block's 512-long range. -/
theorem mem_blk2 (t : Fin cfg2.N) (i : S4096x2048.Idx) :
    i ∈ ((cfg2.win 2).blk t).view.set ↔ ∀ a : Fin 2, win2_2.index t a * S512x512.size a ≤ (i a).val
      ∧ (i a).val < win2_2.index t a * S512x512.size a + S512x512.size a := by
  show i ∈ ((View.whole main_v10).slice (win2_2.rect t)).set ↔ _
  rw [View.set_slice_whole, Rect.mem_set_unit]
  exact Iff.rfl

/-- Entry (r, e) is written by point `(r / 512) * 4 + e / 512`. -/
theorem cover2 (i : S4096x2048.Idx) :
    ∃ t : Fin cfg2.N, (cfg2.win 2).flush t = true ∧ i ∈ ((cfg2.win 2).blk t).view.set := by
  have hi0 : (i 0).val < 4096 := idx2_lt0 i
  have hi1 : (i 1).val < 2048 := idx2_lt1 i
  have hN : cfg2.N = 32 := N_2
  let t : Fin cfg2.N := ⟨(i 0).val / 512 * 4 + (i 1).val / 512, by rw [hN]; omega⟩
  have ht : t.val = (i 0).val / 512 * 4 + (i 1).val / 512 := rfl
  obtain ⟨-, -, -, -, e20, e21⟩ := blocks2 t
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 512 ≤ (i 1).val ∧ (i 1).val < win2_2.index t (1 : Fin 2) * 512 + 512; omega

/-! ## The region's result -/

/-- After the region the result array is the whole product of its two operands as the region found them. -/
theorem final2 (c : Dev nD) :
    (dat2 (F := Ideal) V c).arrAt 2 cfg2.N = prod2 (V c main_v3) (V c main_v6) :=
  (dat2 (F := Ideal) V c).arrAt_eq_of_cover 2 (prod2 (V c main_v3) (V c main_v6)) (fun t _ => flushed2_eq V c t) cover2

/-- Entry (r, e) of region 2's result: the inner product of row `r` of the first operand and row `e` of the second. -/
theorem region2_value (c : Dev nD) (r : Fin 4096) (e : Fin 2048) :
    ((dat2 (F := Ideal) V c).arrAt 2 cfg2.N : S4096x2048.Idx → EReal) (ix2 r e)
      = ∑ d : Fin 2048, HMul.hMul (α := EReal) (β := EReal) (γ := EReal)
          ((V c main_v3 : S4096x2048.Idx → EReal) (ix2 r d)) ((V c main_v6 : S2048x2048.Idx → EReal) (ix2 e d)) := by
  rw [final2 V c]
  rfl

end Cert.KernelIdeal.RegionMat

end
-- ==== Proof.RegionMat4.lean ====
/-
  Region 4 of the kernel multiplies the 4096 rows of one array by the 2048 rows of another: entry (r, e) of its
  result is the inner product, over the 2048 columns, of row r of the first operand and row e of the second.
  The region walks an 8 x 4 grid; point t works on row block t / 4 of the first operand (512 rows), row block
  t % 4 of the second (512 rows), and writes block (t / 4, t % 4) of the result (512 x 512).  This module reads
  the body's one store at an index, identifies what each point writes back with its block of the whole product,
  shows that the 32 blocks cover the result, and concludes with the whole array's value.
-/
import proofs.«142431_j50843822850167_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.RegionMat

open Cert.KernelIdeal Cert.KernelIdeal.Gen Idealize.ShloMosaic Idealize.ShloMosaic.TcCoe Idealize.SL.Sem
open Idealize.ShloMosaic.ValueIdx
open Idealize.ShloMosaic.Pipeline (Dat)

/-! ## The body's store at an index -/

/-- The dimension numbers of the body's product: both operands contracted on their second axis. -/
abbrev dims4 : DotDims S512x2048 S512x2048 S512x512 := dot_S512x2048_S512x2048_S512x512_1_1_0_0_n_n

/-- The left operand is read at the output's row ... -/
theorem lhs4_row (j : S512x512.Idx) (k : dims4.contr.Idx) : (dims4.lhsIdx j k 0).val = (j 0).val := by
  unfold DotDims.lhsIdx
  rw [dif_neg (show ¬(0 : Fin S512x2048.rank) ∈ dims4.lhsBatch by decide), dif_pos (show (0 : Fin S512x2048.rank) ∈ dims4.lhsNonContracting by decide)]
  rfl
/-- ... and at the contraction position; -/
theorem lhs4_col (j : S512x512.Idx) (k : dims4.contr.Idx) : (dims4.lhsIdx j k 1).val = (k ⟨0, by decide⟩).val :=
  dims4.lhsIdx_val_of_single rfl j k
/-- the right operand at the output's column, as a row, ... -/
theorem rhs4_row (j : S512x512.Idx) (k : dims4.contr.Idx) : (dims4.rhsIdx j k 0).val = (j 1).val := by
  unfold DotDims.rhsIdx
  rw [dif_neg (show ¬(0 : Fin S512x2048.rank) ∈ dims4.rhsBatch by decide), dif_pos (show (0 : Fin S512x2048.rank) ∈ dims4.rhsNonContracting by decide)]
  rfl
/-- ... and at the contraction position. -/
theorem rhs4_col (j : S512x512.Idx) (k : dims4.contr.Idx) : (dims4.rhsIdx j k 1).val = (k ⟨0, by decide⟩).val :=
  dims4.rhsIdx_val_of_single rfl j k

/-- Entry (p, q) of the stored block is the inner product of row p of the first loaded block and row q of the
    second: the accumulator is the zero constant. -/
theorem pay4_apply (x0 x1 : Vec Ideal S512x2048 .bf16) (p q : Fin 512) :
    k4_pay1 (F := Ideal) x0 x1 (ix2 p q) = ∑ k : Fin 2048, x0 (ix2 p k) * x1 (ix2 q k) := by
  unfold k4_pay1
  simp only [shapeCast_self]
  refine (Ideal.matmul_constant_zero_apply (φ₁ := .bf16) (φ₂ := .bf16) dims4 none x0 x1 (ix2 p q)).trans ?_
  rw [← Equiv.sum_comp (contrEquiv1 dims4 2048 rfl rfl).symm]
  refine Finset.sum_congr rfl fun k _ => ?_
  have hk := contrEquiv1_symm_val dims4 2048 rfl rfl k
  have el : dims4.lhsIdx (ix2 p q) ((contrEquiv1 dims4 2048 rfl rfl).symm k) = ix2 p k := funext fun a => Fin.ext (by
    match a with
    | ⟨0, _⟩ => exact lhs4_row _ _
    | ⟨1, _⟩ => exact (lhs4_col _ _).trans hk)
  have er : dims4.rhsIdx (ix2 p q) ((contrEquiv1 dims4 2048 rfl rfl).symm k) = ix2 q k := funext fun a => Fin.ext (by
    match a with
    | ⟨0, _⟩ => exact rhs4_row _ _
    | ⟨1, _⟩ => exact (rhs4_col _ _).trans hk)
  rw [el, er]

/-! ## The whole product, and each point's block of it -/

/-- Entry (r, e) of the product of the rows of `A` with the rows of `B`: their inner product over the 2048 columns. -/
def prod4 (A : S4096x2048.Idx → EReal) (B : S2048x2048.Idx → EReal) : S4096x2048.Idx → EReal :=
  fun i => ∑ d : Fin 2048, A (ix2 (⟨(i 0).val, idx2_lt0 i⟩ : Fin 4096) d) * B (ix2 (⟨(i 1).val, idx2_lt1 i⟩ : Fin 2048) d)

theorem prod4_apply (A : S4096x2048.Idx → EReal) (B : S2048x2048.Idx → EReal) (r : Fin 4096) (e : Fin 2048) :
    prod4 A B (ix2 r e) = ∑ d : Fin 2048, A (ix2 r d) * B (ix2 e d) := rfl

/-- The offsets of the body's whole-block accesses are zero on both axes. -/
theorem zeros4 : (![0, 0] : Fin 2 → Nat) = fun _ => 0 := funext fun a => by fin_cases a <;> rfl

/-- The printed index maps over the 32 grid points: point `t` reads row block `t / 4` of the first operand and row
    block `t % 4` of the second, both at column block 0, and writes block `(t / 4, t % 4)` of the result. -/
theorem blocks4 : ∀ t : Fin cfg4.N,
    win4_0.index t (0 : Fin 2) = t.val / 4 ∧ win4_0.index t (1 : Fin 2) = 0
    ∧ win4_1.index t (0 : Fin 2) = t.val % 4 ∧ win4_1.index t (1 : Fin 2) = 0
    ∧ win4_2.index t (0 : Fin 2) = t.val / 4 ∧ win4_2.index t (1 : Fin 2) = t.val % 4 :=
  (by decide +kernel : ∀ t : Fin grid4.N, _)

variable (V : (c : Dev nD) → (b : Ref sig .tc) → Buf (Elt Ideal) ((c : Thread nD τ).loc b))

/-- What point `t` writes back is block `t` of the whole product: each loaded row block is read where the
    written block's rows and columns say. -/
theorem flushed4_eq (c : Dev nD) (t : Fin cfg4.N) :
    (dat4 (F := Ideal) V c).flushed 2 t
      = ((cfg4.win 2).blk t).view.read (Elt Ideal) (prod4 (V c main_v67) (V c main_v7)) := by
  show (cfg4.win 2).cut (grid4.coords t) ((dat4 V c).after 2 t) = _
  rw [after4_2]
  unfold out4_2
  rw [View.canon_unit_zero zeros4]
  simp only [View.ld_unit_zero (S := S512x2048) zeros4]
  funext j
  obtain ⟨e00, e01, e10, e11, e20, e21⟩ := blocks4 t
  obtain ⟨p, q, rfl⟩ : ∃ (p q : Fin 512), j = ix2 p q := ⟨j 0, j 1, eq_ix2 j⟩
  show k4_pay1 (F := Ideal) (iblk4 V c 0 t) (iblk4 V c 1 t) (ix2 p q)
    = prod4 (V c main_v67) (V c main_v7) (((cfg4.win 2).blk t).view.emb (ix2 p q))
  refine (pay4_apply (iblk4 V c 0 t) (iblk4 V c 1 t) p q).trans ?_
  unfold prod4
  refine Finset.sum_congr rfl fun k _ => ?_
  have h0 : iblk4 V c 0 t (ix2 p k)
      = V c main_v67 (ix2 (⟨((((cfg4.win 2).blk t).view.emb (ix2 p q)) 0).val, idx2_lt0 _⟩ : Fin 4096) k) := by
    show V c main_v67 (((cfg4.win 0).blk t).view.emb (ix2 p k)) = _
    refine congrArg (V c main_v67) (funext fun a => Fin.ext ?_)
    match a with
    | ⟨0, _⟩ => show win4_0.index t (0 : Fin 2) * 512 + 1 * p.val = win4_2.index t (0 : Fin 2) * 512 + 1 * p.val; omega
    | ⟨1, _⟩ => show win4_0.index t (1 : Fin 2) * 2048 + 1 * k.val = k.val; omega
  have h1 : iblk4 V c 1 t (ix2 q k)
      = V c main_v7 (ix2 (⟨((((cfg4.win 2).blk t).view.emb (ix2 p q)) 1).val, idx2_lt1 _⟩ : Fin 2048) k) := by
    show V c main_v7 (((cfg4.win 1).blk t).view.emb (ix2 q k)) = _
    refine congrArg (V c main_v7) (funext fun a => Fin.ext ?_)
    match a with
    | ⟨0, _⟩ => show win4_1.index t (0 : Fin 2) * 512 + 1 * q.val = win4_2.index t (1 : Fin 2) * 512 + 1 * q.val; omega
    | ⟨1, _⟩ => show win4_1.index t (1 : Fin 2) * 2048 + 1 * k.val = k.val; omega
  rw [h0, h1]

/-! ## The 32 blocks cover the result -/

/-- An index of the result lies in point `t`'s block iff each coordinate lies in the block's 512-long range. -/
theorem mem_blk4 (t : Fin cfg4.N) (i : S4096x2048.Idx) :
    i ∈ ((cfg4.win 2).blk t).view.set ↔ ∀ a : Fin 2, win4_2.index t a * S512x512.size a ≤ (i a).val
      ∧ (i a).val < win4_2.index t a * S512x512.size a + S512x512.size a := by
  show i ∈ ((View.whole main_v68).slice (win4_2.rect t)).set ↔ _
  rw [View.set_slice_whole, Rect.mem_set_unit]
  exact Iff.rfl

/-- Entry (r, e) is written by point `(r / 512) * 4 + e / 512`. -/
theorem cover4 (i : S4096x2048.Idx) :
    ∃ t : Fin cfg4.N, (cfg4.win 2).flush t = true ∧ i ∈ ((cfg4.win 2).blk t).view.set := by
  have hi0 : (i 0).val < 4096 := idx2_lt0 i
  have hi1 : (i 1).val < 2048 := idx2_lt1 i
  have hN : cfg4.N = 32 := N_4
  let t : Fin cfg4.N := ⟨(i 0).val / 512 * 4 + (i 1).val / 512, by rw [hN]; omega⟩
  have ht : t.val = (i 0).val / 512 * 4 + (i 1).val / 512 := rfl
  obtain ⟨-, -, -, -, e20, e21⟩ := blocks4 t
  refine ⟨t, flush4_2 t, ?_⟩
  rw [mem_blk4]
  intro a
  match a with
  | ⟨0, _⟩ => show win4_2.index t (0 : Fin 2) * 512 ≤ (i 0).val ∧ (i 0).val < win4_2.index t (0 : Fin 2) * 512 + 512; omega
  | ⟨1, _⟩ => show win4_2.index t (1 : Fin 2) * 512 ≤ (i 1).val ∧ (i 1).val < win4_2.index t (1 : Fin 2) * 512 + 512; omega

/-! ## The region's result -/

/-- After the region the result array is the whole product of its two operands as the region found them. -/
theorem final4 (c : Dev nD) :
    (dat4 (F := Ideal) V c).arrAt 2 cfg4.N = prod4 (V c main_v67) (V c main_v7) :=
  (dat4 (F := Ideal) V c).arrAt_eq_of_cover 2 (prod4 (V c main_v67) (V c main_v7)) (fun t _ => flushed4_eq V c t) cover4

/-- Entry (r, e) of region 4's result: the inner product of row `r` of the first operand and row `e` of the second. -/
theorem region4_value (c : Dev nD) (r : Fin 4096) (e : Fin 2048) :
    ((dat4 (F := Ideal) V c).arrAt 2 cfg4.N : S4096x2048.Idx → EReal) (ix2 r e)
      = ∑ d : Fin 2048, HMul.hMul (α := EReal) (β := EReal) (γ := EReal)
          ((V c main_v67 : S4096x2048.Idx → EReal) (ix2 r d)) ((V c main_v7 : S2048x2048.Idx → EReal) (ix2 e d)) := by
  rw [final4 V c]
  rfl

end Cert.KernelIdeal.RegionMat

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.RegionAttnBody.lean ====
/-
  The attention body's stored value, read at one entry of its [512, 128] block.

  The body takes a block of 512 query rows, the 2048 key rows and the 2048 value rows of one head (128 lanes each).
  Entry (p, s) of the scores block is the inner product of query row p and key row s over the lanes, times the scale
  word.  Along each row the maximum is taken from the −∞ word, the exponentials relative to it are summed from the zero
  word, and the exponentials' weighted sum of the value rows is divided by that sum.  Entry (p, d) of the result
  therefore depends on query row p, on every key row, and on lane d of every value row: it is the context `ctxK` of
  the specification.  Changes of float format are the identity on extended reals, and a cast to the same shape is the
  identity.
-/
import proofs.«142431_j50843822850167_2_alg».proof.Proof.Gen.KernelIdeal.Skeleton
import proofs.«142431_j50843822850167_2_alg».proof.Proof.Spec
import proofs.«142431_j50843822850167_2_alg».proof.Proof.LibColumnLayout
import proofs.«142431_j50843822850167_2_alg».proof.Proof.LibRowLift
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionAttn

open Cert.KernelIdeal Cert.Attn Idealize.ShloMosaic Idealize.ShloMosaic.ValueIdx

/-! ## The two contractions read at an index -/

theorem qk_lhs0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem qk_lhs1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem qk_rhs0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem qk_rhs1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- Query rows times key rows, into the zero accumulator: entry (p, s) is the inner product of query row p and key row s. -/
theorem qk_apply (q : FVec Ideal S512x128 .bf16) (k : FVec Ideal S2048x128 .bf16) (p : Fin 512) (s : Fin 2048) :
    matmul dot_S512x128_S2048x128_S512x2048_1_1_0_0_n_n none q k (constant S512x2048 .f32 0x00000000#32) (ix2 p s)
      = ∑ d : Fin 128, q (ix2 p d) * k (ix2 s d) := by
  simp only [matmul]
  rw [Ideal.matmul_constant_zero_apply, ← Equiv.sum_comp (contrEquiv1 dot_S512x128_S2048x128_S512x2048_1_1_0_0_n_n 128 rfl rfl).symm]
  refine Finset.sum_congr rfl fun d _ => ?_
  have hd := contrEquiv1_symm_val dot_S512x128_S2048x128_S512x2048_1_1_0_0_n_n 128 rfl rfl d
  have el : dot_S512x128_S2048x128_S512x2048_1_1_0_0_n_n.lhsIdx (ix2 p s) ((contrEquiv1 dot_S512x128_S2048x128_S512x2048_1_1_0_0_n_n 128 rfl rfl).symm d) = ix2 p d := funext fun a => Fin.ext (by
    match a with
    | ⟨0, _⟩ => exact qk_lhs0 _ _
    | ⟨1, _⟩ => exact (qk_lhs1 _ _).trans hd)
  have er : dot_S512x128_S2048x128_S512x2048_1_1_0_0_n_n.rhsIdx (ix2 p s) ((contrEquiv1 dot_S512x128_S2048x128_S512x2048_1_1_0_0_n_n 128 rfl rfl).symm d) = ix2 s d := funext fun a => Fin.ext (by
    match a with
    | ⟨0, _⟩ => exact qk_rhs0 _ _
    | ⟨1, _⟩ => exact (qk_rhs1 _ _).trans hd)
  rw [el, er]

theorem pv_lhs0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem pv_lhs1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem pv_rhs0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem pv_rhs1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- Weights times value rows, into the zero accumulator: entry (p, d) sums weight (p, s) times value (s, d) over the key positions s. -/
theorem pv_apply (w : FVec Ideal S512x2048 .bf16) (v : FVec Ideal S2048x128 .bf16) (p : Fin 512) (d : Fin 128) :
    matmul dot_S512x2048_S2048x128_S512x128_1_0_0_1_n_n none w v (constant S512x128 .f32 0x00000000#32) (ix2 p d)
      = ∑ s : Fin 2048, w (ix2 p s) * v (ix2 s d) := by
  simp only [matmul]
  rw [Ideal.matmul_constant_zero_apply, ← Equiv.sum_comp (contrEquiv1 dot_S512x2048_S2048x128_S512x128_1_0_0_1_n_n 2048 rfl rfl).symm]
  refine Finset.sum_congr rfl fun s _ => ?_
  have hs := contrEquiv1_symm_val dot_S512x2048_S2048x128_S512x128_1_0_0_1_n_n 2048 rfl rfl s
  have el : dot_S512x2048_S2048x128_S512x128_1_0_0_1_n_n.lhsIdx (ix2 p d) ((contrEquiv1 dot_S512x2048_S2048x128_S512x128_1_0_0_1_n_n 2048 rfl rfl).symm s) = ix2 p s := funext fun a => Fin.ext (by
    match a with
    | ⟨0, _⟩ => exact pv_lhs0 _ _
    | ⟨1, _⟩ => exact (pv_lhs1 _ _).trans hs)
  have er : dot_S512x2048_S2048x128_S512x128_1_0_0_1_n_n.rhsIdx (ix2 p d) ((contrEquiv1 dot_S512x2048_S2048x128_S512x128_1_0_0_1_n_n 2048 rfl rfl).symm s) = ix2 s d := funext fun a => Fin.ext (by
    match a with
    | ⟨0, _⟩ => exact (pv_rhs0 _ _).trans hs
    | ⟨1, _⟩ => exact pv_rhs1 _ _)
  rw [el, er]

/-! ## The row reductions and the column layouts read at a row -/

/-- The maximum along the columns of a [512, 2048] block from the −∞ word: at row p, the fold of max over that row. -/
theorem rowMax_apply (src : FVec Ideal S512x2048 .f32) (h : S512x2048.Reduces [1] S512) (hφ : FKind.Formats .f32)
    (hacc : (0xFF800000#32 : BitVec 32) = FKind.maximumf.neutral .f32 hφ) (p : Fin 512) :
    multiReduction .maximumf [1] S512 src 0xFF800000#32 h hφ hacc (ix1 p) = top (fun s => src (ix2 p s)) := by
  refine (Ideal.multiReduction_maximumf_single src _ h hφ hacc (ix1 p)).trans ?_
  show (Finset.univ : Finset (Fin 2048)).fold max (Ideal.ofBits .f32 0xFF800000#32) (src ∘ h.lift (ix1 p)) = _
  unfold top ninf
  refine congrArg (fun f => (Finset.univ : Finset (Fin 2048)).fold max (Ideal.ofBits .f32 0xFF800000#32) f) (funext fun s => ?_)
  exact congrArg src (Cert.RowLift.lift_row h p s)

/-- The sum along the columns of a [512, 2048] block from the zero word: at row p, the sum over that row. -/
theorem rowSum_apply (src : FVec Ideal S512x2048 .f32) (h : S512x2048.Reduces [1] S512) (hφ : FKind.Formats .f32)
    (hacc : (0x00000000#32 : BitVec 32) = FKind.add.neutral .f32 hφ) (p : Fin 512) :
    multiReduction .add [1] S512 src 0x00000000#32 h hφ hacc (ix1 p) = ∑ s : Fin 2048, src (ix2 p s) := by
  refine (Ideal.multiReduction_add_single src _ h hφ hacc (ix1 p)).trans ?_
  show ∑ s : Fin 2048, src (h.lift (ix1 p) s) = _
  exact Finset.sum_congr rfl fun s _ => congrArg src (Cert.RowLift.lift_row h p s)

/-- A row statistic kept as a column and broadcast along the 2048 columns reads, at (p, s), the statistic of row p. -/
theorem colWide_apply (r : FVec Ideal S512 .f32) (hc : S512.ShapeCasts S512x1) (hb : S512x1.Broadcasts S512x2048)
    (p : Fin 512) (s : Fin 2048) : broadcastTo S512x2048 (shapeCast S512x1 r hc) hb (ix2 p s) = r (ix1 p) :=
  (Cert.ColumnLayout.broadcastTo_a1_ab_apply _ hb p s).trans (Cert.ColumnLayout.shapeCast_a_a1_apply r hc p 0)

/-- The same along the 128 lanes. -/
theorem colLane_apply (r : FVec Ideal S512 .f32) (hc : S512.ShapeCasts S512x1) (hb : S512x1.Broadcasts S512x128)
    (p : Fin 512) (d : Fin 128) : broadcastTo S512x128 (shapeCast S512x1 r hc) hb (ix2 p d) = r (ix1 p) :=
  (Cert.ColumnLayout.broadcastTo_a1_ab_apply _ hb p d).trans (Cert.ColumnLayout.shapeCast_a_a1_apply r hc p 0)

/-! ## The softmax-weighted sum of a scores block and a value block -/

/-- From a [512, 2048] block of scores `sc` and a [2048, 128] block of values `v`: exponentials relative to the row
    maximum, their weighted sum of the value rows, divided by their sum. Entry (p, d) depends on row p of the scores and
    on lane d of every value row. -/
theorem weighted_apply (sc : FVec Ideal S512x2048 .f32) (v : FVec Ideal S2048x128 .bf16)
    (hr : S512x2048.Reduces [1] S512) (hφ : FKind.Formats .f32)
    (hmax : (0xFF800000#32 : BitVec 32) = FKind.maximumf.neutral .f32 hφ)
    (hadd : (0x00000000#32 : BitVec 32) = FKind.add.neutral .f32 hφ)
    (hc : S512.ShapeCasts S512x1) (hbw : S512x1.Broadcasts S512x2048) (hbl : S512x1.Broadcasts S512x128)
    (hlt : FTy.bits .bf16 < FTy.bits .f32) (p : Fin 512) (d : Fin 128) :
    (truncf .bf16 (divf
        (matmul dot_S512x2048_S2048x128_S512x128_1_0_0_1_n_n none
          (truncf .bf16 (exp (subf sc (broadcastTo S512x2048 (shapeCast S512x1 (multiReduction .maximumf [1] S512 sc 0xFF800000#32 hr hφ hmax) hc) hbw))) hlt)
          v (constant S512x128 .f32 0x00000000#32))
        (broadcastTo S512x128 (shapeCast S512x1 (multiReduction .add [1] S512
          (exp (subf sc (broadcastTo S512x2048 (shapeCast S512x1 (multiReduction .maximumf [1] S512 sc 0xFF800000#32 hr hφ hmax) hc) hbw)))
          0x00000000#32 hr hφ hadd) hc) hbl)) hlt : FVec Ideal S512x128 .bf16) (ix2 p d)
      = ctxK (fun s => sc (ix2 p s)) (fun s => v (ix2 s d)) := by
  have hw : ∀ s : Fin 2048, (exp (subf sc (broadcastTo S512x2048 (shapeCast S512x1 (multiReduction .maximumf [1] S512 sc 0xFF800000#32 hr hφ hmax) hc) hbw)) : FVec Ideal S512x2048 .f32) (ix2 p s)
      = wexp (fun s => sc (ix2 p s)) s := fun s => by
    show Ideal.exp (sc (ix2 p s) - broadcastTo S512x2048 (shapeCast S512x1 (multiReduction .maximumf [1] S512 sc 0xFF800000#32 hr hφ hmax) hc) hbw (ix2 p s)) = _
    rw [colWide_apply, rowMax_apply]
    rfl
  show Ideal.div (matmul dot_S512x2048_S2048x128_S512x128_1_0_0_1_n_n none _ v (constant S512x128 .f32 0x00000000#32) (ix2 p d))
      (broadcastTo S512x128 (shapeCast S512x1 (multiReduction (F := Ideal) .add [1] S512 _ 0x00000000#32 hr hφ hadd) hc) hbl (ix2 p d)) = _
  rw [pv_apply, colLane_apply, rowSum_apply]
  unfold ctxK den
  refine congrArg₂ Ideal.div (Finset.sum_congr rfl fun s _ => ?_) (Finset.sum_congr rfl fun s _ => hw s)
  exact congrArg (· * v (ix2 s d)) (hw s)

/-! ## The body's payload at an index -/

/-- The attention body's stored value at row p, lane d of its [512, 128] block: the context of query row p — its scores
    against all 2048 key rows, each the scaled inner product over the 128 lanes — over lane d of the 2048 value rows. -/
theorem payload_apply (x0 : Vec Ideal S512x128 .bf16) (x1 x2 : Vec Ideal S2048x128 .bf16) (p : Fin 512) (d : Fin 128) :
    Gen.k3_pay1 x0 x1 x2 (ix2 p d)
      = ctxK (fun s => score (fun d' => x0 (ix2 p d')) (fun d' => x1 (ix2 s d'))) (fun s => x2 (ix2 s d)) := by
  unfold Gen.k3_pay1
  simp only [shapeCast_self]
  refine (weighted_apply _ x2 _ _ _ _ _ _ _ _ p d).trans ?_
  refine congrArg (fun sc => ctxK sc (fun s => x2 (ix2 s d))) (funext fun s => ?_)
  show matmul dot_S512x128_S2048x128_S512x2048_1_1_0_0_n_n none x0 x1 (constant S512x2048 .f32 0x00000000#32) (ix2 p s) * Ideal.ofBits .f32 0x3DB504F3#32 = _
  rw [qk_apply]
  rfl

end Cert.KernelIdeal.RegionAttn

end
-- ==== Proof.RegionAttn.lean ====
/-
  The attention region's output array, entry by entry.

  The region's grid has 128 points: batch (2) × head (16) × query tile (4).  At a point the body reads a [512, 128]
  block of the rotated queries (rows 512·(4·batch + tile) …, columns 128·head …), the [2048, 128] blocks of the rotated
  keys and of the values of that batch and head (rows 2048·batch …, columns 128·head …), and writes the [512, 128]
  block of the output under the query block.  Entry (p, d) of the written block is the context of query row p against
  the 2048 key rows, over lane d of the 2048 value rows (Proof/RegionAttnBody.lean); re-indexed to the arrays it is one
  function `ctxArr` of the three arrays at the array index under (p, d).  The output blocks tile the [4096, 2048] array,
  so after the write-backs the array is `ctxArr` everywhere; at row t of batch b and lane d of head h that is the
  context of the specification.
-/
import proofs.«142431_j50843822850167_2_alg».proof.Proof.Gen.KernelIdeal.Frame
import proofs.«142431_j50843822850167_2_alg».proof.Proof.Spec
import proofs.«142431_j50843822850167_2_alg».proof.Proof.RegionAttnBody
import Idealize.ShloMosaic.Lib.Pipeline.Value
import Idealize.ShloMosaic.Lib.ValueIdx

noncomputable section

open scoped BigOperators

namespace Cert.KernelIdeal.RegionAttn

open Cert.KernelIdeal Cert.Attn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The batch of row r of the flattened [4096, ·] arrays: rows 0 … 2047 are batch 0, the rest batch 1. -/
def batchOf (r : Fin 4096) : Fin 2 := ⟨r.val / 2048, by have := r.isLt; omega⟩

/-- The attention output at row r, column e, from the rotated queries a0, the rotated keys a1 and the values a2 (each
    [4096, 2048]): the context of query row r restricted to the head of column e, against the 2048 key and value rows
    of the same batch and head. -/
def ctxAt (a0 a1 a2 : S4096x2048.Idx → EReal) (r : Fin 4096) (e : Fin 2048) : EReal :=
  ctxK (fun s => score (fun d' => a0 (ix2 r (col (headOf e) d'))) (fun d' => a1 (ix2 (row (batchOf r) s) (col (headOf e) d'))))
    (fun s => a2 (ix2 (row (batchOf r) s) e))

/-- The same as a whole array. -/
def ctxArr (a0 a1 a2 : S4096x2048.Idx → EReal) : S4096x2048.Idx → EReal :=
  fun i => ctxAt a0 a1 a2 ⟨(i 0).val, idx2_lt0 i⟩ ⟨(i 1).val, idx2_lt1 i⟩

/-- The index maps over the 128 grid points: point t is batch t / 64, head t / 4 mod 16, query tile t mod 4. The query and
    output blocks sit at block row 4·batch + tile, block column head; the key and value blocks at block row batch, block
    column head. -/
theorem block_indices : ∀ t : Fin cfg3.N,
    win3_3.index t (0 : Fin 2) = t.val / 64 * 4 + t.val % 4 ∧ win3_3.index t (1 : Fin 2) = t.val / 4 % 16
    ∧ win3_0.index t (0 : Fin 2) = t.val / 64 * 4 + t.val % 4 ∧ win3_0.index t (1 : Fin 2) = t.val / 4 % 16
    ∧ win3_1.index t (0 : Fin 2) = t.val / 64 ∧ win3_1.index t (1 : Fin 2) = t.val / 4 % 16
    ∧ win3_2.index t (0 : Fin 2) = t.val / 64 ∧ win3_2.index t (1 : Fin 2) = t.val / 4 % 16 :=
  (by decide +kernel : ∀ t : Fin grid3.N, _)

/-! ## The input blocks as entries of their arrays -/

/-- Entry y of the query block at point t is the rotated-query array at block row × 512 + y's row, block column × 128 + y's lane. -/
theorem qblk_apply (c : Dev nD) (t : Fin cfg3.N) (y : S512x128.Idx) (k : S4096x2048.Idx)
    (hk0 : (k 0).val = win3_0.index t 0 * 512 + (y 0).val) (hk1 : (k 1).val = win3_0.index t 1 * 128 + (y 1).val) :
    (Gen.iblk3 V c 0 t : Vec Ideal S512x128 .bf16) y = (V c main_v64 : S4096x2048.Idx → EReal) k := by
  unfold Gen.iblk3
  rw [View.read_apply]
  show V c main_v64 _ = V c main_v64 _
  refine congrArg _ (funext fun a => Fin.ext ?_)
  match a with
  | ⟨0, _⟩ => show win3_0.index t 0 * 512 + 1 * (y 0).val = (k 0).val; omega
  | ⟨1, _⟩ => show win3_0.index t 1 * 128 + 1 * (y 1).val = (k 1).val; omega

/-- Entry y of the key block at point t is the rotated-key array at block row × 2048 + y's row, block column × 128 + y's lane. -/
theorem kblk_apply (c : Dev nD) (t : Fin cfg3.N) (y : S2048x128.Idx) (k : S4096x2048.Idx)
    (hk0 : (k 0).val = win3_1.index t 0 * 2048 + (y 0).val) (hk1 : (k 1).val = win3_1.index t 1 * 128 + (y 1).val) :
    (Gen.iblk3 V c 1 t : Vec Ideal S2048x128 .bf16) y = (V c main_v66 : S4096x2048.Idx → EReal) k := by
  unfold Gen.iblk3
  rw [View.read_apply]
  show V c main_v66 _ = V c main_v66 _
  refine congrArg _ (funext fun a => Fin.ext ?_)
  match a with
  | ⟨0, _⟩ => show win3_1.index t 0 * 2048 + 1 * (y 0).val = (k 0).val; omega
  | ⟨1, _⟩ => show win3_1.index t 1 * 128 + 1 * (y 1).val = (k 1).val; omega

/-- Entry y of the value block at point t is the value array at block row × 2048 + y's row, block column × 128 + y's lane. -/
theorem vblk_apply (c : Dev nD) (t : Fin cfg3.N) (y : S2048x128.Idx) (k : S4096x2048.Idx)
    (hk0 : (k 0).val = win3_2.index t 0 * 2048 + (y 0).val) (hk1 : (k 1).val = win3_2.index t 1 * 128 + (y 1).val) :
    (Gen.iblk3 V c 2 t : Vec Ideal S2048x128 .bf16) y = (V c main_v10 : S4096x2048.Idx → EReal) k := by
  unfold Gen.iblk3
  rw [View.read_apply]
  show V c main_v10 _ = V c main_v10 _
  refine congrArg _ (funext fun a => Fin.ext ?_)
  match a with
  | ⟨0, _⟩ => show win3_2.index t 0 * 2048 + 1 * (y 0).val = (k 0).val; omega
  | ⟨1, _⟩ => show win3_2.index t 1 * 128 + 1 * (y 1).val = (k 1).val; omega

/-! ## One point's payload is its block of the whole-array function -/

/-- With the query block at block row qi, block column hi of a0, and the key and value blocks at block row qi / 4 (the
    batch), block column hi of a1 and a2, the payload at y is `ctxArr` at the array index under y: the rows of the key
    and value blocks are the 2048 positions of that batch, their lanes the 128 lanes of head hi. -/
theorem payload_is_block_entry (a0 a1 a2 : S4096x2048.Idx → EReal)
    (x0 : Vec Ideal S512x128 .bf16) (x1 x2 : Vec Ideal S2048x128 .bf16) (qi hi : ℕ) (hq : qi < 8) (hh : hi < 16)
    (hx0 : ∀ (y : S512x128.Idx) (k : S4096x2048.Idx), (k 0).val = qi * 512 + (y 0).val → (k 1).val = hi * 128 + (y 1).val → x0 y = a0 k)
    (hx1 : ∀ (y : S2048x128.Idx) (k : S4096x2048.Idx), (k 0).val = qi / 4 * 2048 + (y 0).val → (k 1).val = hi * 128 + (y 1).val → x1 y = a1 k)
    (hx2 : ∀ (y : S2048x128.Idx) (k : S4096x2048.Idx), (k 0).val = qi / 4 * 2048 + (y 0).val → (k 1).val = hi * 128 + (y 1).val → x2 y = a2 k)
    (y : S512x128.Idx) (i : S4096x2048.Idx) (hi0 : (i 0).val = qi * 512 + (y 0).val) (hi1 : (i 1).val = hi * 128 + (y 1).val) :
    Gen.k3_pay1 x0 x1 x2 y = ctxArr a0 a1 a2 i := by
  obtain ⟨p, d, rfl⟩ : ∃ (p : Fin 512) (d : Fin 128), y = ix2 p d := ⟨y 0, y 1, eq_ix2 y⟩
  have hp : p.val < 512 := p.isLt
  have hd : d.val < 128 := d.isLt
  have hi0' : (i 0).val = qi * 512 + p.val := hi0
  have hi1' : (i 1).val = hi * 128 + d.val := hi1
  rw [payload_apply]
  unfold ctxArr ctxAt
  refine congrArg₂ ctxK (funext fun s => congrArg₂ score (funext fun d' => ?_) (funext fun d' => ?_)) (funext fun s => ?_)
  · have hd' : d'.val < 128 := d'.isLt
    refine hx0 (ix2 p d') _ ?_ ?_
    · show (i 0).val = qi * 512 + p.val; omega
    · show (i 1).val / 128 * 128 + d'.val = hi * 128 + d'.val; omega
  · have hd' : d'.val < 128 := d'.isLt
    have hs : s.val < 2048 := s.isLt
    refine hx1 (ix2 s d') _ ?_ ?_
    · show (i 0).val / 2048 * 2048 + s.val = qi / 4 * 2048 + s.val; omega
    · show (i 1).val / 128 * 128 + d'.val = hi * 128 + d'.val; omega
  · have hs : s.val < 2048 := s.isLt
    refine hx2 (ix2 s d) _ ?_ ?_
    · show (i 0).val / 2048 * 2048 + s.val = qi / 4 * 2048 + s.val; omega
    · show (i 1).val = hi * 128 + d.val; omega

/-! ## What a point writes back, the cover, the array -/

/-- Point t writes back block t of `ctxArr` of the three arrays as the region finds them. -/
theorem written_back_eq (c : Dev nD) (t : Fin cfg3.N) :
    (Gen.dat3 (F := Ideal) V c).flushed 3 t
      = ((cfg3.win 3).blk t).view.read (Elt Ideal) (ctxArr (V c main_v64) (V c main_v66) (V c main_v10)) := by
  show (cfg3.win 3).cut (grid3.coords t) ((Gen.dat3 (F := Ideal) V c).after 3 t) = _
  rw [Gen.after3_3]
  unfold Gen.out3_3
  rw [View.canon_unit_zero offsets_zero]
  simp only [View.ld_unit_zero (S := S512x128) offsets_zero, View.ld_unit_zero (S := S2048x128) offsets_zero]
  obtain ⟨e30, e31, e00, e01, e10, e11, e20, e21⟩ := block_indices t
  have hN : t.val < 128 := lt_of_lt_of_eq t.isLt Gen.N_3
  funext y
  show Gen.k3_pay1 (Gen.iblk3 V c 0 t) (Gen.iblk3 V c 1 t) (Gen.iblk3 V c 2 t) y
    = ctxArr (V c main_v64) (V c main_v66) (V c main_v10) (((cfg3.win 3).blk t).view.emb y)
  refine payload_is_block_entry (V c main_v64) (V c main_v66) (V c main_v10) (Gen.iblk3 V c 0 t) (Gen.iblk3 V c 1 t) (Gen.iblk3 V c 2 t)
    (win3_3.index t 0) (win3_3.index t 1) (by omega) (by omega)
    (fun y k h0 h1 => qblk_apply V c t y k (by omega) (by omega))
    (fun y k h0 h1 => kblk_apply V c t y k (by omega) (by omega))
    (fun y k h0 h1 => vblk_apply V c t y k (by omega) (by omega))
    y (((cfg3.win 3).blk t).view.emb y) ?_ ?_
  · show win3_3.index t 0 * 512 + 1 * (y 0).val = win3_3.index t 0 * 512 + (y 0).val; omega
  · show win3_3.index t 1 * 128 + 1 * (y 1).val = win3_3.index t 1 * 128 + (y 1).val; omega

/-- An index of the output array is in point t's block iff each coordinate is in the block's range on its axis. -/
theorem mem_out_block (t : Fin cfg3.N) (i : S4096x2048.Idx) :
    i ∈ ((cfg3.win 3).blk t).view.set ↔ ∀ a : Fin 2, win3_3.index t a * S512x128.size a ≤ (i a).val ∧ (i a).val < win3_3.index t a * S512x128.size a + S512x128.size a := by
  show i ∈ ((View.whole main_v67).slice (win3_3.rect t)).set ↔ _
  rw [View.set_slice_whole, Rect.mem_set_unit]
  exact Iff.rfl

/-- Every index of the output array is under some point's block: row r, column e under the point of batch r / 2048,
    head e / 128, query tile (r mod 2048) / 512. -/
theorem out_blocks_cover (i : S4096x2048.Idx) :
    ∃ t : Fin cfg3.N, (cfg3.win 3).flush t = true ∧ i ∈ ((cfg3.win 3).blk t).view.set := by
  have h0 : (i 0).val < 4096 := idx2_lt0 i
  have h1 : (i 1).val < 2048 := idx2_lt1 i
  have hN : cfg3.N = 128 := Gen.N_3
  obtain ⟨n, hn⟩ : ∃ n : ℕ, n = ((i 0).val / 2048 * 16 + (i 1).val / 128) * 4 + (i 0).val % 2048 / 512 := ⟨_, rfl⟩
  have hlt : n < cfg3.N := by rw [hN]; omega
  obtain ⟨e30, e31, -⟩ := block_indices ⟨n, hlt⟩
  have e30' : win3_3.index ⟨n, hlt⟩ 0 = n / 64 * 4 + n % 4 := e30
  have e31' : win3_3.index ⟨n, hlt⟩ 1 = n / 4 % 16 := e31
  refine ⟨⟨n, hlt⟩, Gen.flush3_3 _, ?_⟩
  rw [mem_out_block]
  intro a
  match a with
  | ⟨0, _⟩ =>
    show win3_3.index ⟨n, hlt⟩ 0 * 512 ≤ (i 0).val ∧ (i 0).val < win3_3.index ⟨n, hlt⟩ 0 * 512 + 512
    rw [e30']
    omega
  | ⟨1, _⟩ =>
    show win3_3.index ⟨n, hlt⟩ 1 * 128 ≤ (i 1).val ∧ (i 1).val < win3_3.index ⟨n, hlt⟩ 1 * 128 + 128
    rw [e31']
    omega

/-- The output array after the region's write-backs is `ctxArr` of the three arrays as the region finds them. -/
theorem out_array_eq (c : Dev nD) :
    (Gen.dat3 (F := Ideal) V c).arrAt 3 cfg3.N = ctxArr (V c main_v64) (V c main_v66) (V c main_v10) :=
  (Gen.dat3 (F := Ideal) V c).arrAt_eq_of_cover 3 (ctxArr (V c main_v64) (V c main_v66) (V c main_v10))
    (fun t _ => written_back_eq V c t) out_blocks_cover

/-! ## The region's value at a row of a batch and a lane of a head -/

theorem headOf_col (h : Fin 16) (d : Fin 128) : headOf (col h d) = h := by
  apply Fin.ext; show (h.val * 128 + d.val) / 128 = h.val; have := d.isLt; omega

theorem batchOf_row (b : Fin 2) (t : Fin 2048) : batchOf (row b t) = b := by
  apply Fin.ext; show (b.val * 2048 + t.val) / 2048 = b.val; have := t.isLt; omega

/-- The attention region's output at row t of batch b, lane d of head h: the context of the rotated query row (b, t)
    of head h against the rotated key rows and the value rows (b, s) of head h. -/
theorem region3_value (c : Dev nD) (b : Fin 2) (t : Fin 2048) (h : Fin 16) (d : Fin 128) :
    ((Gen.dat3 (F := Ideal) V c).arrAt 3 cfg3.N : S4096x2048.Idx → EReal) (ix2 (row b t) (col h d))
      = ctxK (fun s => score (fun d' => (V c main_v64 : S4096x2048.Idx → EReal) (ix2 (row b t) (col h d')))
                             (fun d' => (V c main_v66 : S4096x2048.Idx → EReal) (ix2 (row b s) (col h d'))))
             (fun s => (V c main_v10 : S4096x2048.Idx → EReal) (ix2 (row b s) (col h d))) := by
  rw [out_array_eq]
  show ctxAt (V c main_v64) (V c main_v66) (V c main_v10) (row b t) (col h d) = _
  unfold ctxAt
  rw [headOf_col, batchOf_row]

end Cert.KernelIdeal.RegionAttn

end
-- ==== Proof.KernelValue.lean ====
/-
  The idealized kernel program's result as a function of the launch memory.  The last boundary's contents `W8` are a fold
  through @main: a host stretch (the arguments flattened to 4096 rows and converted), three regions (the query, key and
  value projections: each region's output array is the rows times the transposed table, every other buffer as the region
  found it), a host stretch (the rotary embedding of the query and key rows, head by head), the attention region (each
  context entry is the exponentials' weighted sum of a value column divided by the exponentials' sum), the output
  projection region, and one reshape.  Read backwards from the result's buffer, boundary by boundary — a buffer a
  segment does not write is what the previous boundary held, an input array of a region is never written — the fold ends
  at the specification's layer (Spec.lean, arrangement `ctxK`) of the launch memory's ten arguments.
-/
import proofs.«142431_j50843822850167_2_alg».proof.Proof.Gen.KernelIdeal.Frame
import proofs.«142431_j50843822850167_2_alg».proof.Proof.Spec
import proofs.«142431_j50843822850167_2_alg».proof.Proof.HostEnds
import proofs.«142431_j50843822850167_2_alg».proof.Proof.HostRope
import proofs.«142431_j50843822850167_2_alg».proof.Proof.RegionMat0
import proofs.«142431_j50843822850167_2_alg».proof.Proof.RegionMat1
import proofs.«142431_j50843822850167_2_alg».proof.Proof.RegionMat2
import proofs.«142431_j50843822850167_2_alg».proof.Proof.RegionMat4
import proofs.«142431_j50843822850167_2_alg».proof.Proof.RegionAttn
import Idealize.ShloMosaic.Lib.Pipeline.Value
import Idealize.ShloMosaic.Lib.ValueIdx

set_option maxRecDepth 16384

noncomputable section
open scoped BigOperators

namespace Cert.KernelIdeal.KernelValue

open Cert.KernelIdeal Cert.KernelIdeal.Gen Cert.Attn Idealize.ShloMosaic Idealize.ShloMosaic.TcCoe Idealize.ShloMosaic.ValueIdx Idealize.SL.Sem
open Cert.KernelIdeal.RegionMat Cert.KernelIdeal.RegionAttn Cert.KernelIdeal.HostValue

variable (m : (ℓ : Loc nD τ sig) → Buf (Elt Ideal) ℓ) (ρ : Dev nD → PrngReg) (c : Dev nD)

/-- The hidden rows, the encoder rows, the four tables and the four rotary tables of the launch memory, in coordinates. -/
abbrev X : Rows := rows3 (m ((c : Thread nD τ).loc main_arg0))
abbrev E : Rows := rows3 (m ((c : Thread nD τ).loc main_arg1))
abbrev Wq : Attn.Table := table (m ((c : Thread nD τ).loc main_arg2))
abbrev Wk : Attn.Table := table (m ((c : Thread nD τ).loc main_arg3))
abbrev Wv : Attn.Table := table (m ((c : Thread nD τ).loc main_arg4))
abbrev Wo : Attn.Table := table (m ((c : Thread nD τ).loc main_arg5))
abbrev cq : Rot := rotT (m ((c : Thread nD τ).loc main_arg6))
abbrev sq : Rot := rotT (m ((c : Thread nD τ).loc main_arg7))
abbrev ck : Rot := rotT (m ((c : Thread nD τ).loc main_arg8))
abbrev sk : Rot := rotT (m ((c : Thread nD τ).loc main_arg9))

/-! ## After the first host stretch: the flattened rows and the tables -/

theorem v1_at (b : Fin 2) (t d : Fin 2048) :
    (V1 (F := Ideal) m ρ c main_v1 : S4096x2048.Idx → EReal) (ix2 (row b t) d) = X m c b t d :=
  host0_v1 (W0 m ρ c) b t d
theorem v3_at (b : Fin 2) (t d : Fin 2048) :
    (V1 (F := Ideal) m ρ c main_v3 : S4096x2048.Idx → EReal) (ix2 (row b t) d) = E m c b t d :=
  host0_v3 (W0 m ρ c) b t d
theorem v4_at (e d : Fin 2048) : (V1 (F := Ideal) m ρ c main_v4 : S2048x2048.Idx → EReal) (ix2 e d) = Wq m c e d :=
  host0_v4 (W0 m ρ c) e d
theorem v5_at (e d : Fin 2048) : (V1 (F := Ideal) m ρ c main_v5 : S2048x2048.Idx → EReal) (ix2 e d) = Wk m c e d :=
  host0_v5 (W0 m ρ c) e d
theorem v6_at (e d : Fin 2048) : (V1 (F := Ideal) m ρ c main_v6 : S2048x2048.Idx → EReal) (ix2 e d) = Wv m c e d :=
  host0_v6 (W0 m ρ c) e d
theorem v7_at (e d : Fin 2048) : (V1 (F := Ideal) m ρ c main_v7 : S2048x2048.Idx → EReal) (ix2 e d) = Wo m c e d :=
  host0_v7 (W0 m ρ c) e d

/-- Every row of the flattened batch is `row b t` of some batch `b` and position `t`. -/
theorem row_surj (r : Fin 4096) : ∃ (b : Fin 2) (t : Fin 2048), r = row b t :=
  ⟨⟨r.val / 2048, by have := r.isLt; omega⟩, ⟨r.val % 2048, Nat.mod_lt _ (by norm_num)⟩, Fin.ext (by
    show r.val = r.val / 2048 * 2048 + r.val % 2048; omega)⟩

/-! ## The three projections -/

/-- A sum of products depends on its factors entry by entry. -/
theorem sum_mul_congr {f g f' g' : Fin 2048 → EReal} (hf : ∀ d, f d = f' d) (hg : ∀ d, g d = g' d) :
    (∑ d : Fin 2048, f d * g d) = ∑ d : Fin 2048, f' d * g' d := by rw [funext hf, funext hg]

theorem q_at (b : Fin 2) (t e : Fin 2048) :
    (W2 (F := Ideal) m ρ c (Proc.devRef .tc main_v8) : S4096x2048.Idx → EReal) (ix2 (row b t) e) = proj (X m c) (Wq m c) b t e := by
  have h := congrFun (W2_arr (F := Ideal) m ρ c 2) (ix2 (row b t) e)
  exact h.trans ((region0_value (V1 m ρ) c (row b t) e).trans
    (sum_mul_congr (fun d => v1_at m ρ c b t d) (fun d => v4_at m ρ c e d)))

/-- The encoder rows and the key table reach region 1 as the first host stretch left them: region 0 writes neither. -/
theorem k_at (b : Fin 2) (s e : Fin 2048) :
    (W3 (F := Ideal) m ρ c (Proc.devRef .tc main_v9) : S4096x2048.Idx → EReal) (ix2 (row b s) e) = proj (E m c) (Wk m c) b s e := by
  have h := congrFun (W3_arr (F := Ideal) m ρ c 2) (ix2 (row b s) e)
  exact h.trans ((region1_value (V2 m ρ) c (row b s) e).trans
    (sum_mul_congr
      (fun d => (congrFun (W2_of_ne (F := Ideal) m ρ c main_v3 (by decide)) _).trans (v3_at m ρ c b s d))
      (fun d => (congrFun (W2_of_ne (F := Ideal) m ρ c main_v5 (by decide)) _).trans (v5_at m ρ c e d))))

/-- The encoder rows are an INPUT of region 1: an input array is never written, so region 1 leaves them as it found them. -/
theorem w3_v3 : W3 (F := Ideal) m ρ c (Proc.devRef .tc main_v3) = W2 m ρ c (Proc.devRef .tc main_v3) :=
  (W3_arr (F := Ideal) m ρ c 0).trans (((dat1 (V2 m ρ) c).arrAt_in 0 rfl _).trans (A_eq1 (V2 m ρ) c 0))

theorem v_at (b : Fin 2) (s e : Fin 2048) :
    (W4 (F := Ideal) m ρ c (Proc.devRef .tc main_v10) : S4096x2048.Idx → EReal) (ix2 (row b s) e) = proj (E m c) (Wv m c) b s e := by
  have h := congrFun (W4_arr (F := Ideal) m ρ c 2) (ix2 (row b s) e)
  exact h.trans ((region2_value (V3 m ρ) c (row b s) e).trans
    (sum_mul_congr
      (fun d => ((congrFun (w3_v3 m ρ c) _).trans
        (congrFun (W2_of_ne (F := Ideal) m ρ c main_v3 (by decide)) _)).trans (v3_at m ρ c b s d))
      (fun d => ((congrFun (W3_of_ne (F := Ideal) m ρ c main_v6 (by decide)) _).trans
        (congrFun (W2_of_ne (F := Ideal) m ρ c main_v6 (by decide)) _)).trans (v6_at m ρ c e d))))

/-! ## What the second host stretch finds -/

theorem q_at4 (b : Fin 2) (t e : Fin 2048) :
    (W4 (F := Ideal) m ρ c (Proc.devRef .tc main_v8) : S4096x2048.Idx → EReal) (ix2 (row b t) e) = proj (X m c) (Wq m c) b t e :=
  ((congrFun (W4_of_ne (F := Ideal) m ρ c main_v8 (by decide)) _).trans
    (congrFun (W3_of_ne (F := Ideal) m ρ c main_v8 (by decide)) _)).trans (q_at m ρ c b t e)

theorem k_at4 (b : Fin 2) (s e : Fin 2048) :
    (W4 (F := Ideal) m ρ c (Proc.devRef .tc main_v9) : S4096x2048.Idx → EReal) (ix2 (row b s) e) = proj (E m c) (Wk m c) b s e :=
  (congrFun (W4_of_ne (F := Ideal) m ρ c main_v9 (by decide)) _).trans (k_at m ρ c b s e)

/-- A rotary table reaches the second host stretch as launched. -/
theorem arg_at4 (a : Ref sig .tc) (ha : a = main_arg6 ∨ a = main_arg7 ∨ a = main_arg8 ∨ a = main_arg9) :
    W4 (F := Ideal) m ρ c (Proc.devRef .tc a) = m ((c : Thread nD τ).loc a) := by
  have h0 : W1 (F := Ideal) m ρ c (Proc.devRef .tc a) = W0 m ρ c (Proc.devRef .tc a) := by
    rcases ha with rfl | rfl | rfl | rfl <;>
    exact StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h1 : W2 (F := Ideal) m ρ c (Proc.devRef .tc a) = W1 m ρ c (Proc.devRef .tc a) := by
    rcases ha with rfl | rfl | rfl | rfl <;> exact W2_of_ne m ρ c _ (by decide)
  have h2 : W3 (F := Ideal) m ρ c (Proc.devRef .tc a) = W2 m ρ c (Proc.devRef .tc a) := by
    rcases ha with rfl | rfl | rfl | rfl <;> exact W3_of_ne m ρ c _ (by decide)
  have h3 : W4 (F := Ideal) m ρ c (Proc.devRef .tc a) = W3 m ρ c (Proc.devRef .tc a) := by
    rcases ha with rfl | rfl | rfl | rfl <;> exact W4_of_ne m ρ c _ (by decide)
  exact h3.trans (h2.trans (h1.trans (h0.trans rfl)))

/-! ## The rotated queries and keys, the values and the output table at the attention region's entry -/

/-- The rotary embedding depends on its lanes and table rows entry by entry. -/
theorem rot_congr {x x' : Fin 128 → EReal} {cc cc' ss ss' : Fin 64 → EReal} (hx : ∀ d', x d' = x' d')
    (hc : ∀ i, cc i = cc' i) (hs : ∀ i, ss i = ss' i) (d : Fin 128) : rot x cc ss d = rot x' cc' ss' d := by
  rw [funext hx, funext hc, funext hs]

theorem qr_at (b : Fin 2) (t : Fin 2048) (h : Fin 16) (d : Fin 128) :
    (V5 (F := Ideal) m ρ c main_v64 : S4096x2048.Idx → EReal) (ix2 (row b t) (col h d))
      = rope (proj (X m c) (Wq m c)) (cq m c) (sq m c) b t h d := by
  exact (rope_q (W4 m ρ c) b t h d).trans (rot_congr (fun d' => q_at4 m ρ c b t (col h d'))
    (fun i => congrFun (arg_at4 m ρ c main_arg6 (Or.inl rfl)) _)
    (fun i => congrFun (arg_at4 m ρ c main_arg7 (Or.inr (Or.inl rfl))) _) d)

theorem kr_at (b : Fin 2) (s : Fin 2048) (h : Fin 16) (d : Fin 128) :
    (V5 (F := Ideal) m ρ c main_v66 : S4096x2048.Idx → EReal) (ix2 (row b s) (col h d))
      = rope (proj (E m c) (Wk m c)) (ck m c) (sk m c) b s h d := by
  exact (rope_k (W4 m ρ c) b s h d).trans (rot_congr (fun d' => k_at4 m ρ c b s (col h d'))
    (fun i => congrFun (arg_at4 m ρ c main_arg8 (Or.inr (Or.inr (Or.inl rfl)))) _)
    (fun i => congrFun (arg_at4 m ρ c main_arg9 (Or.inr (Or.inr (Or.inr rfl)))) _) d)

/-- The second host stretch writes neither the value rows nor the output table. -/
theorem keep5 (a : Ref sig .tc) (ha : a = main_v10 ∨ a = main_v7) :
    W5 (F := Ideal) m ρ c (Proc.devRef .tc a) = W4 m ρ c (Proc.devRef .tc a) := by
  rcases ha with rfl | rfl <;>
  exact StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem v_at5 (b : Fin 2) (s e : Fin 2048) :
    (V5 (F := Ideal) m ρ c main_v10 : S4096x2048.Idx → EReal) (ix2 (row b s) e) = proj (E m c) (Wv m c) b s e :=
  (congrFun (keep5 m ρ c main_v10 (Or.inl rfl)) _).trans (v_at m ρ c b s e)

/-- The output table reaches the last region as the first host stretch left it. -/
theorem wo_at6 (e d : Fin 2048) : (V6 (F := Ideal) m ρ c main_v7 : S2048x2048.Idx → EReal) (ix2 e d) = Wo m c e d :=
  ((congrFun (W6_of_ne (F := Ideal) m ρ c main_v7 (by decide)) _).trans
    ((congrFun (keep5 m ρ c main_v7 (Or.inr rfl)) _).trans
      ((congrFun (W4_of_ne (F := Ideal) m ρ c main_v7 (by decide)) _).trans
        ((congrFun (W3_of_ne (F := Ideal) m ρ c main_v7 (by decide)) _).trans
          (congrFun (W2_of_ne (F := Ideal) m ρ c main_v7 (by decide)) _))))).trans (v7_at m ρ c e d)

/-! ## The context rows, the output rows, the result -/

theorem ctx_at_col (b : Fin 2) (t : Fin 2048) (h : Fin 16) (d : Fin 128) :
    (V6 (F := Ideal) m ρ c main_v67 : S4096x2048.Idx → EReal) (ix2 (row b t) (col h d))
      = ctxK (scores (rope (proj (X m c) (Wq m c)) (cq m c) (sq m c)) (rope (proj (E m c) (Wk m c)) (ck m c) (sk m c)) b h t)
          (fun s => proj (E m c) (Wv m c) b s (col h d)) := by
  have hh := congrFun (W6_arr (F := Ideal) m ρ c 3) (ix2 (row b t) (col h d))
  refine hh.trans ((region3_value (V5 m ρ) c b t h d).trans ?_)
  exact congrArg₂ ctxK
    (funext fun s => congrArg₂ score (funext fun d' => qr_at m ρ c b t h d') (funext fun d' => kr_at m ρ c b s h d'))
    (funext fun s => v_at5 m ρ c b s (col h d))

theorem ctx_at (b : Fin 2) (t e : Fin 2048) :
    (V6 (F := Ideal) m ρ c main_v67 : S4096x2048.Idx → EReal) (ix2 (row b t) e)
      = ctxRows ctxK (rope (proj (X m c) (Wq m c)) (cq m c) (sq m c)) (rope (proj (E m c) (Wk m c)) (ck m c) (sk m c))
          (proj (E m c) (Wv m c)) b t e := by
  have h := ctx_at_col m ρ c b t (headOf e) (laneOf e)
  rw [col_headOf_laneOf e] at h
  exact h

theorem out_at (b : Fin 2) (t e : Fin 2048) :
    (W7 (F := Ideal) m ρ c (Proc.devRef .tc main_v68) : S4096x2048.Idx → EReal) (ix2 (row b t) e)
      = layer ctxK (X m c) (E m c) (Wq m c) (Wk m c) (Wv m c) (Wo m c) (cq m c) (sq m c) (ck m c) (sk m c) b t e := by
  have h := congrFun (W7_arr (F := Ideal) m ρ c 2) (ix2 (row b t) e)
  exact h.trans ((region4_value (V6 m ρ) c (row b t) e).trans
    (sum_mul_congr (fun d => ctx_at m ρ c b t d) (fun d => wo_at6 m ρ c e d)))

/-- THE KERNEL'S VALUE: the result array, read at (b, t, e), is the layer with the weighted sum divided by the
    denominator, of the launch memory's arguments. -/
theorem kernel_value (b : Fin 2) (t e : Fin 2048) :
    (W8 (F := Ideal) m ρ c (Proc.devRef .tc main_v69) : S2x2048x2048.Idx → EReal) (ix3 b t e)
      = layer ctxK (X m c) (E m c) (Wq m c) (Wk m c) (Wv m c) (Wo m c) (cq m c) (sq m c) (ck m c) (sk m c) b t e :=
  (host5_v69 (W7 m ρ c) b t e).trans (out_at m ρ c b t e)

end Cert.KernelIdeal.KernelValue

end
-- ==== Proof.RefHeads.lean ====
/-
  The reference's three head arrays read at one coordinate.

  The reference projects the hidden rows (for the queries) and the encoder rows (for the keys and the values) through a
  weight table, splits the 2048 columns into 16 heads of 128 lanes, and moves the head axis in front of the position
  axis.  Queries and keys are then rotated: the 128 lanes of a head are viewed as 64 pairs, the two members of a pair
  are combined with the position's row of the two rotary tables, and the pairs are laid back side by side.  Here each
  of the three arrays is read at the coordinate (batch, head, position, lane) and identified with the specification's
  `proj` and `rope`.
-/
import proofs.«142431_j50843822850167_2_alg».proof.Proof.Gen.ReferenceIdeal.Read
import proofs.«142431_j50843822850167_2_alg».proof.Proof.Spec

noncomputable section

open scoped BigOperators

namespace Cert.ReferenceIdeal.RefValue

open Cert.ReferenceIdeal Cert.ReferenceIdeal.Gen Cert.ReferenceIdeal.Read Cert.Attn
open Idealize.ShloMosaic Idealize.ShloMosaic.ValueIdx

namespace Heads

/-! ## The query heads before the rotation -/

/-- Entry (b, h, t, d) of the transposed, head-split projection is row (b, t) of the rows times row `h * 128 + d` of
    the table: the reshape [2,2048,2048] → [2,2048,16,128] keeps the flat position. -/
theorem heads_q (x0 : (⟨S2x2048x2048, .f32⟩ : BufTy).Contents (Elt Ideal)) (x2 : (⟨S2048x2048, .f32⟩ : BufTy).Contents (Elt Ideal))
    (b : Fin 2) (h : Fin 16) (t : Fin 2048) (d : Fin 128) :
    Read.val_main_v2 (F := Ideal) x0 x2 (ix4 b h t d) = proj (rows3 x0) (table x2) b t (col h d) := by
  have hb := b.isLt; have hh := h.isLt; have ht := t.isLt; have hd := d.isLt
  rw [val_main_v2_apply, val_main_v1_apply, val_main_v0_apply]
  unfold proj rows3 table
  refine Finset.sum_congr rfl fun k _ => ?_
  congr 2
  · funext a
    apply Fin.ext
    match a with
    | ⟨0, _⟩ => show ((((b.val * 2048 + t.val) * 16 + h.val) * 128 + d.val) / 4194304 = b.val); omega
    | ⟨1, _⟩ => show ((((b.val * 2048 + t.val) * 16 + h.val) * 128 + d.val) / 2048 % 2048 = t.val); omega
    | ⟨2, _⟩ => rfl
  · funext a
    apply Fin.ext
    match a with
    | ⟨0, _⟩ => show ((((b.val * 2048 + t.val) * 16 + h.val) * 128 + d.val) % 2048 = h.val * 128 + d.val); omega
    | ⟨1, _⟩ => rfl

/-! ## The lane pairs

  The reshape [2,16,2048,128] → [2,16,2048,64,2] sends lane `d` to pair `d / 2`, member `d % 2`; the two slices of
  the last axis pick member 0 and member 1, and dropping the unit axis changes no coordinate. -/

/-- Dropping the trailing unit axis: the pair coordinate is kept and the unit coordinate is 0. -/
theorem idx_drop_unit (b : Fin 2) (h : Fin 16) (t : Fin 2048) (p : Fin 64) :
    idx_main_v11 (ix4 b h t p) = ix5 b h t p (0 : Fin 1) := by
  have hb := b.isLt; have hh := h.isLt; have ht := t.isLt; have hp := p.isLt
  funext a
  apply Fin.ext
  match a with
  | ⟨0, _⟩ => show (((b.val * 16 + h.val) * 2048 + t.val) * 64 + p.val) / 2097152 = b.val; omega
  | ⟨1, _⟩ => show (((b.val * 16 + h.val) * 2048 + t.val) * 64 + p.val) / 131072 % 16 = h.val; omega
  | ⟨2, _⟩ => show (((b.val * 16 + h.val) * 2048 + t.val) * 64 + p.val) / 64 % 2048 = t.val; omega
  | ⟨3, _⟩ => show (((b.val * 16 + h.val) * 2048 + t.val) * 64 + p.val) / 1 % 64 = p.val; omega
  | ⟨4, _⟩ => rfl

/-- The slice 0:1 of the member axis reads member 0. -/
theorem idx_member0 (b : Fin 2) (h : Fin 16) (t : Fin 2048) (p : Fin 64) :
    idx_main_v10 (ix5 b h t p (0 : Fin 1)) = ix5 b h t p (0 : Fin 2) := by
  funext a
  match a with
  | ⟨0, _⟩ => rfl
  | ⟨1, _⟩ => rfl
  | ⟨2, _⟩ => rfl
  | ⟨3, _⟩ => rfl
  | ⟨4, _⟩ => rfl

/-- The slice 1:2 of the member axis reads member 1. -/
theorem idx_member1 (b : Fin 2) (h : Fin 16) (t : Fin 2048) (p : Fin 64) :
    idx_main_v12 (ix5 b h t p (0 : Fin 1)) = ix5 b h t p (1 : Fin 2) := by
  funext a
  match a with
  | ⟨0, _⟩ => rfl
  | ⟨1, _⟩ => rfl
  | ⟨2, _⟩ => rfl
  | ⟨3, _⟩ => rfl
  | ⟨4, _⟩ => rfl

/-- Member `e` of pair `p` is lane `2 p + e`. -/
theorem idx_pair_lane (b : Fin 2) (h : Fin 16) (t : Fin 2048) (p : Fin 64) (e : Fin 2) :
    idx_main_v9 (ix5 b h t p e) = ix4 b h t (⟨p.val * 2 + e.val, by have := p.isLt; have := e.isLt; omega⟩ : Fin 128) := by
  have hb := b.isLt; have hh := h.isLt; have ht := t.isLt; have hp := p.isLt; have he := e.isLt
  funext a
  apply Fin.ext
  match a with
  | ⟨0, _⟩ => show ((((b.val * 16 + h.val) * 2048 + t.val) * 64 + p.val) * 2 + e.val) / 4194304 = b.val; omega
  | ⟨1, _⟩ => show ((((b.val * 16 + h.val) * 2048 + t.val) * 64 + p.val) * 2 + e.val) / 262144 % 16 = h.val; omega
  | ⟨2, _⟩ => show ((((b.val * 16 + h.val) * 2048 + t.val) * 64 + p.val) * 2 + e.val) / 128 % 2048 = t.val; omega
  | ⟨3, _⟩ => show ((((b.val * 16 + h.val) * 2048 + t.val) * 64 + p.val) * 2 + e.val) % 128 = p.val * 2 + e.val; omega

/-- The even members of the query heads. -/
theorem even_q (x0 : (⟨S2x2048x2048, .f32⟩ : BufTy).Contents (Elt Ideal)) (x2 : (⟨S2048x2048, .f32⟩ : BufTy).Contents (Elt Ideal))
    (b : Fin 2) (h : Fin 16) (t : Fin 2048) (p : Fin 64) :
    Read.val_main_v11 (F := Ideal) x0 x2 (ix4 b h t p)
      = proj (rows3 x0) (table x2) b t (col h ⟨p.val * 2, by have := p.isLt; omega⟩) := by
  rw [val_main_v11_apply, val_main_v10_apply, val_main_v9_apply, idx_drop_unit, idx_member0, idx_pair_lane, heads_q]
  rfl

/-- The odd members of the query heads. -/
theorem odd_q (x0 : (⟨S2x2048x2048, .f32⟩ : BufTy).Contents (Elt Ideal)) (x2 : (⟨S2048x2048, .f32⟩ : BufTy).Contents (Elt Ideal))
    (b : Fin 2) (h : Fin 16) (t : Fin 2048) (p : Fin 64) :
    Read.val_main_v13 (F := Ideal) x0 x2 (ix4 b h t p)
      = proj (rows3 x0) (table x2) b t (col h ⟨p.val * 2 + 1, by have := p.isLt; omega⟩) := by
  rw [val_main_v13_apply, val_main_v12_apply, val_main_v9_apply]
  rw [show idx_main_v13 (ix4 b h t p) = ix5 b h t p (0 : Fin 1) from idx_drop_unit b h t p, idx_member1, idx_pair_lane, heads_q]
  rfl

/-! ## The rotary tables laid over batch and heads -/

/-- A rotary table broadcast over batch and heads is read at its position and pair. -/
theorem idx_table (b : Fin 2) (h : Fin 16) (t : Fin 2048) (p : Fin 64) :
    idx_main_v14 (ix4 b h t p) = ix4 (0 : Fin 1) (0 : Fin 1) t p := by
  funext a
  match a with
  | ⟨0, _⟩ => rfl
  | ⟨1, _⟩ => rfl
  | ⟨2, _⟩ => rfl
  | ⟨3, _⟩ => rfl

/-! ## The two members of a rotated pair -/

/-- Member 0 of the rotated pair `p`: the even lane times the first table less the odd lane times the second. -/
theorem rot0_q (x0 : (⟨S2x2048x2048, .f32⟩ : BufTy).Contents (Elt Ideal)) (x2 : (⟨S2048x2048, .f32⟩ : BufTy).Contents (Elt Ideal))
    (x6 x7 : (⟨S1x1x2048x64, .f32⟩ : BufTy).Contents (Elt Ideal)) (b : Fin 2) (h : Fin 16) (t : Fin 2048) (p : Fin 64) :
    Read.val_main_v18 (F := Ideal) x0 x2 x6 x7 (ix4 b h t p)
      = proj (rows3 x0) (table x2) b t (col h ⟨p.val * 2, by have := p.isLt; omega⟩) * rotT x6 t p
        - proj (rows3 x0) (table x2) b t (col h ⟨p.val * 2 + 1, by have := p.isLt; omega⟩) * rotT x7 t p := by
  rw [val_main_v18_apply, val_main_v15_apply, val_main_v17_apply, even_q, odd_q, val_main_v14_apply, val_main_v16_apply]
  rw [show idx_main_v16 (ix4 b h t p) = ix4 (0 : Fin 1) (0 : Fin 1) t p from idx_table b h t p, idx_table]
  rfl

/-- Member 1 of the rotated pair `p`: the odd lane times the first table plus the even lane times the second. -/
theorem rot1_q (x0 : (⟨S2x2048x2048, .f32⟩ : BufTy).Contents (Elt Ideal)) (x2 : (⟨S2048x2048, .f32⟩ : BufTy).Contents (Elt Ideal))
    (x6 x7 : (⟨S1x1x2048x64, .f32⟩ : BufTy).Contents (Elt Ideal)) (b : Fin 2) (h : Fin 16) (t : Fin 2048) (p : Fin 64) :
    Read.val_main_v23 (F := Ideal) x0 x2 x6 x7 (ix4 b h t p)
      = proj (rows3 x0) (table x2) b t (col h ⟨p.val * 2 + 1, by have := p.isLt; omega⟩) * rotT x6 t p
        + proj (rows3 x0) (table x2) b t (col h ⟨p.val * 2, by have := p.isLt; omega⟩) * rotT x7 t p := by
  rw [val_main_v23_apply, val_main_v20_apply, val_main_v22_apply, even_q, odd_q, val_main_v19_apply, val_main_v21_apply]
  rw [show idx_main_v19 (ix4 b h t p) = ix4 (0 : Fin 1) (0 : Fin 1) t p from idx_table b h t p,
    show idx_main_v21 (ix4 b h t p) = ix4 (0 : Fin 1) (0 : Fin 1) t p from idx_table b h t p]
  rfl

/-! ## The pairs laid back side by side

  The two members, each with a unit axis added, are joined along that axis: coordinate 0 of the joined axis is the
  first piece and coordinate 1 the second. -/

/-- Adding the trailing unit axis changes no coordinate. -/
theorem idx_add_unit (b : Fin 2) (h : Fin 16) (t : Fin 2048) (p : Fin 64) :
    idx_main_v24 (ix5 b h t p (0 : Fin 1)) = ix4 b h t p := by
  funext a
  match a with
  | ⟨0, _⟩ => rfl
  | ⟨1, _⟩ => rfl
  | ⟨2, _⟩ => rfl
  | ⟨3, _⟩ => rfl

/-- The joined array at member 0 is the first piece. -/
theorem join0_q (x0 : (⟨S2x2048x2048, .f32⟩ : BufTy).Contents (Elt Ideal)) (x2 : (⟨S2048x2048, .f32⟩ : BufTy).Contents (Elt Ideal))
    (x6 x7 : (⟨S1x1x2048x64, .f32⟩ : BufTy).Contents (Elt Ideal)) (b : Fin 2) (h : Fin 16) (t : Fin 2048) (p : Fin 64) :
    Read.val_main_v26 (F := Ideal) x0 x2 x6 x7 (ix5 b h t p (0 : Fin 2))
      = Read.val_main_v18 (F := Ideal) x0 x2 x6 x7 (ix4 b h t p) := by
  unfold val_main_v26
  rw [concatenate_pair_apply_left (t := S2x16x2048x64x2) (s₁ := S2x16x2048x64x1) (s₂ := S2x16x2048x64x1)
    (4 : Fin S2x16x2048x64x2.rank) _ _ _ _ rfl (ix5 b h t p (0 : Fin 1))
    (fun a => by match a with | ⟨0, _⟩ => rfl | ⟨1, _⟩ => rfl | ⟨2, _⟩ => rfl | ⟨3, _⟩ => rfl | ⟨4, _⟩ => rfl)]
  rw [val_main_v24_apply, idx_add_unit]

/-- The joined array at member 1 is the second piece. -/
theorem join1_q (x0 : (⟨S2x2048x2048, .f32⟩ : BufTy).Contents (Elt Ideal)) (x2 : (⟨S2048x2048, .f32⟩ : BufTy).Contents (Elt Ideal))
    (x6 x7 : (⟨S1x1x2048x64, .f32⟩ : BufTy).Contents (Elt Ideal)) (b : Fin 2) (h : Fin 16) (t : Fin 2048) (p : Fin 64) :
    Read.val_main_v26 (F := Ideal) x0 x2 x6 x7 (ix5 b h t p (1 : Fin 2))
      = Read.val_main_v23 (F := Ideal) x0 x2 x6 x7 (ix4 b h t p) := by
  unfold val_main_v26
  rw [concatenate_pair_apply_right (t := S2x16x2048x64x2) (s₁ := S2x16x2048x64x1) (s₂ := S2x16x2048x64x1)
    (4 : Fin S2x16x2048x64x2.rank) _ _ _ _ rfl rfl (ix5 b h t p (0 : Fin 1))
    (fun a ha => by
      match a with
      | ⟨0, _⟩ => rfl
      | ⟨1, _⟩ => rfl
      | ⟨2, _⟩ => rfl
      | ⟨3, _⟩ => rfl
      | ⟨4, _⟩ => exact absurd rfl ha)
    rfl]
  rw [val_main_v25_apply]
  rw [show idx_main_v25 (ix5 b h t p (0 : Fin 1)) = ix4 b h t p from idx_add_unit b h t p]

/-! ## Lanes as members of pairs -/

/-- An even lane `d` is member 0 of pair `d / 2`. -/
theorem idx_lane_even (b : Fin 2) (h : Fin 16) (t : Fin 2048) (d : Fin 128) (hd : d.val % 2 = 0) :
    idx_main_v27 (ix4 b h t d) = ix5 b h t (pair d) (0 : Fin 2) := by
  have hb := b.isLt; have hh := h.isLt; have ht := t.isLt; have hd' := d.isLt
  funext a
  apply Fin.ext
  match a with
  | ⟨0, _⟩ => show (((b.val * 16 + h.val) * 2048 + t.val) * 128 + d.val) / 4194304 = b.val; omega
  | ⟨1, _⟩ => show (((b.val * 16 + h.val) * 2048 + t.val) * 128 + d.val) / 262144 % 16 = h.val; omega
  | ⟨2, _⟩ => show (((b.val * 16 + h.val) * 2048 + t.val) * 128 + d.val) / 128 % 2048 = t.val; omega
  | ⟨3, _⟩ => show (((b.val * 16 + h.val) * 2048 + t.val) * 128 + d.val) / 2 % 64 = d.val / 2; omega
  | ⟨4, _⟩ => show (((b.val * 16 + h.val) * 2048 + t.val) * 128 + d.val) % 2 = 0; omega

/-- An odd lane `d` is member 1 of pair `d / 2`. -/
theorem idx_lane_odd (b : Fin 2) (h : Fin 16) (t : Fin 2048) (d : Fin 128) (hd : d.val % 2 = 1) :
    idx_main_v27 (ix4 b h t d) = ix5 b h t (pair d) (1 : Fin 2) := by
  have hb := b.isLt; have hh := h.isLt; have ht := t.isLt; have hd' := d.isLt
  funext a
  apply Fin.ext
  match a with
  | ⟨0, _⟩ => show (((b.val * 16 + h.val) * 2048 + t.val) * 128 + d.val) / 4194304 = b.val; omega
  | ⟨1, _⟩ => show (((b.val * 16 + h.val) * 2048 + t.val) * 128 + d.val) / 262144 % 16 = h.val; omega
  | ⟨2, _⟩ => show (((b.val * 16 + h.val) * 2048 + t.val) * 128 + d.val) / 128 % 2048 = t.val; omega
  | ⟨3, _⟩ => show (((b.val * 16 + h.val) * 2048 + t.val) * 128 + d.val) / 2 % 64 = d.val / 2; omega
  | ⟨4, _⟩ => show (((b.val * 16 + h.val) * 2048 + t.val) * 128 + d.val) % 2 = 1; omega

/-! ## The key chain

  The reference builds the key heads by the same sequence of operations as the query heads, applied to the encoder
  rows, the key table and the key rotary tables: the two arrays are one function at different arguments. -/

/-- The key chain is the query chain at the encoder rows, the key table and the key rotary tables. -/
theorem key_chain_eq (x1 : (⟨S2x2048x2048, .f32⟩ : BufTy).Contents (Elt Ideal)) (x3 : (⟨S2048x2048, .f32⟩ : BufTy).Contents (Elt Ideal))
    (x8 x9 : (⟨S1x1x2048x64, .f32⟩ : BufTy).Contents (Elt Ideal)) :
    Read.val_main_v46 (F := Ideal) x1 x3 x8 x9 = Read.val_main_v27 (F := Ideal) x1 x3 x8 x9 := rfl

end Heads

open Heads

/-! ## The three head arrays -/

/-- The value heads: entry (b, h, s, d) of the transposed, head-split projection is row (b, s) of the encoder times
    row `h * 128 + d` of the table.  The reshape [2,2048,2048] → [2,2048,16,128] keeps the flat position, so column
    `h * 128 + d` is what lane `d` of head `h` reads. -/
theorem ref_v (x1 : (⟨S2x2048x2048, .f32⟩ : BufTy).Contents (Elt Ideal)) (x4 : (⟨S2048x2048, .f32⟩ : BufTy).Contents (Elt Ideal))
    (b : Fin 2) (h : Fin 16) (s : Fin 2048) (d : Fin 128) :
    Read.val_main_v8 (F := Ideal) x1 x4 (ix4 b h s d) = proj (rows3 x1) (table x4) b s (col h d) := by
  have hb := b.isLt; have hh := h.isLt; have hs := s.isLt; have hd := d.isLt
  rw [val_main_v8_apply, val_main_v7_apply, val_main_v6_apply]
  unfold proj rows3 table
  refine Finset.sum_congr rfl fun k _ => ?_
  congr 2
  · funext a
    apply Fin.ext
    match a with
    | ⟨0, _⟩ => show ((((b.val * 2048 + s.val) * 16 + h.val) * 128 + d.val) / 4194304 = b.val); omega
    | ⟨1, _⟩ => show ((((b.val * 2048 + s.val) * 16 + h.val) * 128 + d.val) / 2048 % 2048 = s.val); omega
    | ⟨2, _⟩ => rfl
  · funext a
    apply Fin.ext
    match a with
    | ⟨0, _⟩ => show ((((b.val * 2048 + s.val) * 16 + h.val) * 128 + d.val) % 2048 = h.val * 128 + d.val); omega
    | ⟨1, _⟩ => rfl

/-- The rotated query heads: entry (b, h, t, d) of the reference's array is the rotary embedding of head `h` of the
    projected row (b, t), read at lane `d`. -/
theorem ref_qr (x0 : (⟨S2x2048x2048, .f32⟩ : BufTy).Contents (Elt Ideal)) (x2 : (⟨S2048x2048, .f32⟩ : BufTy).Contents (Elt Ideal))
    (x6 x7 : (⟨S1x1x2048x64, .f32⟩ : BufTy).Contents (Elt Ideal)) (b : Fin 2) (h : Fin 16) (t : Fin 2048) (d : Fin 128) :
    Read.val_main_v27 (F := Ideal) x0 x2 x6 x7 (ix4 b h t d)
      = rope (proj (rows3 x0) (table x2)) (rotT x6) (rotT x7) b t h d := by
  rw [val_main_v27_apply]
  unfold rope rot
  by_cases hd : d.val % 2 = 0
  · rw [if_pos hd, idx_lane_even b h t d hd, join0_q, rot0_q]
    rfl
  · have hd1 : d.val % 2 = 1 := by omega
    rw [if_neg hd, idx_lane_odd b h t d hd1, join1_q, rot1_q]
    rfl

/-- The rotated key heads: entry (b, h, s, d) of the reference's array is the rotary embedding of head `h` of the
    projected encoder row (b, s), read at lane `d`. -/
theorem ref_kr (x1 : (⟨S2x2048x2048, .f32⟩ : BufTy).Contents (Elt Ideal)) (x3 : (⟨S2048x2048, .f32⟩ : BufTy).Contents (Elt Ideal))
    (x8 x9 : (⟨S1x1x2048x64, .f32⟩ : BufTy).Contents (Elt Ideal)) (b : Fin 2) (h : Fin 16) (s : Fin 2048) (d : Fin 128) :
    Read.val_main_v46 (F := Ideal) x1 x3 x8 x9 (ix4 b h s d)
      = rope (proj (rows3 x1) (table x3)) (rotT x8) (rotT x9) b s h d := by
  rw [key_chain_eq]
  exact ref_qr x1 x3 x8 x9 b h s d

end Cert.ReferenceIdeal.RefValue

end
-- ==== Proof.RefTailScores.lean ====
/-
  The reference's attention scores read at one coordinate.

  For a batch `b`, a head `h`, a query position `t` and a key position `s`, the reference contracts the 128 lanes of
  the rotated query row (b, h, t) with the 128 lanes of the rotated key row (b, h, s) and multiplies the result by
  the scale word.  The rotated query and key arrays are kept as they are: only their entries at (b, h, t, ·) and
  (b, h, s, ·) enter, and the product is the specification's `score` of those two rows.
-/
import proofs.«142431_j50843822850167_2_alg».proof.Proof.Gen.ReferenceIdeal.Read
import proofs.«142431_j50843822850167_2_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.Read Cert.Attn
open Idealize.ShloMosaic Idealize.ShloMosaic.ValueIdx

/-- Entry (b, h, t, s) of the scaled score array: the inner product over the lanes `d` of the rotated query at
    (b, h, t, d) and the rotated key at (b, h, s, d), times the scale word. -/
theorem ref_scores (x0 x1 : (⟨S2x2048x2048, .f32⟩ : BufTy).Contents (Elt Ideal))
    (x2 x3 : (⟨S2048x2048, .f32⟩ : BufTy).Contents (Elt Ideal))
    (x6 x7 x8 x9 : (⟨S1x1x2048x64, .f32⟩ : BufTy).Contents (Elt Ideal))
    (b : Fin 2) (h : Fin 16) (t s : Fin 2048) :
    Read.val_main_v49 (F := Ideal) x0 x1 x2 x3 x6 x7 x8 x9 (ix4 b h t s)
      = score (fun d => Read.val_main_v27 (F := Ideal) x0 x2 x6 x7 (ix4 b h t d))
              (fun d => Read.val_main_v46 (F := Ideal) x1 x3 x8 x9 (ix4 b h s d)) := by
  rw [val_main_v49_apply, val_main_v47_apply, val_main_v48_apply, val_main_cst_apply]
  generalize Read.val_main_v27 (F := Ideal) x0 x2 x6 x7 = q
  generalize Read.val_main_v46 (F := Ideal) x1 x3 x8 x9 = k
  unfold score scale
  rw [Ideal.mulf_def, Ideal.ofBits_def]
  refine congrArg (· * Ideal.ofBits .f32 0x3DB504F3#32) (Finset.sum_congr rfl fun d _ => ?_)
  have el : lidx_main_v47 (ix4 b h t s) d = ix4 b h t d := funext fun a => by
    match a with
    | ⟨0, _⟩ => rfl
    | ⟨1, _⟩ => rfl
    | ⟨2, _⟩ => rfl
    | ⟨3, _⟩ => rfl
  have er : ridx_main_v47 (ix4 b h t s) d = ix4 b h s d := funext fun a => by
    match a with
    | ⟨0, _⟩ => rfl
    | ⟨1, _⟩ => rfl
    | ⟨2, _⟩ => rfl
    | ⟨3, _⟩ => rfl
  rw [el, er]

end Cert.ReferenceIdeal.RefValue

end
-- ==== Proof.RefTailSoftmax.lean ====
/-
  The reference's softmax weights read at one coordinate.

  Fix a batch `b`, a head `h` and a query position `t`, and let `sc` be the row of 2048 scaled scores at (b, h, t, ·).
  The reference takes the row's maximum as a fold of `max` from the −∞ word along the key axis, then takes the
  maximum of that with the −∞ word once more (which changes nothing: a fold of `max` from a value is at least that
  value), spreads it back over the row, subtracts it from each score, exponentiates, sums the exponentials along
  the key axis from the zero word, spreads the sum back over the row and divides each exponential by it.  Entry
  (b, h, t, s) of the result is therefore `wexp sc s` divided by `den sc`.  The −∞ word enters only as the value both
  maxima start from; the zero word is the neutral element of the sum.
-/
import proofs.«142431_j50843822850167_2_alg».proof.Proof.Gen.ReferenceIdeal.Read
import proofs.«142431_j50843822850167_2_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.Read Cert.Attn
open Idealize.ShloMosaic Idealize.ShloMosaic.ValueIdx

/-- The row of scaled scores at (b, h, t, ·). -/
abbrev scoreRow (x0 x1 : (⟨S2x2048x2048, .f32⟩ : BufTy).Contents (Elt Ideal))
    (x2 x3 : (⟨S2048x2048, .f32⟩ : BufTy).Contents (Elt Ideal))
    (x6 x7 x8 x9 : (⟨S1x1x2048x64, .f32⟩ : BufTy).Contents (Elt Ideal))
    (b : Fin 2) (h : Fin 16) (t : Fin 2048) : Fin 2048 → EReal :=
  fun s => Read.val_main_v49 (F := Ideal) x0 x1 x2 x3 x6 x7 x8 x9 (ix4 b h t s)

/-- The index a reduction along the last axis of a [2, 16, 2048, 2048] array inserts: (b, h, t) with `k` put back on
    the key axis is (b, h, t, k). -/
theorem lift_last (hr : S2x16x2048x2048.Reduces [(3 : Fin 4)] S2x16x2048) (b : Fin 2) (h : Fin 16) (t : Fin 2048)
    (k : Fin (S2x16x2048x2048.size (3 : Fin 4))) :
    hr.lift (ix3 b h t) k = ix4 b h t (⟨k.val, k.isLt⟩ : Fin 2048) := by
  funext d; apply Fin.ext
  fin_cases d <;> rfl

/-- A maximum-reduce along the key axis from an initial scalar, at (b, h, t): the fold of `max` over the key
    positions from the scalar's value. -/
theorem hostMax_last_apply (y : FVec Ideal S2x16x2048x2048 .f32) (init : FVec Ideal S_ .f32)
    (b : Fin 2) (h : Fin 16) (t : Fin 2048) :
    Host.reduce (FloatOps.maximumf (F := Ideal) (φ := .f32)) y init reducesTo_S2x16x2048x2048_S2x16x2048_d3 h_S_ (ix3 b h t)
      = (Finset.univ : Finset (Fin 2048)).fold max (init (Shape.Idx.first h_S_)) (fun s => y (ix4 b h t s)) := by
  have hr : S2x16x2048x2048.Reduces [(3 : Fin 4)] S2x16x2048 := by decide
  refine (Host.reduce_eq_fold_single (FloatOps.maximumf (F := Ideal) (φ := .f32)) y init
    reducesTo_S2x16x2048x2048_S2x16x2048_d3 hr h_S_ (ix3 b h t)).trans ?_
  have hf : (y ∘ hr.lift (ix3 b h t)) = fun s : Fin 2048 => y (ix4 b h t s) :=
    funext fun s => congrArg y (lift_last hr b h t s)
  exact congrArg (fun f => Finset.fold max (init (Shape.Idx.first h_S_)) f (Finset.univ : Finset (Fin 2048))) hf

/-- The row maximum the reference subtracts, at (b, h, t): the specification's `top` of the score row.  The second
    maximum with the −∞ word is absorbed because the fold starts from that word. -/
theorem ref_rowmax (x0 x1 : (⟨S2x2048x2048, .f32⟩ : BufTy).Contents (Elt Ideal))
    (x2 x3 : (⟨S2048x2048, .f32⟩ : BufTy).Contents (Elt Ideal))
    (x6 x7 x8 x9 : (⟨S1x1x2048x64, .f32⟩ : BufTy).Contents (Elt Ideal))
    (b : Fin 2) (h : Fin 16) (t : Fin 2048) :
    Read.val_main_v52 (F := Ideal) x0 x1 x2 x3 x6 x7 x8 x9 (ix3 b h t)
      = top (scoreRow x0 x1 x2 x3 x6 x7 x8 x9 b h t) := by
  have e50 : Read.val_main_v50 (F := Ideal) x0 x1 x2 x3 x6 x7 x8 x9 (ix3 b h t)
      = top (scoreRow x0 x1 x2 x3 x6 x7 x8 x9 b h t) := by
    unfold val_main_v50
    refine (hostMax_last_apply _ _ b h t).trans ?_
    rfl
  rw [val_main_v52_apply, val_main_v51_apply, val_main_cst_1_apply, e50, Ideal.maximumf_def, Ideal.ofBits_def]
  unfold top ninf
  exact max_eq_right ((Finset.le_fold_max _).mpr (Or.inl le_rfl))

/-- The exponential of a score relative to its row's maximum, at (b, h, t, s). -/
theorem ref_wexp (x0 x1 : (⟨S2x2048x2048, .f32⟩ : BufTy).Contents (Elt Ideal))
    (x2 x3 : (⟨S2048x2048, .f32⟩ : BufTy).Contents (Elt Ideal))
    (x6 x7 x8 x9 : (⟨S1x1x2048x64, .f32⟩ : BufTy).Contents (Elt Ideal))
    (b : Fin 2) (h : Fin 16) (t s : Fin 2048) :
    Read.val_main_v56 (F := Ideal) x0 x1 x2 x3 x6 x7 x8 x9 (ix4 b h t s)
      = wexp (scoreRow x0 x1 x2 x3 x6 x7 x8 x9 b h t) s := by
  have e : idx_main_v53 (idx_main_v54 (ix4 b h t s)) = ix3 b h t := funext fun a => by
    match a with
    | ⟨0, _⟩ => rfl
    | ⟨1, _⟩ => rfl
    | ⟨2, _⟩ => rfl
  rw [val_main_v56_apply, val_main_v55_apply, val_main_v54_apply, val_main_v53_apply, e, ref_rowmax,
    Ideal.hostUnary_exp_def, Ideal.subf_def]
  rfl

/-- The sum of a row's exponentials, at (b, h, t): the specification's `den` of the score row. -/
theorem ref_den (x0 x1 : (⟨S2x2048x2048, .f32⟩ : BufTy).Contents (Elt Ideal))
    (x2 x3 : (⟨S2048x2048, .f32⟩ : BufTy).Contents (Elt Ideal))
    (x6 x7 x8 x9 : (⟨S1x1x2048x64, .f32⟩ : BufTy).Contents (Elt Ideal))
    (b : Fin 2) (h : Fin 16) (t : Fin 2048) :
    Read.val_main_v57 (F := Ideal) x0 x1 x2 x3 x6 x7 x8 x9 (ix3 b h t)
      = den (scoreRow x0 x1 x2 x3 x6 x7 x8 x9 b h t) := by
  rw [val_main_v57_apply, val_main_cst_2_apply, Ideal.ofBits_def, Ideal.ofBits_zero_f32, zero_add]
  unfold den
  refine Finset.sum_congr rfl fun k _ => ?_
  have e : idx_main_v57 (ix3 b h t) k = ix4 b h t k := funext fun a => by
    match a with
    | ⟨0, _⟩ => rfl
    | ⟨1, _⟩ => rfl
    | ⟨2, _⟩ => rfl
    | ⟨3, _⟩ => rfl
  rw [e, ref_wexp]

/-- Entry (b, h, t, s) of the softmax weights: the row's exponential at `s` divided by the row's sum. -/
theorem ref_weights (x0 x1 : (⟨S2x2048x2048, .f32⟩ : BufTy).Contents (Elt Ideal))
    (x2 x3 : (⟨S2048x2048, .f32⟩ : BufTy).Contents (Elt Ideal))
    (x6 x7 x8 x9 : (⟨S1x1x2048x64, .f32⟩ : BufTy).Contents (Elt Ideal))
    (b : Fin 2) (h : Fin 16) (t s : Fin 2048) :
    Read.val_main_v60 (F := Ideal) x0 x1 x2 x3 x6 x7 x8 x9 (ix4 b h t s)
      = Ideal.div (wexp (scoreRow x0 x1 x2 x3 x6 x7 x8 x9 b h t) s) (den (scoreRow x0 x1 x2 x3 x6 x7 x8 x9 b h t)) := by
  have e : idx_main_v58 (idx_main_v59 (ix4 b h t s)) = ix3 b h t := funext fun a => by
    match a with
    | ⟨0, _⟩ => rfl
    | ⟨1, _⟩ => rfl
    | ⟨2, _⟩ => rfl
  rw [val_main_v60_apply, val_main_v59_apply, val_main_v58_apply, e, ref_den, ref_wexp, Ideal.hostDivf_def]

end Cert.ReferenceIdeal.RefValue

end
-- ==== Proof.RefTail.lean ====
/-
  The reference's context and output projection read at one coordinate.

  With the softmax weights of a (batch, head, query position) row in hand, the reference forms the context entry
  (b, h, t, d) as the sum over the key positions `s` of the weight at (b, h, t, s) times the value entry (b, h, s, d):
  the arrangement `ctxR`, in which each weight is divided by the row's denominator before the sum.  It then moves the
  head axis behind the position axis and merges head and lane into one column, so that column `e` of row (b, t) is
  lane `e % 128` of head `e / 128`, and multiplies the merged rows by the transposed output table.  Entry (b, t, e)
  of the result is the specification's `proj` of the merged context rows, in which the rotated queries, the rotated
  keys and the value heads enter only through their entries.
-/
import proofs.«142431_j50843822850167_2_alg».proof.Proof.Gen.ReferenceIdeal.Read
import proofs.«142431_j50843822850167_2_alg».proof.Proof.Spec
import Idealize.ShloMosaic.PureOps.Ideal.Laws
import proofs.«142431_j50843822850167_2_alg».proof.Proof.RefTailScores
import proofs.«142431_j50843822850167_2_alg».proof.Proof.RefTailSoftmax

noncomputable section

open scoped BigOperators

namespace Cert.ReferenceIdeal.RefValue

open Cert.ReferenceIdeal Cert.ReferenceIdeal.Gen Cert.ReferenceIdeal.Read Cert.Attn
open Idealize.ShloMosaic Idealize.ShloMosaic.ValueIdx

/-- The context entry (b, h, t, d): the weights of row (b, h, t) against lane `d` of the value rows of head `h`. -/
theorem ref_ctx (x0 x1 : (⟨S2x2048x2048, .f32⟩ : BufTy).Contents (Elt Ideal))
    (x2 x3 x4 : (⟨S2048x2048, .f32⟩ : BufTy).Contents (Elt Ideal))
    (x6 x7 x8 x9 : (⟨S1x1x2048x64, .f32⟩ : BufTy).Contents (Elt Ideal))
    (b : Fin 2) (h : Fin 16) (t : Fin 2048) (d : Fin 128) :
    Read.val_main_v61 (F := Ideal) x0 x1 x2 x3 x4 x6 x7 x8 x9 (ix4 b h t d)
      = ctxR (scoreRow x0 x1 x2 x3 x6 x7 x8 x9 b h t)
             (fun s => Read.val_main_v8 (F := Ideal) x1 x4 (ix4 b h s d)) := by
  rw [val_main_v61_apply]
  unfold ctxR
  refine Finset.sum_congr rfl fun s _ => ?_
  have el : lidx_main_v61 (ix4 b h t d) s = ix4 b h t s := funext fun a => by
    match a with
    | ⟨0, _⟩ => rfl
    | ⟨1, _⟩ => rfl
    | ⟨2, _⟩ => rfl
    | ⟨3, _⟩ => rfl
  have er : ridx_main_v61 (ix4 b h t d) s = ix4 b h s d := funext fun a => by
    match a with
    | ⟨0, _⟩ => rfl
    | ⟨1, _⟩ => rfl
    | ⟨2, _⟩ => rfl
    | ⟨3, _⟩ => rfl
  rw [el, er, ref_weights]

/-- The merged context rows: column `e` of row (b, t) is the context entry of head `e / 128` at lane `e % 128`.
    The flat position of (b, t, e) in [2, 2048, 2048] is that of (b, t, e / 128, e % 128) in [2, 2048, 16, 128]. -/
theorem ref_merged (x0 x1 : (⟨S2x2048x2048, .f32⟩ : BufTy).Contents (Elt Ideal))
    (x2 x3 x4 : (⟨S2048x2048, .f32⟩ : BufTy).Contents (Elt Ideal))
    (x6 x7 x8 x9 : (⟨S1x1x2048x64, .f32⟩ : BufTy).Contents (Elt Ideal))
    (b : Fin 2) (t e : Fin 2048) :
    Read.val_main_v63 (F := Ideal) x0 x1 x2 x3 x4 x6 x7 x8 x9 (ix3 b t e)
      = ctxR (scoreRow x0 x1 x2 x3 x6 x7 x8 x9 b (headOf e) t)
             (fun s => Read.val_main_v8 (F := Ideal) x1 x4 (ix4 b (headOf e) s (laneOf e))) := by
  have hb := b.isLt; have ht := t.isLt; have he := e.isLt
  have ei : idx_main_v62 (idx_main_v63 (ix3 b t e)) = ix4 b (headOf e) t (laneOf e) := funext fun a => Fin.ext (by
    match a with
    | ⟨0, _⟩ => show ((b.val * 2048 + t.val) * 2048 + e.val) / 4194304 = b.val; omega
    | ⟨1, _⟩ => show ((b.val * 2048 + t.val) * 2048 + e.val) / 128 % 16 = e.val / 128; omega
    | ⟨2, _⟩ => show ((b.val * 2048 + t.val) * 2048 + e.val) / 2048 % 2048 = t.val; omega
    | ⟨3, _⟩ => show ((b.val * 2048 + t.val) * 2048 + e.val) % 128 = e.val % 128; omega)
  rw [val_main_v63_apply, val_main_v62_apply, ei, ref_ctx]

/-- The reference's result at (b, t, e): the merged context rows, in the arrangement that divides each weight first,
    times the transposed output table. -/
theorem ref_tail (x0 x1 : (⟨S2x2048x2048, .f32⟩ : BufTy).Contents (Elt Ideal))
    (x2 x3 x4 x5 : (⟨S2048x2048, .f32⟩ : BufTy).Contents (Elt Ideal))
    (x6 x7 x8 x9 : (⟨S1x1x2048x64, .f32⟩ : BufTy).Contents (Elt Ideal))
    (b : Fin 2) (t e : Fin 2048) :
    Read.val_main_v64 (F := Ideal) x0 x1 x2 x3 x4 x5 x6 x7 x8 x9 (ix3 b t e)
      = proj (ctxRows ctxR (fun b t h d => Read.val_main_v27 (F := Ideal) x0 x2 x6 x7 (ix4 b h t d))
                           (fun b s h d => Read.val_main_v46 (F := Ideal) x1 x3 x8 x9 (ix4 b h s d))
                           (fun b s e' => Read.val_main_v8 (F := Ideal) x1 x4 (ix4 b (headOf e') s (laneOf e'))))
             (table x5) b t e := by
  rw [val_main_v64_apply]
  unfold proj ctxRows table
  refine Finset.sum_congr rfl fun k _ => ?_
  have el : lidx_main_v64 (ix3 b t e) k = ix3 b t k := funext fun a => by
    match a with
    | ⟨0, _⟩ => rfl
    | ⟨1, _⟩ => rfl
    | ⟨2, _⟩ => rfl
  have er : ridx_main_v64 (ix3 b t e) k = ix2 e k := funext fun a => by
    match a with
    | ⟨0, _⟩ => rfl
    | ⟨1, _⟩ => rfl
  have hs : scoreRow x0 x1 x2 x3 x6 x7 x8 x9 b (headOf k) t
      = scores (fun b t h d => Read.val_main_v27 (F := Ideal) x0 x2 x6 x7 (ix4 b h t d))
               (fun b s h d => Read.val_main_v46 (F := Ideal) x1 x3 x8 x9 (ix4 b h s d)) b (headOf k) t :=
    funext fun s => ref_scores x0 x1 x2 x3 x6 x7 x8 x9 b (headOf k) t s
  rw [el, er, ref_merged, hs]

end Cert.ReferenceIdeal.RefValue

end
-- ==== Proof.RefValue.lean ====
/-
  The reference program's result as a function of its arguments: entry (b, t, e) of the run's term is the
  specification's layer in the arrangement that divides each weight first (`ctxR`).  The attention and output
  projection stages give the layer over the rotated query heads, rotated key heads and value heads as opaque entries;
  the projection and rotary stages identify those entries with the specification's `rope (proj …)` and `proj …`.
-/
import proofs.«142431_j50843822850167_2_alg».proof.Proof.RefHeads
import proofs.«142431_j50843822850167_2_alg».proof.Proof.RefTail

noncomputable section

open scoped BigOperators

namespace Cert.ReferenceIdeal.RefValue

open Cert.ReferenceIdeal Cert.ReferenceIdeal.Gen Cert.ReferenceIdeal.Read Cert.Attn
open Idealize.ShloMosaic Idealize.ShloMosaic.ValueIdx

/-- The last stage at (b, t, e) is the layer, arrangement `ctxR`, of the ten argument arrays. -/
theorem ref_layer (x0 x1 : (⟨S2x2048x2048, .f32⟩ : BufTy).Contents (Elt Ideal))
    (x2 x3 x4 x5 : (⟨S2048x2048, .f32⟩ : BufTy).Contents (Elt Ideal))
    (x6 x7 x8 x9 : (⟨S1x1x2048x64, .f32⟩ : BufTy).Contents (Elt Ideal)) (b : Fin 2) (t e : Fin 2048) :
    Read.val_main_v64 (F := Ideal) x0 x1 x2 x3 x4 x5 x6 x7 x8 x9 (ix3 b t e)
      = layer ctxR (rows3 x0) (rows3 x1) (table x2) (table x3) (table x4) (table x5) (rotT x6) (rotT x7) (rotT x8) (rotT x9) b t e := by
  have e1 : (fun (b : Fin 2) (t : Fin 2048) (h : Fin 16) (d : Fin 128) => Read.val_main_v27 (F := Ideal) x0 x2 x6 x7 (ix4 b h t d))
      = rope (proj (rows3 x0) (table x2)) (rotT x6) (rotT x7) :=
    funext fun b => funext fun t => funext fun h => funext fun d => ref_qr x0 x2 x6 x7 b h t d
  have e2 : (fun (b : Fin 2) (s : Fin 2048) (h : Fin 16) (d : Fin 128) => Read.val_main_v46 (F := Ideal) x1 x3 x8 x9 (ix4 b h s d))
      = rope (proj (rows3 x1) (table x3)) (rotT x8) (rotT x9) :=
    funext fun b => funext fun s => funext fun h => funext fun d => ref_kr x1 x3 x8 x9 b h s d
  have e3 : (fun (b : Fin 2) (s : Fin 2048) (e' : Fin 2048) => Read.val_main_v8 (F := Ideal) x1 x4 (ix4 b (headOf e') s (laneOf e')))
      = proj (rows3 x1) (table x4) :=
    funext fun b => funext fun s => funext fun e' => by
      rw [ref_v x1 x4 b (headOf e') s (laneOf e'), col_headOf_laneOf]
  rw [ref_tail, e1, e2, e3]
  rfl

end Cert.ReferenceIdeal.RefValue

end
-- ==== Proof.LibNonnegDistrib.lean ====
/-
  Multiplication by a nonnegative finite extended real distributes over every finite sum of extended reals, whatever
  the summands are: on the extended reals a product distributes over a sum as soon as the factor is nonnegative and is
  not +∞ (the one sum that is not a sum of reals, +∞ + −∞ = −∞, is kept by such a factor: a positive one keeps both
  infinities, and zero sends every term and the sum to zero). Nothing is asked of the summands, so no finiteness of the
  arrays that supply them is needed.

  From it, the row law of a degree-normalised neighbourhood sum: scaling the neighbours before they are added up and
  the total afterwards, or scaling each neighbour by both factors before adding, give the same row.
-/
import Idealize.ShloMosaic.PureOps.Ideal.Laws

noncomputable section

namespace Cert.NonnegDistrib

open scoped BigOperators

/-- A nonnegative factor that is not +∞ goes inside a finite sum of arbitrary extended reals. -/
theorem mul_sum {ι : Type*} (t : Finset ι) (a : EReal) (ha : 0 ≤ a) (ha' : a ≠ ⊤) (f : ι → EReal) :
    a * ∑ i ∈ t, f i = ∑ i ∈ t, a * f i := by
  classical
  refine Finset.induction_on t ?_ ?_
  · simp
  · intro i t hi ih
    rw [Finset.sum_insert hi, Finset.sum_insert hi, EReal.left_distrib_of_nonneg_of_ne_top ha ha', ih]

/-- THE ROW LAW. For one row with normalising factor `σ` (nonnegative, not +∞), neighbours `e ∈ t` contributing the
    value `g e` with the neighbour's own factor `k e`, and the row's own value `v`:
    `σ · ((0 + Σ g e · k e) + v · σ) = (0 + Σ g e · (k e · σ)) + v · (σ · σ)`. -/
theorem row_law {ι : Type*} (t : Finset ι) (σ : EReal) (hσ : 0 ≤ σ) (hσ' : σ ≠ ⊤) (g k : ι → EReal) (v : EReal) :
    σ * ((0 + ∑ e ∈ t, g e * k e) + v * σ) = (0 + ∑ e ∈ t, g e * (k e * σ)) + v * (σ * σ) := by
  rw [EReal.left_distrib_of_nonneg_of_ne_top hσ hσ', zero_add, zero_add, mul_sum t σ hσ hσ']
  congr 1
  · refine Finset.sum_congr rfl fun e _ => ?_
    rw [mul_left_comm, mul_comm σ (k e)]
  · rw [mul_left_comm]

end Cert.NonnegDistrib
-- ==== Proof.LibSoftmaxRows.lean ====
/-
  Row-wise softmax attention over the extended reals, for one query row `q : Fin H → EReal` against a slab of
  `L` value rows `W : Fin L → Fin H → EReal` that serve both as keys and as values.

  The scores are `s v = ∑ h, q h · W v h`; the row's top is the running maximum of the scores from a starting value `b`
  (the fold of `max` over all columns); the unnormalised weights are `e v = exp (s v − top)` and their sum is the
  normaliser `d = ∑ v, e v`. Two arrangements of the normalisation are compared:

  • scaling by the reciprocal: the weight `e v · (1 / d)`, and the mixed row `(∑ v, e v · W v h) · (1 / d)`, the
    reciprocal applied once to the finished sum;
  • dividing: the weight `e v / d`, and the mixed row `∑ v, (e v / d) · W v h`.

  When every score is a real number and `L > 0` the top is a real number (it lies between one score and the largest),
  every `e v` is a positive real, and so `d` is a positive real. Division by a nonzero real is multiplication by its
  reciprocal at every extended real, so the two weights agree; and a nonnegative real factor goes inside a finite sum
  of arbitrary extended reals, so the two mixed rows agree — the rows of `W` that are mixed need not be finite for that,
  only the normaliser.
-/
import Idealize.ShloMosaic.PureOps.Ideal.Laws
import proofs.«142431_j50843822850167_2_alg».proof.Proof.LibNonnegDistrib

noncomputable section

namespace Cert.SoftmaxRows

open Idealize.ShloMosaic
open scoped BigOperators

variable {L H : ℕ}

/-- A finite sum of real numbers read in the extended reals is the sum of the readings. -/
theorem coe_sum {ι : Type*} (t : Finset ι) (f : ι → ℝ) : (∑ i ∈ t, (f i : EReal)) = ((∑ i ∈ t, f i : ℝ) : EReal) := by
  classical
  refine Finset.induction_on t ?_ ?_
  · simp
  · intro i t hi ih
    rw [Finset.sum_insert hi, Finset.sum_insert hi, ih, EReal.coe_add]

/-- The scores of one query row against every row of the slab. -/
def score (q : Fin H → EReal) (W : Fin L → Fin H → EReal) (v : Fin L) : EReal := ∑ h : Fin H, q h * W v h

/-- The row's top: the maximum of `b` and all the scores. -/
def top (b : EReal) (s : Fin L → EReal) : EReal := (Finset.univ : Finset (Fin L)).fold max b s

/-- The unnormalised weight of column `v`. -/
def num (b : EReal) (s : Fin L → EReal) (v : Fin L) : EReal := Ideal.exp (s v - top b s)

/-- The normaliser: the sum of the unnormalised weights. -/
def den (b : EReal) (s : Fin L → EReal) : EReal := ∑ v : Fin L, num b s v

/-- A weight, normalised by the reciprocal. -/
def weightMul (one b : EReal) (s : Fin L → EReal) (v : Fin L) : EReal := num b s v * Ideal.div one (den b s)

/-- A mixed entry: the unnormalised weights against column `h` of the slab, the reciprocal applied to the finished sum. -/
def mixMul (one b : EReal) (s : Fin L → EReal) (W : Fin L → Fin H → EReal) (h : Fin H) : EReal :=
  (∑ v : Fin L, num b s v * W v h) * Ideal.div one (den b s)

/-- A weight, normalised by division. -/
def weightDiv (b : EReal) (s : Fin L → EReal) (v : Fin L) : EReal := Ideal.div (num b s v) (den b s)

/-- A mixed entry from the divided weights. -/
def mixDiv (b : EReal) (s : Fin L → EReal) (W : Fin L → Fin H → EReal) (h : Fin H) : EReal :=
  ∑ v : Fin L, weightDiv b s v * W v h

/-- A score of real rows is a real number. -/
theorem score_real (q : Fin H → EReal) (W : Fin L → Fin H → EReal) (hq : ∀ h, ∃ r : ℝ, q h = (r : EReal))
    (hW : ∀ v h, ∃ r : ℝ, W v h = (r : EReal)) (v : Fin L) : ∃ r : ℝ, score q W v = (r : EReal) := by
  choose q' hq' using hq
  choose W' hW' using hW
  refine ⟨∑ h : Fin H, q' h * W' v h, ?_⟩
  unfold score
  rw [← coe_sum]
  exact Finset.sum_congr rfl fun h _ => by rw [hq' h, hW' v h, EReal.coe_mul]

/-- The top of real scores from a start that is not `+∞`, over at least one column, is a real number. -/
theorem top_real (hL : 0 < L) (b : EReal) (hb : b ≠ ⊤) (s : Fin L → EReal) (hs : ∀ v, ∃ r : ℝ, s v = (r : EReal)) :
    ∃ r : ℝ, top b s = (r : EReal) := by
  have hlt : top b s < ⊤ := by
    unfold top
    rw [Finset.fold_max_lt]
    refine ⟨lt_top_iff_ne_top.2 hb, fun v _ => ?_⟩
    obtain ⟨r, hr⟩ := hs v
    rw [hr]; exact EReal.coe_lt_top r
  have hgt : ⊥ < top b s := by
    unfold top
    rw [Finset.lt_fold_max]
    refine Or.inr ⟨⟨0, hL⟩, Finset.mem_univ _, ?_⟩
    obtain ⟨r, hr⟩ := hs ⟨0, hL⟩
    rw [hr]; exact EReal.bot_lt_coe r
  exact ⟨(top b s).toReal, (EReal.coe_toReal hlt.ne hgt.ne').symm⟩

/-- So the normaliser is a positive real number. -/
theorem den_pos_real (hL : 0 < L) (b : EReal) (hb : b ≠ ⊤) (s : Fin L → EReal) (hs : ∀ v, ∃ r : ℝ, s v = (r : EReal)) :
    ∃ d : ℝ, 0 < d ∧ den b s = (d : EReal) := by
  obtain ⟨m, hm⟩ := top_real hL b hb s hs
  choose s' hs' using hs
  refine ⟨∑ v : Fin L, Real.exp (s' v - m), ?_, ?_⟩
  · exact Finset.sum_pos (fun v _ => Real.exp_pos _) ⟨⟨0, hL⟩, Finset.mem_univ _⟩
  · unfold den
    rw [← coe_sum]
    refine Finset.sum_congr rfl fun v _ => ?_
    unfold num
    rw [hm, hs' v, ← EReal.coe_sub, Ideal.exp_coe]

/-- With a positive real normaliser the two weights agree. -/
theorem weightMul_eq_weightDiv (hL : 0 < L) (b : EReal) (hb : b ≠ ⊤) (s : Fin L → EReal)
    (hs : ∀ v, ∃ r : ℝ, s v = (r : EReal)) (v : Fin L) : weightMul 1 b s v = weightDiv b s v := by
  obtain ⟨d, hd, he⟩ := den_pos_real hL b hb s hs
  unfold weightMul weightDiv
  rw [he, Ideal.div_coe hd.ne', Ideal.div_coe hd.ne', one_mul]

/-- With a positive real normaliser the two mixed entries agree, whatever the slab holds. -/
theorem mixMul_eq_mixDiv (hL : 0 < L) (b : EReal) (hb : b ≠ ⊤) (s : Fin L → EReal)
    (hs : ∀ v, ∃ r : ℝ, s v = (r : EReal)) (W : Fin L → Fin H → EReal) (h : Fin H) :
    mixMul 1 b s W h = mixDiv b s W h := by
  obtain ⟨d, hd, he⟩ := den_pos_real hL b hb s hs
  unfold mixMul mixDiv weightDiv
  rw [he, Ideal.div_coe hd.ne', one_mul, mul_comm,
    Cert.NonnegDistrib.mul_sum _ _ (by exact_mod_cast (one_div_pos.2 hd).le) (EReal.coe_ne_top _)]
  refine Finset.sum_congr rfl fun v _ => ?_
  rw [Ideal.div_coe hd.ne', ← mul_assoc, mul_comm _ (num b s v)]

end Cert.SoftmaxRows

end
-- ==== Proof.SoftmaxLaw.lean ====
/-
  The one place the two programs differ.  For a row of scores `sc` and a column of values `v`, one program divides the
  exponentials' weighted sum of the values by the exponentials' sum (`ctxK`), the other divides each exponential by the
  sum first (`ctxR`).  When every score is a real number the row's maximum is a real number (it lies between one score
  and the largest; the fold starts from −∞), every exponential is a positive real, so their sum is a positive real `D`;
  dividing by `D` is multiplying by `1/D` at every extended real, and the nonnegative real `1/D` goes inside a finite
  sum of arbitrary extended reals.  Nothing is asked of the values.
-/
import proofs.«142431_j50843822850167_2_alg».proof.Proof.Spec
import proofs.«142431_j50843822850167_2_alg».proof.Proof.LibSoftmaxRows

noncomputable section

open scoped BigOperators

namespace Cert.Attn

open Idealize.ShloMosaic Cert.SoftmaxRows

/-- The f32 word 0xFF800000 denotes −∞. -/
theorem ninf_eq_bot : ninf = ⊥ := by
  unfold ninf
  simp [Ideal.ofBits, Ideal.ieee]

theorem ninf_ne_top : ninf ≠ ⊤ := by rw [ninf_eq_bot]; exact bot_ne_top

/-- With real scores, dividing the weighted sum and dividing each weight give the same context entry. -/
theorem ctxK_eq_ctxR (sc v : Fin 2048 → EReal) (hs : ∀ s, ∃ r : ℝ, sc s = (r : EReal)) : ctxK sc v = ctxR sc v := by
  obtain ⟨D, hD, he⟩ := den_pos_real (L := 2048) (by norm_num) ninf ninf_ne_top sc hs
  have h := mixMul_eq_mixDiv (L := 2048) (H := 1) (by norm_num) ninf ninf_ne_top sc hs (fun s _ => v s) 0
  unfold mixMul mixDiv weightDiv at h
  rw [he, Ideal.div_coe hD.ne', one_mul] at h
  show Ideal.div (∑ s : Fin 2048, SoftmaxRows.num ninf sc s * v s) (SoftmaxRows.den ninf sc)
    = ∑ s : Fin 2048, Ideal.div (SoftmaxRows.num ninf sc s) (SoftmaxRows.den ninf sc) * v s
  rw [he, Ideal.div_coe hD.ne']
  exact h

/-- A score of real rows is a real number. -/
theorem score_real (q k : Fin 128 → EReal) (hq : ∀ d, ∃ r : ℝ, q d = (r : EReal)) (hk : ∀ d, ∃ r : ℝ, k d = (r : EReal))
    (hsc : ∃ r : ℝ, scale = (r : EReal)) : ∃ r : ℝ, score q k = (r : EReal) := by
  choose q' hq' using hq
  choose k' hk' using hk
  obtain ⟨c, hc⟩ := hsc
  refine ⟨(∑ d : Fin 128, q' d * k' d) * c, ?_⟩
  unfold score
  rw [hc, EReal.coe_mul, ← SoftmaxRows.coe_sum]
  congr 1
  exact Finset.sum_congr rfl fun d _ => by rw [hq' d, hk' d, EReal.coe_mul]

/-- The scale word denotes a real number. -/
theorem scale_real : ∃ r : ℝ, scale = (r : EReal) := by
  dsimp only [scale, Ideal.ofBits, Ideal.ieee]
  rw [if_neg (by decide), if_neg (by decide)]
  exact ⟨_, rfl⟩

end Cert.Attn

end
-- ==== Proof.LayerLaw.lean ====
/-
  The whole layer in the two arrangements agrees when the hidden rows, the encoder rows, the query and key tables and
  the four rotary tables hold real numbers: projections of real rows by real tables are real (finite sums of products),
  the rotary embedding of real lanes by real table rows is real (two products and a sum or difference), so every score
  is a real number, which is all the row law (SoftmaxLaw.lean) asks.  Nothing is asked of the value and output tables.
-/
import proofs.«142431_j50843822850167_2_alg».proof.Proof.SoftmaxLaw

noncomputable section

open scoped BigOperators

namespace Cert.Attn

open Idealize.ShloMosaic

/-- A projection of real rows by a real table is real. -/
theorem proj_real (X : Rows) (W : Attn.Table) (hX : ∀ b t d, ∃ r : ℝ, X b t d = (r : EReal))
    (hW : ∀ e d, ∃ r : ℝ, W e d = (r : EReal)) (b : Fin 2) (t e : Fin 2048) : ∃ r : ℝ, proj X W b t e = (r : EReal) := by
  choose X' hX' using hX
  choose W' hW' using hW
  refine ⟨∑ d : Fin 2048, X' b t d * W' e d, ?_⟩
  unfold proj
  rw [← SoftmaxRows.coe_sum]
  exact Finset.sum_congr rfl fun d _ => by rw [hX' b t d, hW' e d, EReal.coe_mul]

/-- The rotary embedding of real lanes by real table rows is real. -/
theorem rot_real (x : Fin 128 → EReal) (c s : Fin 64 → EReal) (hx : ∀ d, ∃ r : ℝ, x d = (r : EReal))
    (hc : ∀ i, ∃ r : ℝ, c i = (r : EReal)) (hs : ∀ i, ∃ r : ℝ, s i = (r : EReal)) (d : Fin 128) :
    ∃ r : ℝ, rot x c s d = (r : EReal) := by
  choose x' hx' using hx
  choose c' hc' using hc
  choose s' hs' using hs
  unfold rot
  split
  · exact ⟨x' (lane0 d) * c' (pair d) - x' (lane1 d) * s' (pair d), by
      rw [hx', hx', hc', hs', ← EReal.coe_mul, ← EReal.coe_mul, ← EReal.coe_sub]⟩
  · exact ⟨x' (lane1 d) * c' (pair d) + x' (lane0 d) * s' (pair d), by
      rw [hx', hx', hc', hs', ← EReal.coe_mul, ← EReal.coe_mul, ← EReal.coe_add]⟩

/-- Rotated real rows are real. -/
theorem rope_real (Q : Rows) (c s : Rot) (hQ : ∀ b t e, ∃ r : ℝ, Q b t e = (r : EReal))
    (hc : ∀ t i, ∃ r : ℝ, c t i = (r : EReal)) (hs : ∀ t i, ∃ r : ℝ, s t i = (r : EReal))
    (b : Fin 2) (t : Fin 2048) (h : Fin 16) (d : Fin 128) : ∃ r : ℝ, rope Q c s b t h d = (r : EReal) :=
  rot_real _ _ _ (fun d' => hQ b t (col h d')) (hc t) (hs t) d

/-- THE LAYER LAW: with real hidden rows, encoder rows, query and key tables and rotary tables, the layer with the
    weighted sum divided by the denominator is the layer with each weight divided first. -/
theorem layer_ctxK_eq_ctxR (X E : Rows) (Wq Wk Wv Wo : Attn.Table) (cq sq ck sk : Rot)
    (hX : ∀ b t d, ∃ r : ℝ, X b t d = (r : EReal)) (hE : ∀ b t d, ∃ r : ℝ, E b t d = (r : EReal))
    (hWq : ∀ e d, ∃ r : ℝ, Wq e d = (r : EReal)) (hWk : ∀ e d, ∃ r : ℝ, Wk e d = (r : EReal))
    (hcq : ∀ t i, ∃ r : ℝ, cq t i = (r : EReal)) (hsq : ∀ t i, ∃ r : ℝ, sq t i = (r : EReal))
    (hck : ∀ t i, ∃ r : ℝ, ck t i = (r : EReal)) (hsk : ∀ t i, ∃ r : ℝ, sk t i = (r : EReal)) :
    layer ctxK X E Wq Wk Wv Wo cq sq ck sk = layer ctxR X E Wq Wk Wv Wo cq sq ck sk := by
  unfold layer
  congr 1
  funext b t e
  unfold ctxRows
  refine ctxK_eq_ctxR _ _ fun s => ?_
  exact score_real _ _ (rope_real _ _ _ (proj_real X Wq hX hWq) hcq hsq b t (headOf e))
    (rope_real _ _ _ (proj_real E Wk hE hWk) hck hsk b s (headOf e)) scale_real

end Cert.Attn

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.Finite.lean ====
/-
  The precondition read back: when `finite_inputs` is all ones, every element of every input array is a real number.
  The printed predicate is the conjunction, input by input, of "all elements have absolute value below the word
  0x7F800000" (which denotes +∞); a conjunction of one-bit words is 1 exactly when each is, and an extended real whose
  absolute value is below +∞ is a real number.
-/
import proofs.«142431_j50843822850167_2_alg».proof.Pre_finite_inputs
import proofs.«142431_j50843822850167_2_alg».proof.Proof.LibFiniteInputs
import Idealize.ShloMosaic.Lib.Affine
import Idealize.ShloMosaic.Lib.ValueIdx

noncomputable section

namespace Cert.Pre_finite_inputs.Finite

open Idealize.ShloMosaic Cert.Pre_finite_inputs

variable [Facts]
open Facts

/-- The scalar shape has one index. -/
instance : Subsingleton S_.Idx := ⟨fun a b => funext fun d => d.elim0⟩

/-- A conjunction of two one-bit scalars is 1 only if both are. -/
theorem both (x y : IVec S_ 1) (h : andi x y ValueIdx.ix0 = 1#1) : x ValueIdx.ix0 = 1#1 ∧ y ValueIdx.ix0 = 1#1 :=
  IntOp.andi_eq_one.mp h

/-- Every element of every input is a real number. -/
theorem reals (a0 a1 : FVec Ideal S2x2048x2048 .f32) (a2 a3 a4 a5 : FVec Ideal S2048x2048 .f32)
    (a6 a7 a8 a9 : FVec Ideal S1x1x2048x64 .f32)
    (h : fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) := by
  have h0 := congrFun h ValueIdx.ix0
  dsimp only [fn, fn_part1, fn_part2] at h0
  obtain ⟨h0, e9⟩ := both _ _ h0
  obtain ⟨h0, e8⟩ := both _ _ h0
  obtain ⟨h0, e7⟩ := both _ _ h0
  obtain ⟨h0, e6⟩ := both _ _ h0
  obtain ⟨h0, e5⟩ := both _ _ h0
  obtain ⟨h0, e4⟩ := both _ _ h0
  obtain ⟨h0, e3⟩ := both _ _ h0
  obtain ⟨h0, e2⟩ := both _ _ h0
  obtain ⟨e0, e1⟩ := both _ _ h0
  exact ⟨Cert.FiniteInputs.all_real_of_all_finite a0 _ (fun _ => Cert.FiniteInputs.ofBits_f32_inf) _ _ _ _ e0,
    Cert.FiniteInputs.all_real_of_all_finite a1 _ (fun _ => Cert.FiniteInputs.ofBits_f32_inf) _ _ _ _ e1,
    Cert.FiniteInputs.all_real_of_all_finite a2 _ (fun _ => Cert.FiniteInputs.ofBits_f32_inf) _ _ _ _ e2,
    Cert.FiniteInputs.all_real_of_all_finite a3 _ (fun _ => Cert.FiniteInputs.ofBits_f32_inf) _ _ _ _ e3,
    Cert.FiniteInputs.all_real_of_all_finite a4 _ (fun _ => Cert.FiniteInputs.ofBits_f32_inf) _ _ _ _ e4,
    Cert.FiniteInputs.all_real_of_all_finite a5 _ (fun _ => Cert.FiniteInputs.ofBits_f32_inf) _ _ _ _ e5,
    Cert.FiniteInputs.all_real_of_all_finite a6 _ (fun _ => Cert.FiniteInputs.ofBits_f32_inf) _ _ _ _ e6,
    Cert.FiniteInputs.all_real_of_all_finite a7 _ (fun _ => Cert.FiniteInputs.ofBits_f32_inf) _ _ _ _ e7,
    Cert.FiniteInputs.all_real_of_all_finite a8 _ (fun _ => Cert.FiniteInputs.ofBits_f32_inf) _ _ _ _ e8,
    Cert.FiniteInputs.all_real_of_all_finite a9 _ (fun _ => Cert.FiniteInputs.ofBits_f32_inf) _ _ _ _ e9⟩

end Cert.Pre_finite_inputs.Finite

end
-- ==== Proof.Bridge.lean ====
/-
  The two programs' results are one array.  From memories that agree on the ten arguments, the reference's result at
  (b, t, e) is the layer with each softmax weight divided first (RefValue.lean) and the idealized kernel's is the layer
  with the weighted sum divided (KernelValue.lean), of the same argument arrays; the precondition makes every argument
  entry a real number (Finite.lean), which is what the layer law asks (LayerLaw.lean).
-/
import proofs.«142431_j50843822850167_2_alg».proof.Proof.KernelValue
import proofs.«142431_j50843822850167_2_alg».proof.Proof.RefValue
import proofs.«142431_j50843822850167_2_alg».proof.Proof.LayerLaw
import proofs.«142431_j50843822850167_2_alg».proof.Proof.Finite
import proofs.«142431_j50843822850167_2_alg».proof.Proof.Gen.Pre_finite_inputs

set_option maxRecDepth 16384

noncomputable section

namespace Cert.Bridge

open Idealize.ShloMosaic Idealize.ShloMosaic.TcCoe Idealize.ShloMosaic.ValueIdx Idealize.SL.Sem Cert.Attn

/-- The reference's result array is the idealized kernel's, element by element. -/
theorem result_eq
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v64 (F := Ideal) m' c
      = Cert.KernelIdeal.Gen.W8 (F := Ideal) m ρ c (Proc.devRef .tc Cert.KernelIdeal.main_v69) := by
  obtain ⟨r0, r1, r2, r3, _, _, r6, r7, r8, r9⟩ := Cert.Pre_finite_inputs.Finite.reals _ _ _ _ _ _ _ _ _ _ hpre
  refine funext fun i => ?_
  obtain ⟨b, t, e, rfl⟩ : ∃ (b : Fin 2) (t e : Fin 2048), i = ix3 b t e := ⟨i 0, i 1, i 2, eq_ix3 i⟩
  rw [Cert.ReferenceIdeal.Read.val_main_v64_eq, Cert.ReferenceIdeal.RefValue.ref_layer, h0, h1, h2, h3, h4, h5, h6, h7, h8, h9]
  refine Eq.trans ?_ (Cert.KernelIdeal.KernelValue.kernel_value m ρ c b t e).symm
  exact (congrFun (congrFun (congrFun (layer_ctxK_eq_ctxR _ _ _ _ _ _ _ _ _ _
    (fun b t d => r0 (ix3 b t d)) (fun b t d => r1 (ix3 b t d)) (fun e d => r2 (ix2 e d)) (fun e d => r3 (ix2 e d))
    (fun t i => r6 (ix4 0 0 t i)) (fun t i => r7 (ix4 0 0 t i)) (fun t i => r8 (ix4 0 0 t i)) (fun t i => r9 (ix4 0 0 t i))) b) t) e).symm

end Cert.Bridge

end
-- ==== Proof.lean ====
/-
  Cross attention — query, key and value projections, the rotary embedding of queries and keys, softmax attention per
  head over all key positions, the output projection — computed by five tiled regions among host operations, against the
  same layer computed whole on the host.  At the ideal values the two programs perform the same operations on the same
  entries except in one place: the kernel divides the exponentials' weighted sum of a value column by the exponentials'
  sum, the reference divides each exponential first.  With finite inputs every score is a real number, the sum of the
  exponentials is a positive real, and the two agree (Proof/SoftmaxLaw.lean, Proof/LayerLaw.lean).  The kernel program's
  result is read off its run boundary by boundary (Proof/KernelRun.lean, Proof/KernelValue.lean over the regions' and host
  stretches' values), the reference's off its run stage by stage (Proof/RefValue.lean), both onto one specification
  written over coordinates (Proof/Spec.lean); Proof/Bridge.lean joins them.  The frames are the generated ones; the
  idealization rewrote nothing, so `preserves` is trivial.
-/
import proofs.«142431_j50843822850167_2_alg».proof.Defs
import proofs.«142431_j50843822850167_2_alg».proof.Proof.Gen.Kernel
import proofs.«142431_j50843822850167_2_alg».proof.Proof.Gen.Kernel.Skeleton
import proofs.«142431_j50843822850167_2_alg».proof.Proof.Gen.Kernel.Launch
import proofs.«142431_j50843822850167_2_alg».proof.Proof.Gen.Kernel.Points
import proofs.«142431_j50843822850167_2_alg».proof.Proof.Gen.Kernel.Frame
import proofs.«142431_j50843822850167_2_alg».proof.Proof.Gen.KernelIdeal
import proofs.«142431_j50843822850167_2_alg».proof.Proof.Gen.KernelIdeal.Skeleton
import proofs.«142431_j50843822850167_2_alg».proof.Proof.Gen.KernelIdeal.Launch
import proofs.«142431_j50843822850167_2_alg».proof.Proof.Gen.KernelIdeal.Points
import proofs.«142431_j50843822850167_2_alg».proof.Proof.Gen.KernelIdeal.Frame
import proofs.«142431_j50843822850167_2_alg».proof.Proof.Gen.ReferenceIdeal
import proofs.«142431_j50843822850167_2_alg».proof.Proof.Gen.Pre_finite_inputs
import proofs.«142431_j50843822850167_2_alg».proof.Proof.Gen.ReferenceIdeal.Run
import proofs.«142431_j50843822850167_2_alg».proof.Proof.Gen.ReferenceIdeal.Read
import proofs.«142431_j50843822850167_2_alg».proof.Proof.KernelRun
import proofs.«142431_j50843822850167_2_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the reference's result array is the idealized kernel's (Proof/Bridge.lean). -/
theorem algebraic : Cert.algebraic_KernelIdeal_ReferenceIdeal := by
  intro m ρ m' ρ' hpre hagree
  refine ⟨fun c => Cert.KernelIdeal.Gen.W8 (F := Ideal) m ρ c (Proc.devRef .tc Cert.KernelIdeal.main_v69),
    Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  exact Cert.Bridge.result_eq m ρ m' c (hpre c) h0 h1 h2 h3 h4 h5 h6 h7 h8 h9

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
